-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S253952x6 : Shape := ⟨2, ![253952, 6]⟩
abbrev S2x4063232 : Shape := ⟨2, ![2, 4063232]⟩
abbrev S4063232 : Shape := ⟨1, ![4063232]⟩
abbrev S253952 : Shape := ⟨1, ![253952]⟩
abbrev S6x32 : Shape := ⟨2, ![6, 32]⟩
abbrev S32 : Shape := ⟨1, ![32]⟩
abbrev S32x20 : Shape := ⟨2, ![32, 20]⟩
abbrev S20 : Shape := ⟨1, ![20]⟩
abbrev S20x10 : Shape := ⟨2, ![20, 10]⟩
abbrev S10 : Shape := ⟨1, ![10]⟩
abbrev S10x2 : Shape := ⟨2, ![10, 2]⟩
abbrev S2 : Shape := ⟨1, ![2]⟩
abbrev S_ : Shape := ⟨0, ![]⟩

class Facts : Prop where
  bcast_S_S253952x6 : S_.BroadcastsInDim S253952x6 (![] : Fin 0 → Fin S253952x6.rank)
  reducesTo_S253952x6_S_d0_1 : S253952x6.ReducesTo [0, 1] S_
  h_S_ : 0 < S_.numel
  bcast_S_S4063232 : S_.BroadcastsInDim S4063232 (![] : Fin 0 → Fin S4063232.rank)
  reducesTo_S4063232_S_d0 : S4063232.ReducesTo [0] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S10x2 .f32) (main_v50 : FVec F S10x2 .f32) : IVec S_ 1 :=
  let main_v51 : IVec S10x2 1 := cmpf .olt main_v49 main_v50
  let main_c_19 : IVec S_ 1 := constantI S_ 1 1#1
  let main_v52 : IVec S_ 1 := (fun x v => Host.reduce IntOp.andi x v reducesTo_S10x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S20 .f32) (main_arg10 : FVec F S20x10 .f32) (main_arg11 : FVec F S10 .f32) (main_arg12 : FVec F S10x2 .f32) (main_arg13 : FVec F S2 .f32) (main_v33 : IVec S_ 1) : IVec S_ 1 :=
  let main_v34 : FVec F S20 .f32 := Host.absf main_arg9
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20x10 .f32 := Host.absf main_arg10
  let main_cst_14 : FVec F S_ .f32 := constant S_ .f32 0x7F800000#32
  let main_v40 : FVec F S20x10 .f32 := broadcastInDim S20x10 ![] bcast_S_S20x10 main_cst_14
  let main_v41 : IVec S20x10 1 := cmpf .olt main_v39 main_v40
  let main_c_15 : IVec S_ 1 := constantI S_ 1 1#1
  let main_v42 : IVec S_ 1 := (fun x v => Host.reduce IntOp.andi x v reducesTo_S20x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x2 .f32 := Host.absf main_arg12
  let main_cst_18 : FVec F S_ .f32 := constant S_ .f32 0x7F800000#32
  let main_v50 : FVec F S10x2 .f32 := broadcastInDim S10x2 ![] bcast_S_S10x2 main_cst_18
  fn_part3 (F := F) main_arg13 main_v48 main_v49 main_v50

def fn_part1 {F : FTy → Type} [FloatOps F] (main_arg6 : FVec F S32x20 .f32) (main_arg7 : FVec F S20 .f32) (main_arg8 : FVec F S20 .f32) (main_arg9 : FVec F S20 .f32) (main_arg10 : FVec F S20x10 .f32) (main_arg11 : FVec F S10 .f32) (main_arg12 : FVec F S10x2 .f32) (main_arg13 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x20 .f32 := Host.absf main_arg6
  let main_cst_6 : FVec F S_ .f32 := constant S_ .f32 0x7F800000#32
  let main_v20 : FVec F S32x20 .f32 := broadcastInDim S32x20 ![] bcast_S_S32x20 main_cst_6
  let main_v21 : IVec S32x20 1 := cmpf .olt main_v19 main_v20
  let main_c_7 : IVec S_ 1 := constantI S_ 1 1#1
  let main_v22 : IVec S_ 1 := (fun x v => Host.reduce IntOp.andi x v reducesTo_S32x20_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20 .f32 := Host.absf main_arg8
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S253952x6 .f32) (main_arg1 : IVec S2x4063232 32) (main_arg2 : FVec F S4063232 .f32) (main_arg3 : IVec S253952 32) (main_arg4 : FVec F S6x32 .f32) (main_arg5 : FVec F S32 .f32) (main_arg6 : FVec F S32x20 .f32) (main_arg7 : FVec F S20 .f32) (main_arg8 : FVec F S20 .f32) (main_arg9 : FVec F S20 .f32) (main_arg10 : FVec F S20x10 .f32) (main_arg11 : FVec F S10 .f32) (main_arg12 : FVec F S10x2 .f32) (main_arg13 : FVec F S2 .f32) : IVec S_ 1 :=
  let main_v0 : FVec F S253952x6 .f32 := Host.absf main_arg0
  let main_cst : FVec F S_ .f32 := constant S_ .f32 0x7F800000#32
  let main_v1 : FVec F S253952x6 .f32 := broadcastInDim S253952x6 ![] bcast_S_S253952x6 main_cst
  let main_v2 : IVec S253952x6 1 := cmpf .olt main_v0 main_v1
  let main_c : IVec S_ 1 := constantI S_ 1 1#1
  let main_v3 : IVec S_ 1 := (fun x v => Host.reduce IntOp.andi x v reducesTo_S253952x6_S_d0_1 h_S_) main_v2 main_c
  let main_v4 : FVec F S4063232 .f32 := Host.absf main_arg2
  let main_cst_0 : FVec F S_ .f32 := constant S_ .f32 0x7F800000#32
  let main_v5 : FVec F S4063232 .f32 := broadcastInDim S4063232 ![] bcast_S_S4063232 main_cst_0
  let main_v6 : IVec S4063232 1 := cmpf .olt main_v4 main_v5
  let main_c_1 : IVec S_ 1 := constantI S_ 1 1#1
  let main_v7 : IVec S_ 1 := (fun x v => Host.reduce IntOp.andi x v reducesTo_S4063232_S_d0 h_S_) main_v6 main_c_1
  let main_v8 : IVec S_ 1 := andi main_v3 main_v7
  let main_v9 : FVec F S6x32 .f32 := Host.absf main_arg4
  let main_cst_2 : FVec F S_ .f32 := constant S_ .f32 0x7F800000#32
  let main_v10 : FVec F S6x32 .f32 := broadcastInDim S6x32 ![] bcast_S_S6x32 main_cst_2
  let main_v11 : IVec S6x32 1 := cmpf .olt main_v9 main_v10
  let main_c_3 : IVec S_ 1 := constantI S_ 1 1#1
  let main_v12 : IVec S_ 1 := (fun x v => Host.reduce IntOp.andi x v reducesTo_S6x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_v13 main_v16
-- ==== Kernel.lean ====
abbrev S253952x6 : Shape := ⟨2, ![253952, 6]⟩
abbrev S2x4063232 : Shape := ⟨2, ![2, 4063232]⟩
abbrev S4063232 : Shape := ⟨1, ![4063232]⟩
abbrev S253952 : Shape := ⟨1, ![253952]⟩
abbrev S6x32 : Shape := ⟨2, ![6, 32]⟩
abbrev S32 : Shape := ⟨1, ![32]⟩
abbrev S32x20 : Shape := ⟨2, ![32, 20]⟩
abbrev S20 : Shape := ⟨1, ![20]⟩
abbrev S20x10 : Shape := ⟨2, ![20, 10]⟩
abbrev S10 : Shape := ⟨1, ![10]⟩
abbrev S10x2 : Shape := ⟨2, ![10, 2]⟩
abbrev S2 : Shape := ⟨1, ![2]⟩
abbrev S1x4063232 : Shape := ⟨2, ![1, 4063232]⟩
abbrev S253952x32 : Shape := ⟨2, ![253952, 32]⟩
abbrev S3968x6 : Shape := ⟨2, ![3968, 6]⟩
abbrev S3968x32 : Shape := ⟨2, ![3968, 32]⟩
abbrev S_ : Shape := ⟨0, ![]⟩
abbrev S4063232x1 : Shape := ⟨2, ![4063232, 1]⟩
abbrev S4063232x32 : Shape := ⟨2, ![4063232, 32]⟩
abbrev S1x32 : Shape := ⟨2, ![1, 32]⟩
abbrev S253952x20 : Shape := ⟨2, ![253952, 20]⟩
abbrev S3968x20 : Shape := ⟨2, ![3968, 20]⟩
abbrev S4063232x20 : Shape := ⟨2, ![4063232, 20]⟩
abbrev S1x20 : Shape := ⟨2, ![1, 20]⟩
abbrev S4096x20 : Shape := ⟨2, ![4096, 20]⟩
abbrev S253952x1 : Shape := ⟨2, ![253952, 1]⟩
abbrev S1x10 : Shape := ⟨2, ![1, 10]⟩
abbrev S1x2 : Shape := ⟨2, ![1, 2]⟩
abbrev S4096x2 : Shape := ⟨2, ![4096, 2]⟩
abbrev S4096x10 : Shape := ⟨2, ![4096, 10]⟩

abbrev nBuf : Space → Nat
  | .hbm => 85
  | .vmem => 35
  | .smem => 0
  | _ => 0

abbrev bufTy : (tb : Table) → Fin (tcTables nBuf tb) → BufTy
  | .hbm, ⟨0, _⟩ => ⟨S253952x6, .f32⟩
  | .hbm, ⟨1, _⟩ => ⟨S2x4063232, .i32⟩
  | .hbm, ⟨2, _⟩ => ⟨S4063232, .f32⟩
  | .hbm, ⟨3, _⟩ => ⟨S253952, .i32⟩
  | .hbm, ⟨4, _⟩ => ⟨S6x32, .f32⟩
  | .hbm, ⟨5, _⟩ => ⟨S32, .f32⟩
  | .hbm, ⟨6, _⟩ => ⟨S32x20, .f32⟩
  | .hbm, ⟨7, _⟩ => ⟨S20, .f32⟩
  | .hbm, ⟨8, _⟩ => ⟨S20, .f32⟩
  | .hbm, ⟨9, _⟩ => ⟨S20, .f32⟩
  | .hbm, ⟨10, _⟩ => ⟨S20x10, .f32⟩
  | .hbm, ⟨11, _⟩ => ⟨S10, .f32⟩
  | .hbm, ⟨12, _⟩ => ⟨S10x2, .f32⟩
  | .hbm, ⟨13, _⟩ => ⟨S2, .f32⟩
  | .hbm, ⟨14, _⟩ => ⟨S1x4063232, .i32⟩
  | .hbm, ⟨15, _⟩ => ⟨S4063232, .i32⟩
  | .hbm, ⟨16, _⟩ => ⟨S1x4063232, .i32⟩
  | .hbm, ⟨17, _⟩ => ⟨S4063232, .i32⟩
  | .hbm, ⟨18, _⟩ => ⟨S253952x32, .f32⟩
  | .hbm, ⟨19, _⟩ => ⟨S_, .i32⟩
  | .hbm, ⟨20, _⟩ => ⟨S4063232, .i32⟩
  | .hbm, ⟨21, _⟩ => ⟨S4063232, .i1⟩
  | .hbm, ⟨22, _⟩ => ⟨S_, .i32⟩
  | .hbm, ⟨23, _⟩ => ⟨S4063232, .i32⟩
  | .hbm, ⟨24, _⟩ => ⟨S4063232, .i32⟩
  | .hbm, ⟨25, _⟩ => ⟨S4063232, .i32⟩
  | .hbm, ⟨26, _⟩ => ⟨S4063232x1, .i32⟩
  | .hbm, ⟨27, _⟩ => ⟨S4063232x32, .f32⟩
  | .hbm, ⟨28, _⟩ => ⟨S4063232x1, .f32⟩
  | .hbm, ⟨29, _⟩ => ⟨S4063232x32, .f32⟩
  | .hbm, ⟨30, _⟩ => ⟨S4063232x32, .f32⟩
  | .hbm, ⟨31, _⟩ => ⟨S_, .f32⟩
  | .hbm, ⟨32, _⟩ => ⟨S253952x32, .f32⟩
  | .hbm, ⟨33, _⟩ => ⟨S4063232x1, .i32⟩
  | .hbm, ⟨34, _⟩ => ⟨S253952x32, .f32⟩
  | .hbm, ⟨35, _⟩ => ⟨S1x32, .f32⟩
  | .hbm, ⟨36, _⟩ => ⟨S253952x32, .f32⟩
  | .hbm, ⟨37, _⟩ => ⟨S253952x20, .f32⟩
  | .hbm, ⟨38, _⟩ => ⟨S_, .i32⟩
  | .hbm, ⟨39, _⟩ => ⟨S4063232, .i32⟩
  | .hbm, ⟨40, _⟩ => ⟨S4063232, .i1⟩
  | .hbm, ⟨41, _⟩ => ⟨S_, .i32⟩
  | .hbm, ⟨42, _⟩ => ⟨S4063232, .i32⟩
  | .hbm, ⟨43, _⟩ => ⟨S4063232, .i32⟩
  | .hbm, ⟨44, _⟩ => ⟨S4063232, .i32⟩
  | .hbm, ⟨45, _⟩ => ⟨S4063232x1, .i32⟩
  | .hbm, ⟨46, _⟩ => ⟨S4063232x20, .f32⟩
  | .hbm, ⟨47, _⟩ => ⟨S4063232x1, .f32⟩
  | .hbm, ⟨48, _⟩ => ⟨S4063232x20, .f32⟩
  | .hbm, ⟨49, _⟩ => ⟨S4063232x20, .f32⟩
  | .hbm, ⟨50, _⟩ => ⟨S_, .f32⟩
  | .hbm, ⟨51, _⟩ => ⟨S253952x20, .f32⟩
  | .hbm, ⟨52, _⟩ => ⟨S4063232x1, .i32⟩
  | .hbm, ⟨53, _⟩ => ⟨S253952x20, .f32⟩
  | .hbm, ⟨54, _⟩ => ⟨S1x20, .f32⟩
  | .hbm, ⟨55, _⟩ => ⟨S1x20, .f32⟩
  | .hbm, ⟨56, _⟩ => ⟨S1x20, .f32⟩
  | .hbm, ⟨57, _⟩ => ⟨S20, .f32⟩
  | .hbm, ⟨58, _⟩ => ⟨S_, .f32⟩
  | .hbm, ⟨59, _⟩ => ⟨S20, .f32⟩
  | .hbm, ⟨60, _⟩ => ⟨S20, .f32⟩
  | .hbm, ⟨61, _⟩ => ⟨S20, .f32⟩
  | .hbm, ⟨62, _⟩ => ⟨S_, .f32⟩
  | .hbm, ⟨63, _⟩ => ⟨S20, .f32⟩
  | .hbm, ⟨64, _⟩ => ⟨S20, .f32⟩
  | .hbm, ⟨65, _⟩ => ⟨S20, .f32⟩
  | .hbm, ⟨66, _⟩ => ⟨S20, .f32⟩
  | .hbm, ⟨67, _⟩ => ⟨S_, .f32⟩
  | .hbm, ⟨68, _⟩ => ⟨S20, .f32⟩
  | .hbm, ⟨69, _⟩ => ⟨S20, .f32⟩
  | .hbm, ⟨70, _⟩ => ⟨S20, .f32⟩
  | .hbm, ⟨71, _⟩ => ⟨S20, .f32⟩
  | .hbm, ⟨72, _⟩ => ⟨S20, .f32⟩
  | .hbm, ⟨73, _⟩ => ⟨S20, .f32⟩
  | .hbm, ⟨74, _⟩ => ⟨S1x20, .f32⟩
  | .hbm, ⟨75, _⟩ => ⟨S1x20, .f32⟩
  | .hbm, ⟨76, _⟩ => ⟨S1x20, .f32⟩
  | .hbm, ⟨77, _⟩ => ⟨S253952x20, .f32⟩
  | .hbm, ⟨78, _⟩ => ⟨S_, .f32⟩
  | .hbm, ⟨79, _⟩ => ⟨S4096x20, .f32⟩
  | .hbm, ⟨80, _⟩ => ⟨S253952x1, .i32⟩
  | .hbm, ⟨81, _⟩ => ⟨S4096x20, .f32⟩
  | .hbm, ⟨82, _⟩ => ⟨S1x10, .f32⟩
  | .hbm, ⟨83, _⟩ => ⟨S1x2, .f32⟩
  | .hbm, ⟨84, _⟩ => ⟨S4096x2, .f32⟩
  | .local _ .vmem, ⟨0, _⟩ => ⟨S3968x6, .f32⟩
  | .local _ .vmem, ⟨1, _⟩ => ⟨S3968x6, .f32⟩
  | .local _ .vmem, ⟨2, _⟩ => ⟨S6x32, .f32⟩
  | .local _ .vmem, ⟨3, _⟩ => ⟨S3968x32, .f32⟩
  | .local _ .vmem, ⟨4, _⟩ => ⟨S3968x32, .f32⟩
  | .local _ .vmem, ⟨5, _⟩ => ⟨S3968x32, .f32⟩
  | .local _ .vmem, ⟨6, _⟩ => ⟨S3968x32, .f32⟩
  | .local _ .vmem, ⟨7, _⟩ => ⟨S1x32, .f32⟩
  | .local _ .vmem, ⟨8, _⟩ => ⟨S3968x32, .f32⟩
  | .local _ .vmem, ⟨9, _⟩ => ⟨S3968x32, .f32⟩
  | .local _ .vmem, ⟨10, _⟩ => ⟨S3968x32, .f32⟩
  | .local _ .vmem, ⟨11, _⟩ => ⟨S3968x32, .f32⟩
  | .local _ .vmem, ⟨12, _⟩ => ⟨S32x20, .f32⟩
  | .local _ .vmem, ⟨13, _⟩ => ⟨S3968x20, .f32⟩
  | .local _ .vmem, ⟨14, _⟩ => ⟨S3968x20, .f32⟩
  | .local _ .vmem, ⟨15, _⟩ => ⟨S3968x20, .f32⟩
  | .local _ .vmem, ⟨16, _⟩ => ⟨S3968x20, .f32⟩
  | .local _ .vmem, ⟨17, _⟩ => ⟨S1x20, .f32⟩
  | .local _ .vmem, ⟨18, _⟩ => ⟨S1x20, .f32⟩
  | .local _ .vmem, ⟨19, _⟩ => ⟨S1x20, .f32⟩
  | .local _ .vmem, ⟨20, _⟩ => ⟨S1x20, .f32⟩
  | .local _ .vmem, ⟨21, _⟩ => ⟨S1x20, .f32⟩
  | .local _ .vmem, ⟨22, _⟩ => ⟨S3968x20, .f32⟩
  | .local _ .vmem, ⟨23, _⟩ => ⟨S3968x20, .f32⟩
  | .local _ .vmem, ⟨24, _⟩ => ⟨S1x20, .f32⟩
  | .local _ .vmem, ⟨25, _⟩ => ⟨S1x20, .f32⟩
  | .local _ .vmem, ⟨26, _⟩ => ⟨S1x20, .f32⟩
  | .local _ .vmem, ⟨27, _⟩ => ⟨S3968x20, .f32⟩
  | .local _ .vmem, ⟨28, _⟩ => ⟨S3968x20, .f32⟩
  | .local _ .vmem, ⟨29, _⟩ => ⟨S4096x20, .f32⟩
  | .local _ .vmem, ⟨30, _⟩ => ⟨S20x10, .f32⟩
  | .local _ .vmem, ⟨31, _⟩ => ⟨S1x10, .f32⟩
  | .local _ .vmem, ⟨32, _⟩ => ⟨S10x2, .f32⟩
  | .local _ .vmem, ⟨33, _⟩ => ⟨S1x2, .f32⟩
  | .local _ .vmem, ⟨34, _⟩ => ⟨S4096x2, .f32⟩
  | _, _ => ⟨S253952x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_scratch0 : Ref sig .tc := ⟨.vmem, 20, rfl⟩
abbrev cc3_scratch1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg4_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem4_1 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3968x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3968x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3968x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3968x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3968x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3968x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def k3_cond2 (i : grid3.Coords) : BitVec 1 :=
  let arg0 : BitVec 32 := BitVec.ofNat 32 (i 0).val
  let c63_i32 : BitVec 32 := 63#32
  let v25 : BitVec 1 := Scalar.cmpi .eq arg0 c63_i32
  let v26 : BitVec 32 := Scalar.extui v25
  let c0_i32_13 : BitVec 32 := 0#32
  let v27 : BitVec 1 := Scalar.cmpi .ne v26 c0_i32_13
  v27

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3968x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x20 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3968x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x20 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x20 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x20 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3968x20 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S4096x20 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S20x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4096x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x4063232_S1x4063232_0_0 : S2x4063232.Slices ![0, 0] S1x4063232
  shapeCasts_S1x4063232_S4063232 : S1x4063232.ShapeCasts S4063232
  slices_S2x4063232_S1x4063232_1_0 : S2x4063232.Slices ![1, 0] S1x4063232
  inb_S3968x6_S3968x6_0_0 : ∀ a, (![0, 0] : Fin 2 → Nat) a + S3968x6.size a ≤ S3968x6.size a
  h_S3968x6 : 0 < S3968x6.numel
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S3968x32_S3968x32_0_0 : ∀ a, (![0, 0] : Fin 2 → Nat) a + S3968x32.size a ≤ S3968x32.size a
  h_S3968x32 : 0 < S3968x32.numel
  bcast_S_S4063232 : S_.BroadcastsInDim S4063232 (![] : Fin 0 → Fin S4063232.rank)
  bcast_S4063232_S4063232x1_0 : S4063232.BroadcastsInDim S4063232x1 (![0] : Fin 1 → Fin S4063232x1.rank)
  bcast_S4063232x1_S4063232x32_0_1 : S4063232x1.BroadcastsInDim S4063232x32 (![0, 1] : Fin 2 → Fin S4063232x32.rank)
  bcast_S_S253952x32 : S_.BroadcastsInDim S253952x32 (![] : Fin 0 → Fin S253952x32.rank)
  shapeCasts_S32_S1x32 : S32.ShapeCasts S1x32
  shapeCasts_S3968x32_S3968x32 : S3968x32.ShapeCasts S3968x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3968x32 : S1x32.Broadcasts S3968x32
  inb_S32x20_S32x20_0_0 : ∀ a, (![0, 0] : Fin 2 → Nat) a + S32x20.size a ≤ S32x20.size a
  h_S32x20 : 0 < S32x20.numel
  inb_S3968x20_S3968x20_0_0 : ∀ a, (![0, 0] : Fin 2 → Nat) a + S3968x20.size a ≤ S3968x20.size a
  h_S3968x20 : 0 < S3968x20.numel
  bcast_S4063232x1_S4063232x20_0_1 : S4063232x1.BroadcastsInDim S4063232x20 (![0, 1] : Fin 2 → Fin S4063232x20.rank)
  bcast_S_S253952x20 : S_.BroadcastsInDim S253952x20 (![] : Fin 0 → Fin S253952x20.rank)
  shapeCasts_S20_S1x20 : S20.ShapeCasts S1x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  shapeCasts_S3968x20_S3968x20 : S3968x20.ShapeCasts S3968x20
  broadcasts_S1x20_S3968x20 : S1x20.Broadcasts S3968x20
  reduces_S3968x20_S20 : S3968x20.Reduces [0] S20
  shapeCasts_S1x20_S20 : S1x20.ShapeCasts S20
  bcast_S_S20 : S_.BroadcastsInDim S20 (![] : Fin 0 → Fin S20.rank)
  bcast_S_S4096x20 : S_.BroadcastsInDim S4096x20 (![] : Fin 0 → Fin S4096x20.rank)
  bcast_S253952_S253952x1_0 : S253952.BroadcastsInDim S253952x1 (![0] : Fin 1 → Fin S253952x1.rank)
  shapeCasts_S10_S1x10 : S10.ShapeCasts S1x10
  shapeCasts_S2_S1x2 : S2.ShapeCasts S1x2
  inb_S4096x20_S4096x20_0_0 : ∀ a, (![0, 0] : Fin 2 → Nat) a + S4096x20.size a ≤ S4096x20.size a
  h_S4096x20 : 0 < S4096x20.numel
  shapeCasts_S4096x20_S4096x20 : S4096x20.ShapeCasts S4096x20
  inb_S20x10_S20x10_0_0 : ∀ a, (![0, 0] : Fin 2 → Nat) a + S20x10.size a ≤ S20x10.size a
  h_S20x10 : 0 < S20x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4096x10 : S1x10.Broadcasts S4096x10
  inb_S10x2_S10x2_0_0 : ∀ a, (![0, 0] : Fin 2 → Nat) a + S10x2.size a ≤ S10x2.size a
  h_S10x2 : 0 < S10x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S3968x6_S6x32_S3968x32_1_0_0_1_n_n_wf : DotDims.WF S3968x6 S6x32 S3968x32 [1] [0] [0] [1] [] []
  gather_S253952x32_S4063232x1_S4063232x32_1_0_n_n_0_1_132_wf : GatherDims.WF S253952x32 S4063232x1 S4063232x32 [1] [0] [] [0] [] 1 ![1, 32]
  scatter_S253952x32_S4063232x1_S4063232x32_1_0_0_1_wf : ScatterDims.WF S253952x32 S4063232x1 S4063232x32 [1] [0] [0] 1
  dot_S3968x32_S32x20_S3968x20_1_0_0_1_n_n_wf : DotDims.WF S3968x32 S32x20 S3968x20 [1] [0] [0] [1] [] []
  gather_S253952x20_S4063232x1_S4063232x20_1_0_n_n_0_1_120_wf : GatherDims.WF S253952x20 S4063232x1 S4063232x20 [1] [0] [] [0] [] 1 ![1, 20]
  scatter_S253952x20_S4063232x1_S4063232x20_1_0_0_1_wf : ScatterDims.WF S253952x20 S4063232x1 S4063232x20 [1] [0] [0] 1
  scatter_S4096x20_S253952x1_S253952x20_1_0_0_1_wf : ScatterDims.WF S4096x20 S253952x1 S253952x20 [1] [0] [0] 1
  dot_S4096x20_S20x10_S4096x10_1_0_0_1_n_n_wf : DotDims.WF S4096x20 S20x10 S4096x10 [1] [0] [0] [1] [] []
  dot_S4096x10_S10x2_S4096x2_1_0_0_1_n_n_wf : DotDims.WF S4096x10 S10x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3968x6.size a ≤ S253952x6.size a
  hwx0_0 : ∀ i : grid0.Coords, EltTy.bits .f32 = 32 ∨ (Rect.block (s := S253952x6) S3968x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3968x32.size a ≤ S253952x32.size a
  hwx0_2 : ∀ i : grid0.Coords, EltTy.bits .f32 = 32 ∨ (Rect.block (s := S253952x32) S3968x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3968x32.size a ≤ S253952x32.size a
  hwx1_0 : ∀ i : grid1.Coords, EltTy.bits .f32 = 32 ∨ (Rect.block (s := S253952x32) S3968x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3968x32.size a ≤ S253952x32.size a
  hwx1_2 : ∀ i : grid1.Coords, EltTy.bits .f32 = 32 ∨ (Rect.block (s := S253952x32) S3968x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3968x32.size a ≤ S253952x32.size a
  hwx2_0 : ∀ i : grid2.Coords, EltTy.bits .f32 = 32 ∨ (Rect.block (s := S253952x32) S3968x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x20.size a ≤ S32x20.size a
  hwx2_1 : ∀ i : grid2.Coords, EltTy.bits .f32 = 32 ∨ (Rect.block (s := S32x20) S32x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3968x20.size a ≤ S253952x20.size a
  hwx2_2 : ∀ i : grid2.Coords, EltTy.bits .f32 = 32 ∨ (Rect.block (s := S253952x20) S3968x20.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3968x20.size a ≤ S253952x20.size a
  hwx3_0 : ∀ i : grid3.Coords, EltTy.bits .f32 = 32 ∨ (Rect.block (s := S253952x20) S3968x20.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x20.size a ≤ S1x20.size a
  hwx3_1 : ∀ i : grid3.Coords, EltTy.bits .f32 = 32 ∨ (Rect.block (s := S1x20) S1x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x20.size a ≤ S1x20.size a
  hwx3_2 : ∀ i : grid3.Coords, EltTy.bits .f32 = 32 ∨ (Rect.block (s := S1x20) S1x20.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x20.size a ≤ S1x20.size a
  hwx3_3 : ∀ i : grid3.Coords, EltTy.bits .f32 = 32 ∨ (Rect.block (s := S1x20) S1x20.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3968x20.size a ≤ S253952x20.size a
  hwx4_0 : ∀ i : grid4.Coords, EltTy.bits .f32 = 32 ∨ (Rect.block (s := S253952x20) S3968x20.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x20.size a ≤ S1x20.size a
  hwx4_1 : ∀ i : grid4.Coords, EltTy.bits .f32 = 32 ∨ (Rect.block (s := S1x20) S1x20.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x20.size a ≤ S1x20.size a
  hwx4_2 : ∀ i : grid4.Coords, EltTy.bits .f32 = 32 ∨ (Rect.block (s := S1x20) S1x20.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x20.size a ≤ S1x20.size a
  hwx4_3 : ∀ i : grid4.Coords, EltTy.bits .f32 = 32 ∨ (Rect.block (s := S1x20) S1x20.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3968x20.size a ≤ S253952x20.size a
  hwx4_4 : ∀ i : grid4.Coords, EltTy.bits .f32 = 32 ∨ (Rect.block (s := S253952x20) S3968x20.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S4096x20.size a ≤ S4096x20.size a
  hwx5_0 : ∀ i : grid5.Coords, EltTy.bits .f32 = 32 ∨ (Rect.block (s := S4096x20) S4096x20.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S20x10.size a ≤ S20x10.size a
  hwx5_1 : ∀ i : grid5.Coords, EltTy.bits .f32 = 32 ∨ (Rect.block (s := S20x10) S20x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10x2.size a ≤ S10x2.size a
  hwx5_3 : ∀ i : grid5.Coords, EltTy.bits .f32 = 32 ∨ (Rect.block (s := S10x2) S10x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S4096x2.size a ≤ S4096x2.size a
  hwx5_5 : ∀ i : grid5.Coords, EltTy.bits .f32 = 32 ∨ (Rect.block (s := S4096x2) S4096x2.size (cc5_transform_5 i) (hinb5_5 i)).WholeWords (EltTy.packing .f32)

variable [Facts₀]

def dot_S3968x6_S6x32_S3968x32_1_0_0_1_n_n : DotDims S3968x6 S6x32 S3968x32 where
  lhsContracting := [1]
  rhsContracting := [0]
  lhsNonContracting := [0]
  rhsNonContracting := [1]
  lhsBatch := []
  rhsBatch := []
  wf := dot_S3968x6_S6x32_S3968x32_1_0_0_1_n_n_wf
def gather_S253952x32_S4063232x1_S4063232x32_1_0_n_n_0_1_132 : GatherDims S253952x32 S4063232x1 S4063232x32 where
  offsetDims := [1]
  collapsedSliceDims := [0]
  operandBatchingDims := []
  startIndicesBatchingDims := []
  startIndexMap := [0]
  indexVectorDim := 1
  sliceSizes := ![1, 32]
  wf := gather_S253952x32_S4063232x1_S4063232x32_1_0_n_n_0_1_132_wf
def scatter_S253952x32_S4063232x1_S4063232x32_1_0_0_1 : ScatterDims S253952x32 S4063232x1 S4063232x32 where
  updateWindowDims := [1]
  insertedWindowDims := [0]
  scatterDimsToOperandDims := [0]
  indexVectorDim := 1
  wf := scatter_S253952x32_S4063232x1_S4063232x32_1_0_0_1_wf
def dot_S3968x32_S32x20_S3968x20_1_0_0_1_n_n : DotDims S3968x32 S32x20 S3968x20 where
  lhsContracting := [1]
  rhsContracting := [0]
  lhsNonContracting := [0]
  rhsNonContracting := [1]
  lhsBatch := []
  rhsBatch := []
  wf := dot_S3968x32_S32x20_S3968x20_1_0_0_1_n_n_wf
def gather_S253952x20_S4063232x1_S4063232x20_1_0_n_n_0_1_120 : GatherDims S253952x20 S4063232x1 S4063232x20 where
  offsetDims := [1]
  collapsedSliceDims := [0]
  operandBatchingDims := []
  startIndicesBatchingDims := []
  startIndexMap := [0]
  indexVectorDim := 1
  sliceSizes := ![1, 20]
  wf := gather_S253952x20_S4063232x1_S4063232x20_1_0_n_n_0_1_120_wf
def scatter_S253952x20_S4063232x1_S4063232x20_1_0_0_1 : ScatterDims S253952x20 S4063232x1 S4063232x20 where
  updateWindowDims := [1]
  insertedWindowDims := [0]
  scatterDimsToOperandDims := [0]
  indexVectorDim := 1
  wf := scatter_S253952x20_S4063232x1_S4063232x20_1_0_0_1_wf
def scatter_S4096x20_S253952x1_S253952x20_1_0_0_1 : ScatterDims S4096x20 S253952x1 S253952x20 where
  updateWindowDims := [1]
  insertedWindowDims := [0]
  scatterDimsToOperandDims := [0]
  indexVectorDim := 1
  wf := scatter_S4096x20_S253952x1_S253952x20_1_0_0_1_wf
def dot_S4096x20_S20x10_S4096x10_1_0_0_1_n_n : DotDims S4096x20 S20x10 S4096x10 where
  lhsContracting := [1]
  rhsContracting := [0]
  lhsNonContracting := [0]
  rhsNonContracting := [1]
  lhsBatch := []
  rhsBatch := []
  wf := dot_S4096x20_S20x10_S4096x10_1_0_0_1_n_n_wf
def dot_S4096x10_S10x2_S4096x2_1_0_0_1_n_n : DotDims S4096x10 S10x2 S4096x2 where
  lhsContracting := [1]
  rhsContracting := [0]
  lhsNonContracting := [0]
  rhsNonContracting := [1]
  lhsBatch := []
  rhsBatch := []
  wf := dot_S4096x10_S10x2_S4096x2_1_0_0_1_n_n_wf

abbrev win0_0 : Pipeline.Window sig grid0 :=
  Pipeline.Window.ofSpec (Memref.whole main_arg0) S3968x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3968x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S3968x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S3968x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S3968x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S3968x20.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S3968x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35_0) S1x20.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35_1) S1x20.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun i => !(k3_cond2 i == 1#1) | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v33) S3968x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S1x20.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x20.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x20.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S3968x20.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v56) S4096x20.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S20x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v57) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S10x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S4096x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S253952x6 : Shape := ⟨2, ![253952, 6]⟩
abbrev S2x4063232 : Shape := ⟨2, ![2, 4063232]⟩
abbrev S4063232 : Shape := ⟨1, ![4063232]⟩
abbrev S253952 : Shape := ⟨1, ![253952]⟩
abbrev S6x32 : Shape := ⟨2, ![6, 32]⟩
abbrev S32 : Shape := ⟨1, ![32]⟩
abbrev S32x20 : Shape := ⟨2, ![32, 20]⟩
abbrev S20 : Shape := ⟨1, ![20]⟩
abbrev S20x10 : Shape := ⟨2, ![20, 10]⟩
abbrev S10 : Shape := ⟨1, ![10]⟩
abbrev S10x2 : Shape := ⟨2, ![10, 2]⟩
abbrev S2 : Shape := ⟨1, ![2]⟩
abbrev S1x4063232 : Shape := ⟨2, ![1, 4063232]⟩
abbrev S253952x32 : Shape := ⟨2, ![253952, 32]⟩
abbrev S_ : Shape := ⟨0, ![]⟩
abbrev S4063232x1 : Shape := ⟨2, ![4063232, 1]⟩
abbrev S4063232x32 : Shape := ⟨2, ![4063232, 32]⟩
abbrev S1x32 : Shape := ⟨2, ![1, 32]⟩
abbrev S253952x20 : Shape := ⟨2, ![253952, 20]⟩
abbrev S4063232x20 : Shape := ⟨2, ![4063232, 20]⟩
abbrev S1x20 : Shape := ⟨2, ![1, 20]⟩
abbrev S4096x20 : Shape := ⟨2, ![4096, 20]⟩
abbrev S253952x1 : Shape := ⟨2, ![253952, 1]⟩
abbrev S4096x10 : Shape := ⟨2, ![4096, 10]⟩
abbrev S1x10 : Shape := ⟨2, ![1, 10]⟩
abbrev S4096x2 : Shape := ⟨2, ![4096, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S253952x6, .f32⟩
  | .hbm, ⟨1, _⟩ => ⟨S2x4063232, .i32⟩
  | .hbm, ⟨2, _⟩ => ⟨S4063232, .f32⟩
  | .hbm, ⟨3, _⟩ => ⟨S253952, .i32⟩
  | .hbm, ⟨4, _⟩ => ⟨S6x32, .f32⟩
  | .hbm, ⟨5, _⟩ => ⟨S32, .f32⟩
  | .hbm, ⟨6, _⟩ => ⟨S32x20, .f32⟩
  | .hbm, ⟨7, _⟩ => ⟨S20, .f32⟩
  | .hbm, ⟨8, _⟩ => ⟨S20, .f32⟩
  | .hbm, ⟨9, _⟩ => ⟨S20, .f32⟩
  | .hbm, ⟨10, _⟩ => ⟨S20x10, .f32⟩
  | .hbm, ⟨11, _⟩ => ⟨S10, .f32⟩
  | .hbm, ⟨12, _⟩ => ⟨S10x2, .f32⟩
  | .hbm, ⟨13, _⟩ => ⟨S2, .f32⟩
  | .hbm, ⟨14, _⟩ => ⟨S1x4063232, .i32⟩
  | .hbm, ⟨15, _⟩ => ⟨S4063232, .i32⟩
  | .hbm, ⟨16, _⟩ => ⟨S1x4063232, .i32⟩
  | .hbm, ⟨17, _⟩ => ⟨S4063232, .i32⟩
  | .hbm, ⟨18, _⟩ => ⟨S253952x32, .f32⟩
  | .hbm, ⟨19, _⟩ => ⟨S_, .i32⟩
  | .hbm, ⟨20, _⟩ => ⟨S4063232, .i32⟩
  | .hbm, ⟨21, _⟩ => ⟨S4063232, .i1⟩
  | .hbm, ⟨22, _⟩ => ⟨S_, .i32⟩
  | .hbm, ⟨23, _⟩ => ⟨S4063232, .i32⟩
  | .hbm, ⟨24, _⟩ => ⟨S4063232, .i32⟩
  | .hbm, ⟨25, _⟩ => ⟨S4063232, .i32⟩
  | .hbm, ⟨26, _⟩ => ⟨S4063232x1, .i32⟩
  | .hbm, ⟨27, _⟩ => ⟨S4063232x32, .f32⟩
  | .hbm, ⟨28, _⟩ => ⟨S4063232x1, .f32⟩
  | .hbm, ⟨29, _⟩ => ⟨S4063232x32, .f32⟩
  | .hbm, ⟨30, _⟩ => ⟨S4063232x32, .f32⟩
  | .hbm, ⟨31, _⟩ => ⟨S_, .f32⟩
  | .hbm, ⟨32, _⟩ => ⟨S253952x32, .f32⟩
  | .hbm, ⟨33, _⟩ => ⟨S4063232x1, .i32⟩
  | .hbm, ⟨34, _⟩ => ⟨S253952x32, .f32⟩
  | .hbm, ⟨35, _⟩ => ⟨S1x32, .f32⟩
  | .hbm, ⟨36, _⟩ => ⟨S253952x32, .f32⟩
  | .hbm, ⟨37, _⟩ => ⟨S253952x32, .f32⟩
  | .hbm, ⟨38, _⟩ => ⟨S_, .f32⟩
  | .hbm, ⟨39, _⟩ => ⟨S253952x32, .f32⟩
  | .hbm, ⟨40, _⟩ => ⟨S253952x32, .i1⟩
  | .hbm, ⟨41, _⟩ => ⟨S_, .f32⟩
  | .hbm, ⟨42, _⟩ => ⟨S253952x32, .f32⟩
  | .hbm, ⟨43, _⟩ => ⟨S253952x32, .f32⟩
  | .hbm, ⟨44, _⟩ => ⟨S253952x32, .f32⟩
  | .hbm, ⟨45, _⟩ => ⟨S253952x20, .f32⟩
  | .hbm, ⟨46, _⟩ => ⟨S_, .i32⟩
  | .hbm, ⟨47, _⟩ => ⟨S4063232, .i32⟩
  | .hbm, ⟨48, _⟩ => ⟨S4063232, .i1⟩
  | .hbm, ⟨49, _⟩ => ⟨S_, .i32⟩
  | .hbm, ⟨50, _⟩ => ⟨S4063232, .i32⟩
  | .hbm, ⟨51, _⟩ => ⟨S4063232, .i32⟩
  | .hbm, ⟨52, _⟩ => ⟨S4063232, .i32⟩
  | .hbm, ⟨53, _⟩ => ⟨S4063232x1, .i32⟩
  | .hbm, ⟨54, _⟩ => ⟨S4063232x20, .f32⟩
  | .hbm, ⟨55, _⟩ => ⟨S4063232x1, .f32⟩
  | .hbm, ⟨56, _⟩ => ⟨S4063232x20, .f32⟩
  | .hbm, ⟨57, _⟩ => ⟨S4063232x20, .f32⟩
  | .hbm, ⟨58, _⟩ => ⟨S_, .f32⟩
  | .hbm, ⟨59, _⟩ => ⟨S253952x20, .f32⟩
  | .hbm, ⟨60, _⟩ => ⟨S4063232x1, .i32⟩
  | .hbm, ⟨61, _⟩ => ⟨S253952x20, .f32⟩
  | .hbm, ⟨62, _⟩ => ⟨S1x20, .f32⟩
  | .hbm, ⟨63, _⟩ => ⟨S253952x20, .f32⟩
  | .hbm, ⟨64, _⟩ => ⟨S253952x20, .f32⟩
  | .hbm, ⟨65, _⟩ => ⟨S_, .f32⟩
  | .hbm, ⟨66, _⟩ => ⟨S20, .f32⟩
  | .hbm, ⟨67, _⟩ => ⟨S_, .f32⟩
  | .hbm, ⟨68, _⟩ => ⟨S20, .f32⟩
  | .hbm, ⟨69, _⟩ => ⟨S20, .f32⟩
  | .hbm, ⟨70, _⟩ => ⟨S1x20, .f32⟩
  | .hbm, ⟨71, _⟩ => ⟨S253952x20, .f32⟩
  | .hbm, ⟨72, _⟩ => ⟨S253952x20, .f32⟩
  | .hbm, ⟨73, _⟩ => ⟨S253952x20, .f32⟩
  | .hbm, ⟨74, _⟩ => ⟨S_, .f32⟩
  | .hbm, ⟨75, _⟩ => ⟨S20, .f32⟩
  | .hbm, ⟨76, _⟩ => ⟨S_, .f32⟩
  | .hbm, ⟨77, _⟩ => ⟨S20, .f32⟩
  | .hbm, ⟨78, _⟩ => ⟨S20, .f32⟩
  | .hbm, ⟨79, _⟩ => ⟨S1x20, .f32⟩
  | .hbm, ⟨80, _⟩ => ⟨S253952x20, .f32⟩
  | .hbm, ⟨81, _⟩ => ⟨S253952x20, .f32⟩
  | .hbm, ⟨82, _⟩ => ⟨S_, .f32⟩
  | .hbm, ⟨83, _⟩ => ⟨S20, .f32⟩
  | .hbm, ⟨84, _⟩ => ⟨S20, .f32⟩
  | .hbm, ⟨85, _⟩ => ⟨S20, .f32⟩
  | .hbm, ⟨86, _⟩ => ⟨S1x20, .f32⟩
  | .hbm, ⟨87, _⟩ => ⟨S253952x20, .f32⟩
  | .hbm, ⟨88, _⟩ => ⟨S253952x20, .f32⟩
  | .hbm, ⟨89, _⟩ => ⟨S1x20, .f32⟩
  | .hbm, ⟨90, _⟩ => ⟨S253952x20, .f32⟩
  | .hbm, ⟨91, _⟩ => ⟨S253952x20, .f32⟩
  | .hbm, ⟨92, _⟩ => ⟨S1x20, .f32⟩
  | .hbm, ⟨93, _⟩ => ⟨S253952x20, .f32⟩
  | .hbm, ⟨94, _⟩ => ⟨S253952x20, .f32⟩
  | .hbm, ⟨95, _⟩ => ⟨S_, .f32⟩
  | .hbm, ⟨96, _⟩ => ⟨S253952x20, .f32⟩
  | .hbm, ⟨97, _⟩ => ⟨S253952x20, .i1⟩
  | .hbm, ⟨98, _⟩ => ⟨S_, .f32⟩
  | .hbm, ⟨99, _⟩ => ⟨S253952x20, .f32⟩
  | .hbm, ⟨100, _⟩ => ⟨S253952x20, .f32⟩
  | .hbm, ⟨101, _⟩ => ⟨S253952x20, .f32⟩
  | .hbm, ⟨102, _⟩ => ⟨S_, .f32⟩
  | .hbm, ⟨103, _⟩ => ⟨S4096x20, .f32⟩
  | .hbm, ⟨104, _⟩ => ⟨S253952x1, .i32⟩
  | .hbm, ⟨105, _⟩ => ⟨S4096x20, .f32⟩
  | .hbm, ⟨106, _⟩ => ⟨S4096x10, .f32⟩
  | .hbm, ⟨107, _⟩ => ⟨S1x10, .f32⟩
  | .hbm, ⟨108, _⟩ => ⟨S4096x10, .f32⟩
  | .hbm, ⟨109, _⟩ => ⟨S4096x10, .f32⟩
  | .hbm, ⟨110, _⟩ => ⟨S_, .f32⟩
  | .hbm, ⟨111, _⟩ => ⟨S4096x10, .f32⟩
  | .hbm, ⟨112, _⟩ => ⟨S4096x10, .i1⟩
  | .hbm, ⟨113, _⟩ => ⟨S_, .f32⟩
  | .hbm, ⟨114, _⟩ => ⟨S4096x10, .f32⟩
  | .hbm, ⟨115, _⟩ => ⟨S4096x10, .f32⟩
  | .hbm, ⟨116, _⟩ => ⟨S4096x10, .f32⟩
  | .hbm, ⟨117, _⟩ => ⟨S4096x2, .f32⟩
  | .hbm, ⟨118, _⟩ => ⟨S1x2, .f32⟩
  | .hbm, ⟨119, _⟩ => ⟨S4096x2, .f32⟩
  | .hbm, ⟨120, _⟩ => ⟨S4096x2, .f32⟩
  | _, _ => ⟨S253952x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]

class Facts₀ : Prop where
  slices_S2x4063232_S1x4063232_0_0 : S2x4063232.Slices ![0, 0] S1x4063232
  shapeCasts_S1x4063232_S4063232 : S1x4063232.ShapeCasts S4063232
  slices_S2x4063232_S1x4063232_1_0 : S2x4063232.Slices ![1, 0] S1x4063232
  bcast_S_S4063232 : S_.BroadcastsInDim S4063232 (![] : Fin 0 → Fin S4063232.rank)
  bcast_S4063232_S4063232x1_0 : S4063232.BroadcastsInDim S4063232x1 (![0] : Fin 1 → Fin S4063232x1.rank)
  bcast_S4063232x1_S4063232x32_0_1 : S4063232x1.BroadcastsInDim S4063232x32 (![0, 1] : Fin 2 → Fin S4063232x32.rank)
  bcast_S_S253952x32 : S_.BroadcastsInDim S253952x32 (![] : Fin 0 → Fin S253952x32.rank)
  bcast_S32_S1x32_1 : S32.BroadcastsInDim S1x32 (![1] : Fin 1 → Fin S1x32.rank)
  bcast_S1x32_S253952x32_0_1 : S1x32.BroadcastsInDim S253952x32 (![0, 1] : Fin 2 → Fin S253952x32.rank)
  bcast_S4063232x1_S4063232x20_0_1 : S4063232x1.BroadcastsInDim S4063232x20 (![0, 1] : Fin 2 → Fin S4063232x20.rank)
  bcast_S_S253952x20 : S_.BroadcastsInDim S253952x20 (![] : Fin 0 → Fin S253952x20.rank)
  bcast_S20_S1x20_1 : S20.BroadcastsInDim S1x20 (![1] : Fin 1 → Fin S1x20.rank)
  bcast_S1x20_S253952x20_0_1 : S1x20.BroadcastsInDim S253952x20 (![0, 1] : Fin 2 → Fin S253952x20.rank)
  reducesTo_S253952x20_S20_d0 : S253952x20.ReducesTo [0] S20
  h_S_ : 0 < S_.numel
  bcast_S_S20 : S_.BroadcastsInDim S20 (![] : Fin 0 → Fin S20.rank)
  bcast_S_S4096x20 : S_.BroadcastsInDim S4096x20 (![] : Fin 0 → Fin S4096x20.rank)
  bcast_S253952_S253952x1_0 : S253952.BroadcastsInDim S253952x1 (![0] : Fin 1 → Fin S253952x1.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x10 : S_.BroadcastsInDim S4096x10 (![] : Fin 0 → Fin S4096x10.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S253952x6_S6x32_S253952x32_1_0_0_1_n_n_wf : DotDims.WF S253952x6 S6x32 S253952x32 [1] [0] [0] [1] [] []
  gather_S253952x32_S4063232x1_S4063232x32_1_0_n_n_0_1_132_wf : GatherDims.WF S253952x32 S4063232x1 S4063232x32 [1] [0] [] [0] [] 1 ![1, 32]
  scatter_S253952x32_S4063232x1_S4063232x32_1_0_0_1_wf : ScatterDims.WF S253952x32 S4063232x1 S4063232x32 [1] [0] [0] 1
  dot_S253952x32_S32x20_S253952x20_1_0_0_1_n_n_wf : DotDims.WF S253952x32 S32x20 S253952x20 [1] [0] [0] [1] [] []
  gather_S253952x20_S4063232x1_S4063232x20_1_0_n_n_0_1_120_wf : GatherDims.WF S253952x20 S4063232x1 S4063232x20 [1] [0] [] [0] [] 1 ![1, 20]
  scatter_S253952x20_S4063232x1_S4063232x20_1_0_0_1_wf : ScatterDims.WF S253952x20 S4063232x1 S4063232x20 [1] [0] [0] 1
  scatter_S4096x20_S253952x1_S253952x20_1_0_0_1_wf : ScatterDims.WF S4096x20 S253952x1 S253952x20 [1] [0] [0] 1
  dot_S4096x20_S20x10_S4096x10_1_0_0_1_n_n_wf : DotDims.WF S4096x20 S20x10 S4096x10 [1] [0] [0] [1] [] []
  dot_S4096x10_S10x2_S4096x2_1_0_0_1_n_n_wf : DotDims.WF S4096x10 S10x2 S4096x2 [1] [0] [0] [1] [] []

variable [Facts₀]

def dot_S253952x6_S6x32_S253952x32_1_0_0_1_n_n : DotDims S253952x6 S6x32 S253952x32 where
  lhsContracting := [1]
  rhsContracting := [0]
  lhsNonContracting := [0]
  rhsNonContracting := [1]
  lhsBatch := []
  rhsBatch := []
  wf := dot_S253952x6_S6x32_S253952x32_1_0_0_1_n_n_wf
def gather_S253952x32_S4063232x1_S4063232x32_1_0_n_n_0_1_132 : GatherDims S253952x32 S4063232x1 S4063232x32 where
  offsetDims := [1]
  collapsedSliceDims := [0]
  operandBatchingDims := []
  startIndicesBatchingDims := []
  startIndexMap := [0]
  indexVectorDim := 1
  sliceSizes := ![1, 32]
  wf := gather_S253952x32_S4063232x1_S4063232x32_1_0_n_n_0_1_132_wf
def scatter_S253952x32_S4063232x1_S4063232x32_1_0_0_1 : ScatterDims S253952x32 S4063232x1 S4063232x32 where
  updateWindowDims := [1]
  insertedWindowDims := [0]
  scatterDimsToOperandDims := [0]
  indexVectorDim := 1
  wf := scatter_S253952x32_S4063232x1_S4063232x32_1_0_0_1_wf
def dot_S253952x32_S32x20_S253952x20_1_0_0_1_n_n : DotDims S253952x32 S32x20 S253952x20 where
  lhsContracting := [1]
  rhsContracting := [0]
  lhsNonContracting := [0]
  rhsNonContracting := [1]
  lhsBatch := []
  rhsBatch := []
  wf := dot_S253952x32_S32x20_S253952x20_1_0_0_1_n_n_wf
def gather_S253952x20_S4063232x1_S4063232x20_1_0_n_n_0_1_120 : GatherDims S253952x20 S4063232x1 S4063232x20 where
  offsetDims := [1]
  collapsedSliceDims := [0]
  operandBatchingDims := []
  startIndicesBatchingDims := []
  startIndexMap := [0]
  indexVectorDim := 1
  sliceSizes := ![1, 20]
  wf := gather_S253952x20_S4063232x1_S4063232x20_1_0_n_n_0_1_120_wf
def scatter_S253952x20_S4063232x1_S4063232x20_1_0_0_1 : ScatterDims S253952x20 S4063232x1 S4063232x20 where
  updateWindowDims := [1]
  insertedWindowDims := [0]
  scatterDimsToOperandDims := [0]
  indexVectorDim := 1
  wf := scatter_S253952x20_S4063232x1_S4063232x20_1_0_0_1_wf
def scatter_S4096x20_S253952x1_S253952x20_1_0_0_1 : ScatterDims S4096x20 S253952x1 S253952x20 where
  updateWindowDims := [1]
  insertedWindowDims := [0]
  scatterDimsToOperandDims := [0]
  indexVectorDim := 1
  wf := scatter_S4096x20_S253952x1_S253952x20_1_0_0_1_wf
def dot_S4096x20_S20x10_S4096x10_1_0_0_1_n_n : DotDims S4096x20 S20x10 S4096x10 where
  lhsContracting := [1]
  rhsContracting := [0]
  lhsNonContracting := [0]
  rhsNonContracting := [1]
  lhsBatch := []
  rhsBatch := []
  wf := dot_S4096x20_S20x10_S4096x10_1_0_0_1_n_n_wf
def dot_S4096x10_S10x2_S4096x2_1_0_0_1_n_n : DotDims S4096x10 S10x2 S4096x2 where
  lhsContracting := [1]
  rhsContracting := [0]
  lhsNonContracting := [0]
  rhsNonContracting := [1]
  lhsBatch := []
  rhsBatch := []
  wf := dot_S4096x10_S10x2_S4096x2_1_0_0_1_n_n_wf

class Facts : Prop extends Facts₀ where

variable [Facts]
-- ==== Proof.KI.Reg0.lean ====
import proofs.«108927_j51273319579928_2_alg».proof.Proof.GenP.KernelIdeal.Launch
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of @main: custom_call 0, `cc0__matmul_kernel` (pipeline 0), the first layer's matrix product

The region multiplies a row block by a whole weight matrix. Window 0 is the row block of the left
operand at the grid point, window 1 is the whole weight (the same block at every point), window 2 is
the row block of the product. Everything is stated at the buffer contents `V` the region finds when
it is entered.

The body loads the two input blocks whole, loads the output block (the value is unused) and stores
the product over the whole output block; so after the body the output's staging buffer is the
product of the two input blocks, and the input buffers are as they were.
-/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point: it is fetched at the
    first point only, and where it is not fetched its index has not moved, so the block it holds is
    still the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole left block. -/
abbrev r0_0 : Rect S3968x6 := Rect.unit (s := S3968x6) ![0, 0] S3968x6.size inb_S3968x6_S3968x6_0_0
/-- The whole weight. -/
abbrev r0_1 : Rect S6x32 := Rect.unit (s := S6x32) ![0, 0] S6x32.size inb_S6x32_S6x32_0_0
/-- The whole output block. -/
abbrev r0_2 : Rect S3968x32 := Rect.unit (s := S3968x32) ![0, 0] S3968x32.size inb_S3968x32_S3968x32_0_0

/-! ## What the body leaves in the output window's buffer -/

/-- Window 2's staging buffer after the body, from the input windows' blocks: its one store, of the
    product of the two loaded blocks, over the whole buffer. -/
def out0_2 (x0 : Vec F S3968x6 .f32) (x1 : Vec F S6x32 .f32) : Vec F S3968x32 .f32 :=
  View.canon [⟨r0_2, k0_pay1 (View.ld x0 r0_0) (View.ld x1 r0_1)⟩]

/-- The store tiles the buffer, so it covers it. -/
theorem cover0_2 (p0 : Vec F S3968x32 .f32) (y : S3968x32.Idx) :
    ∃ pc ∈ ([⟨r0_2, p0⟩] : List (View.Piece (Elt F) S3968x32 .f32)), y ∈ pc.1.set :=
  View.cover_of_tiled [⟨r0_2, p0⟩] S3968x32.size (by rfl) y

/-! ## The body's triple -/

set_option maxHeartbeats 1000000 in
/-- The kernel body on whole staging memrefs, the inputs' at contents `x0`, `x1` and the output's at
    anything, runs to the continuation holding the inputs' as they were and the output's at
    `out0_2 x0 x1`. -/
theorem sound_kernel0 (c : Dev nD) (E : Set ℕ) (i : grid0.Coords) (arg1 : Memref sig .tc .vmem S3968x6 .f32) (harg1 : arg1.IsWhole) (arg2 : Memref sig .tc .vmem S6x32 .f32) (harg2 : arg2.IsWhole) (arg3 : Memref sig .tc .vmem S3968x32 .f32) (harg3 : arg3.IsWhole)
    (x0 : Vec F S3968x6 .f32) (x1 : Vec F S6x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the
    body at point `t` each input's buffer at its block and the output's at `out0_2` of the input
    blocks; the invariant leaves the scoped rest and the generator register untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
import proofs.«108927_j51273319579928_2_alg».proof.Proof.GenP.KernelIdeal.Launch
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: bias and leaky-relu, block by block

The second pallas_call adds a bias row to a block of 3968 rows of 32 entries and applies the leaky-relu entry by
entry. It has three windows: the block of the activations (window 0, a new block at every grid point), the bias row
(window 1, one block for the whole grid, fetched once), and the block of the result (window 2, written back at every
point). The body reads both inputs whole and overwrites the whole output block with one store, so what it leaves in
the output's staging buffer is a function of the two input blocks alone; the inputs' buffers are left as found.

This file states that function (`out1_2`), proves the body's triple against it, and packages the proof data and the
body obligation the pipeline's launch theorem asks for, at any contents `V` of the arrays on entry.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the arrays as the region finds them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds their block at every point: the window is fetched at each point and the
    body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point: fetched at the first point only, its block index
    never moves and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S3968x32 := Rect.unit (s := S3968x32) ![0, 0] S3968x32.size inb_S3968x32_S3968x32_0_0
abbrev r1_1 : Rect S1x32 := Rect.unit (s := S1x32) ![0, 0] S1x32.size inb_S1x32_S1x32_0_0

/-! ## What the body leaves in the output window's buffer -/

/-- The output's staging buffer after the body, from the two input blocks: its one store, of the whole block. -/
def out1_2 (x0 : Vec F S3968x32 .f32) (x1 : Vec F S1x32 .f32) : Vec F S3968x32 .f32 :=
  View.canon [⟨r1_0, k1_pay1 (View.ld x0 r1_0) (View.ld x1 r1_1)⟩]

/-- The store's rectangle is the whole buffer, so it covers it. -/
theorem cover1_2 (p0 : Vec F S3968x32 .f32) (y : S3968x32.Idx) :
    ∃ pc ∈ ([⟨r1_0, p0⟩] : List (View.Piece (Elt F) S3968x32 .f32)), y ∈ pc.1.set :=
  View.cover_of_tiled [⟨r1_0, p0⟩] S3968x32.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords)
    (arg0 : Memref sig .tc .vmem S3968x32 .f32) (harg0 : arg0.IsWhole) (arg1 : Memref sig .tc .vmem S1x32 .f32) (harg1 : arg1.IsWhole)
    (arg2 : Memref sig .tc .vmem S3968x32 .f32) (harg2 : arg2.IsWhole)
    (x0 : Vec F S3968x32 .f32) (x1 : Vec F S1x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__biasact_kernel i arg0 harg0 arg1 harg1 arg2 harg2) K := by
  simp only [cc1__biasact_kernel_eq_skeleton]; unfold cc1__biasact_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Reg2.lean ====
import proofs.«108927_j51273319579928_2_alg».proof.Proof.GenP.KernelIdeal.Launch
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of @main: custom_call 2, `cc2__matmul_kernel` (pipeline 2), the second layer's matrix product

The region multiplies a row block by a whole weight matrix. Window 0 is the row block of the left
operand at the grid point, window 1 is the whole weight (the same block at every point), window 2 is
the row block of the product. Everything is stated at the buffer contents `V` the region finds when
it is entered.

The body loads the two input blocks whole, loads the output block (the value is unused) and stores
the product over the whole output block; so after the body the output's staging buffer is the
product of the two input blocks, and the input buffers are as they were.
-/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose
    array is `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: it is fetched at the
    first point only, and where it is not fetched its index has not moved, so the block it holds is
    still the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole left block. -/
abbrev r2_0 : Rect S3968x32 := Rect.unit (s := S3968x32) ![0, 0] S3968x32.size inb_S3968x32_S3968x32_0_0
/-- The whole weight. -/
abbrev r2_1 : Rect S32x20 := Rect.unit (s := S32x20) ![0, 0] S32x20.size inb_S32x20_S32x20_0_0
/-- The whole output block. -/
abbrev r2_2 : Rect S3968x20 := Rect.unit (s := S3968x20) ![0, 0] S3968x20.size inb_S3968x20_S3968x20_0_0

/-! ## What the body leaves in the output window's buffer -/

/-- Window 2's staging buffer after the body, from the input windows' blocks: its one store, of the
    product of the two loaded blocks, over the whole buffer. -/
def out2_2 (x0 : Vec F S3968x32 .f32) (x1 : Vec F S32x20 .f32) : Vec F S3968x20 .f32 :=
  View.canon [⟨r2_2, k2_pay1 (View.ld x0 r2_0) (View.ld x1 r2_1)⟩]

/-- The store tiles the buffer, so it covers it. -/
theorem cover2_2 (p0 : Vec F S3968x20 .f32) (y : S3968x20.Idx) :
    ∃ pc ∈ ([⟨r2_2, p0⟩] : List (View.Piece (Elt F) S3968x20 .f32)), y ∈ pc.1.set :=
  View.cover_of_tiled [⟨r2_2, p0⟩] S3968x20.size (by rfl) y

/-! ## The body's triple -/

set_option maxHeartbeats 1000000 in
/-- The kernel body on whole staging memrefs, the inputs' at contents `x0`, `x1` and the output's at
    anything, runs to the continuation holding the inputs' as they were and the output's at
    `out2_2 x0 x1`. -/
theorem sound_kernel2 (c : Dev nD) (E : Set ℕ) (i : grid2.Coords) (arg1 : Memref sig .tc .vmem S3968x32 .f32) (harg1 : arg1.IsWhole) (arg2 : Memref sig .tc .vmem S32x20 .f32) (harg2 : arg2.IsWhole) (arg3 : Memref sig .tc .vmem S3968x20 .f32) (harg3 : arg3.IsWhole)
    (x0 : Vec F S3968x32 .f32) (x1 : Vec F S32x20 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the
    body at point `t` each input's buffer at its block and the output's at `out2_2` of the input
    blocks; the invariant leaves the scoped rest and the generator register untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Reg3Body.lean ====
/-
  The statistics kernel's body, run once per control case.

  The body keeps two rows of running totals in scratch memory. At the first grid point it resets both rows; at every point it
  adds to them the column sums of v and of v * v, where v is the point's block of x with the bias row added to every row; at
  the last grid point it copies the two rows to the two output windows. The grid has 64 points, so a point is the first, the
  last, or neither, and the body is run in these three cases:
    first  : the scratch rows, found at any contents, end at the payloads applied to the reset row;
    middle : the scratch rows, found at s0 and s1, end at the payloads applied to s0 and s1;
    last   : as a middle point, and the output windows, found at any contents, end holding the two scratch rows.
  In the first two cases the output windows are not touched and do not appear.
-/
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access, however the zeros are spelt. -/
theorem hz3 : (![0, 0] : Fin 2 → Nat) = fun _ => 0 := funext fun a => by fin_cases a <;> rfl

/-- The condition of the reset (`scf.if` on "the point is the first"), from the grid coordinates. -/
abbrev cond3_0 (i : grid3.Coords) : Prop := (Scalar.cmpi .ne (Scalar.extui (Scalar.cmpi .eq (BitVec.ofNat 32 (i 0).val) 0#32)) 0#32) = 1#1
/-- The condition of the copy-out (`scf.if` on "the point is the last"). -/
abbrev cond3_1 (i : grid3.Coords) : Prop := k3_cond2 i = 1#1

/-- A row of running totals after a point that found it at `s`: the sums, -/
abbrev sums3 (x0 : Vec F S3968x20 .f32) (x1 : Vec F S1x20 .f32) (s : Vec F S1x20 .f32) : Vec F S1x20 .f32 := k3_pay4 x0 x1 s
/-- and the sums of squares. -/
abbrev squares3 (x0 : Vec F S3968x20 .f32) (x1 : Vec F S1x20 .f32) (s : Vec F S1x20 .f32) : Vec F S1x20 .f32 := k3_pay5 x0 x1 s

set_option maxHeartbeats 1000000 in
/-- FIRST POINT: both scratch rows are reset, then accumulated into; the output windows are not touched. -/
theorem sound_kernel3_first (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : cond3_0 i) (hc1 : ¬cond3_1 i)
    (x0 : Vec F S3968x20 .f32) (x1 : Vec F S1x20 .f32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (sums3 x0 x1 k3_pay1) ∗ owns (c : Thread nD τ) arg6 fullShare (squares3 x0 x1 k3_pay2)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    sl_unfold_run_names
    rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    sl_unfold_run_names
    rw [View.readCov_unit_zero _ hz3]
    simp only [View.readAt_eq_ld, View.ld_unit_zero (S := S3968x20) hz3, View.ld_unit_zero (S := S1x20) hz3]

set_option maxHeartbeats 1000000 in
/-- A MIDDLE POINT: both scratch rows, found at `s0` and `s1`, are accumulated into; the output windows are not touched. -/
theorem sound_kernel3_middle (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : ¬cond3_0 i) (hc1 : ¬cond3_1 i)
    (x0 : Vec F S3968x20 .f32) (x1 : Vec F S1x20 .f32) (s0 s1 : Vec F S1x20 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg5 fullShare (sums3 x0 x1 s0) ∗ owns (c : Thread nD τ) arg6 fullShare (squares3 x0 x1 s1)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]

set_option maxHeartbeats 1000000 in
/-- THE LAST POINT: both scratch rows are accumulated into, then copied to the two output windows, found at any contents. -/
theorem sound_kernel3_last (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : ¬cond3_0 i) (hc1 : cond3_1 i)
    (x0 : Vec F S3968x20 .f32) (x1 : Vec F S1x20 .f32) (s0 s1 : Vec F S1x20 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (sums3 x0 x1 s0) ∗ owns (c : Thread nD τ) arg4 fullShare (squares3 x0 x1 s1)
            ∗ owns (c : Thread nD τ) arg5 fullShare (sums3 x0 x1 s0) ∗ owns (c : Thread nD τ) arg6 fullShare (squares3 x0 x1 s1)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  isplitl [H3]
  · iexists _; isplitr
    swap; · iexact H3
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]

end Cert.KernelIdeal.Hand

end
-- ==== Proof.KI.Reg3.lean ====
/-
  Region 3 (the batch-norm statistics call), at the buffer contents V the region is entered with.

  The call runs its body at 64 grid points. Two scratch rows carry running totals from point to point: after point n the first
  holds the column sums, over the blocks 0..n of x, of v = x + bias, and the second the column sums of v * v (`accAt3`, by
  recursion on the point: the first point starts from the reset row). The two output windows sit at a constant block index; the body
  stores into them at the last point only, where it copies the two scratch rows, and the pipeline writes them back there only. So
  the proof data names, for an output window, the scratch row after the point (consulted at the last point alone), and the region
  invariant before point n carries the two scratch rows at `accAt3 (n - 1)` (at any contents before the first point), every other
  scoped buffer of the core untouched, and the generator register at some state.
-/
import proofs.«108927_j51273319579928_2_alg».proof.Proof.KI.Reg3Body
import proofs.«108927_j51273319579928_2_alg».proof.Proof.GenP.KernelIdeal.Launch
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control cases and the schedule, decided over the grid -/

/-- The reset runs at the first point only, -/
theorem hcond3_0 : ∀ t : Fin cfg3.N, cond3_0 (grid3.coords t) ↔ t.val = 0 :=
  (by decide +kernel : ∀ t : Fin grid3.N, cond3_0 (grid3.coords t) ↔ t.val = 0)
/-- the copy-out at the last point only. -/
theorem hcond3_1 : ∀ t : Fin cfg3.N, cond3_1 (grid3.coords t) ↔ t.val = 63 :=
  (by decide +kernel : ∀ t : Fin grid3.N, cond3_1 (grid3.coords t) ↔ t.val = 63)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the output windows are idle (the body stores nothing into them) and are not written back; -/
theorem idleAt3_2 : ∀ t : Fin cfg3.N, ¬cond3_1 (grid3.coords t) → cfg3.idle 2 (grid3.coords t) = true := by decide +kernel
theorem idleAt3_3 : ∀ t : Fin cfg3.N, ¬cond3_1 (grid3.coords t) → cfg3.idle 3 (grid3.coords t) = true := by decide +kernel
theorem noFlush3_2 : ∀ t : Fin cfg3.N, ¬cond3_1 (grid3.coords t) → (cfg3.win 2).flush t = false := by decide +kernel
theorem noFlush3_3 : ∀ t : Fin cfg3.N, ¬cond3_1 (grid3.coords t) → (cfg3.win 3).flush t = false := by decide +kernel
/-- at the last point they are live. -/
theorem liveAt3_2 : ∀ t : Fin cfg3.N, cond3_1 (grid3.coords t) → cfg3.idle 2 (grid3.coords t) = false := by decide +kernel
theorem liveAt3_3 : ∀ t : Fin cfg3.N, cond3_1 (grid3.coords t) → cfg3.idle 3 (grid3.coords t) = false := by decide +kernel

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of x in its current staging buffer at every point (fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row in its staging buffer at every point: fetched at the first point, and its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The running totals, point by point -/

/-- What the two scratch rows hold after the body at point `n`: the sums and the sums of squares so far. -/
def accAt3 (c : Dev nD) : (n : ℕ) → n < cfg3.N → Vec F S1x20 .f32 × Vec F S1x20 .f32
  | 0, hn => (sums3 (iblk3 V c 0 ⟨0, hn⟩) (iblk3 V c 1 ⟨0, hn⟩) k3_pay1, squares3 (iblk3 V c 0 ⟨0, hn⟩) (iblk3 V c 1 ⟨0, hn⟩) k3_pay2)
  | n + 1, hn => (sums3 (iblk3 V c 0 ⟨n + 1, hn⟩) (iblk3 V c 1 ⟨n + 1, hn⟩) (accAt3 c n (Nat.lt_of_succ_lt hn)).1,
      squares3 (iblk3 V c 0 ⟨n + 1, hn⟩) (iblk3 V c 1 ⟨n + 1, hn⟩) (accAt3 c n (Nat.lt_of_succ_lt hn)).2)

theorem accAt3_zero (c : Dev nD) (t : Fin cfg3.N) (h : t.val = 0) :
    accAt3 V c t.val t.isLt = (sums3 (iblk3 V c 0 t) (iblk3 V c 1 t) k3_pay1, squares3 (iblk3 V c 0 t) (iblk3 V c 1 t) k3_pay2) := by
  obtain ⟨n, hn⟩ := t
  cases n with
  | zero => rfl
  | succ n => exact absurd h (Nat.succ_ne_zero n)

theorem accAt3_pos (c : Dev nD) (t : Fin cfg3.N) (h : t.val ≠ 0) :
    accAt3 V c t.val t.isLt = (sums3 (iblk3 V c 0 t) (iblk3 V c 1 t) (accAt3 V c (t.val - 1) (Nat.lt_of_le_of_lt (Nat.sub_le _ _) t.isLt)).1,
      squares3 (iblk3 V c 0 t) (iblk3 V c 1 t) (accAt3 V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the call's own. -/
abbrev scM3_0 : Memref sig .tc .vmem S1x20 .f32 := Memref.whole cc3_scratch0
abbrev scM3_1 : Memref sig .tc .vmem S1x20 .f32 := Memref.whole cc3_scratch1

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The invariant before position `n`: before the first point the class's; afterwards the scratch rows at what the point before
    left, the other scoped buffers unopened, the generator register at some state. -/
def Phi3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1])
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1])
      ∗ (∃ r, prngReg c r)) := rfl

theorem Phi3_pos (c : Dev nD) (n : ℕ) (h : n ≤ cfg3.N) (hz : n ≠ 0) :
    Phi3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-! ## The pipeline's proof data -/

/-- The proof data of pipeline 3 on core `c`: the arrays as the region finds them; after the body at point `t` each input's buffer
    at its block and each output's at the scratch row it is a copy of; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (accAt3 V c t.val t.isLt).1
    | ⟨3, _⟩ => (accAt3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (accAt3 V c t.val t.isLt).1 := by dsimp only [dat3]
theorem after3_3 (c : Dev nD) (t : Fin cfg3.N) : (dat3 V c).after 3 t = (accAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: an output window idle at the point is handed back as it was found. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The inputs' staging memrefs hold their blocks; the point is the first, the last or neither; the
    invariant hands the body the two scratch rows (at any contents at the first point, else at what the point before left) and
    takes them back at this point's totals; at the last point the output windows end holding those totals, elsewhere they pass
    through untouched; the other scoped buffers, the generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 64 := lt_of_lt_of_eq t.isLt (show cfg3.N = 64 from N_3)
  by_cases h0 : t.val = 0
  · -- the first point
    have hc0 : cond3_0 (grid3.coords t) := (hcond3_0 t).mpr h0
    have hc1 : ¬cond3_1 (grid3.coords t) := fun h => by have := (hcond3_1 t).mp h; omega
    rw [Dat.leavesExact_idle (dat3 V c) 2 t (idleAt3_2 t hc1) (noFlush3_2 t hc1),
      Dat.leavesExact_idle (dat3 V c) 3 t (idleAt3_3 t hc1) (noFlush3_3 t hc1)]
    rw [accAt3_zero V c t h0]; (try dsimp only)
    rw [Phi3_castSucc V c t, Phi3_zero V c _ _ h0, PhiA3_eq]
    iintro ⟨⟨⟨⟨HS0, HS1⟩, Hrest⟩, Hg⟩, Ho, ⟨%d0, H0⟩, ⟨%d1, H1⟩, H2, H3⟩
    iapply (sound_kernel3_first c Set.univ (grid3.coords t) _ _ _ _ _ _ _ _ _ _ _ _ hc0 hc1 (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    iexact H3
  · have hc0 : ¬cond3_0 (grid3.coords t) := fun h => h0 ((hcond3_0 t).mp h)
    rw [accAt3_pos V c t h0]; (try dsimp only)
    rw [Phi3_castSucc V c t, Phi3_pos V c _ _ h0]
    by_cases h1 : t.val = 63
    · -- the last point
      have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [show (dat3 V c).leavesExact 3 t = owns (c : Thread nD τ) (st3_3 t) fullShare ((dat3 V c).after 3 t) from by
        unfold Dat.leavesExact; rw [liveAt3_3 t hc1], after3_3]
      rw [accAt3_pos V c t h0]; (try dsimp only)
      iintro ⟨⟨⟨⟨HS0, HS1⟩, Hrest⟩, Hg⟩, Ho, ⟨%d0, H0⟩, ⟨%d1, H1⟩, ⟨%d2, H2⟩, ⟨%d3, H3⟩⟩
      iapply (sound_kernel3_last c Set.univ (grid3.coords t) _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitr [Hg]
        · isplitr [Hrest]
          · isplitl [HS0]; · iexact HS0
            iexact HS1
          · iexact Hrest
        · iexact Hg
      isplitl [Ho]; · iexact Ho
      isplitl [H0]; · iexact H0
      isplitl [H1]; · iexact H1
      isplitl [H2]; · iexact H2
      iexact H3
    · -- a middle point
      have hc1 : ¬cond3_1 (grid3.coords t) := fun h => h1 ((hcond3_1 t).mp h)
      rw [Dat.leavesExact_idle (dat3 V c) 2 t (idleAt3_2 t hc1) (noFlush3_2 t hc1),
        Dat.leavesExact_idle (dat3 V c) 3 t (idleAt3_3 t hc1) (noFlush3_3 t hc1)]
      iintro ⟨⟨⟨⟨HS0, HS1⟩, Hrest⟩, Hg⟩, Ho, ⟨%d0, H0⟩, ⟨%d1, H1⟩, H2, H3⟩
      iapply (sound_kernel3_middle c Set.univ (grid3.coords t) _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitr [Hrest]
          · isplitl [HS0]; · iexact HS0
            iexact HS1
          · iexact Hrest
        · iexact Hg
      isplitl [Ho]; · iexact Ho
      isplitl [H0]; · iexact H0
      isplitl [H1]; · iexact H1
      isplitl [H2]; · iexact H2
      iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the region and out of it -/

/-- What the region is entered with — the generator register, no prefetched table, the scoped buffers no window stages — is the
    invariant before the first point. -/
theorem hin3 (c : Dev nD) :
    iprop((∃ r, prngReg c r) ∗ Pipeline.prefHeld (pcfgs (F := F) 3).pre c (fun _ => fullShare) ((cfgs 3).toPCfg_adm : (pcfgs (F := F) 3).Adm).1
        ∗ Pipeline.scopedRest spec3 c) ⊢ (dat3 V c).Φ 0 := by
  rw [show (dat3 V c).Φ 0 = Phi3 V c 0 (Nat.zero_le _) from rfl, Phi3_zero V c 0 _ rfl]; unfold Pipeline.ΦA
  iintro ⟨Hp, -, Hr⟩
  isplitl [Hr]; · iexact Hr
  iexact Hp

/-- After the last point the invariant gives those back: the scratch rows' totals are forgotten. -/
theorem hout3 (c : Dev nD) :
    (dat3 V c).Φ (Fin.last cfg3.N) ⊢ iprop((∃ r, prngReg c r) ∗ emp ∗ Pipeline.scopedRest spec3 c) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), scopedRest3_split]
  simp only [scM3_0, scM3_1, owns_whole]
  iintro ⟨⟨⟨HS0, HS1⟩, Hrest⟩, Hg⟩
  isplitl [Hg]; · iexact Hg
  isplitr; · iempintro
  isplitr [Hrest]
  · isplitl [HS0]
    · iexists _; iexact HS0
    · iexists _; iexact HS1
  · iexact Hrest

end Cert.KernelIdeal.Hand

end
-- ==== Proof.KI.Reg4.lean ====
import proofs.«108927_j51273319579928_2_alg».proof.Proof.GenP.KernelIdeal.Launch
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the normalisation applied, block by block

The fifth pallas_call takes a block of 3968 rows of 20 entries, adds a bias row, multiplies by a scale row, adds a
shift row and applies the leaky-relu entry by entry. It has five windows: the block of the activations (window 0, a
new block at every grid point), the three rows (windows 1, 2, 3: one block each for the whole grid, fetched once),
and the block of the result (window 4, written back at every point). The body reads the four inputs whole and
overwrites the whole output block with one store, so what it leaves in the output's staging buffer is a function of
the four input blocks alone; the inputs' buffers are left as found.

This file states that function (`out4_4`), proves the body's triple against it, and packages the proof data and the
body obligation the pipeline's launch theorem asks for, at any contents `V` of the arrays on entry.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the arrays as the region finds them
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds their block at every point: the window is fetched at each point and the
    body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point: fetched at the first point only, its block index
    never moves and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the scale row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same for the shift row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S3968x20 := Rect.unit (s := S3968x20) ![0, 0] S3968x20.size inb_S3968x20_S3968x20_0_0
abbrev r4_1 : Rect S1x20 := Rect.unit (s := S1x20) ![0, 0] S1x20.size inb_S1x20_S1x20_0_0

/-! ## What the body leaves in the output window's buffer -/

/-- The output's staging buffer after the body, from the four input blocks: its one store, of the whole block. -/
def out4_4 (x0 : Vec F S3968x20 .f32) (x1 : Vec F S1x20 .f32) (x2 : Vec F S1x20 .f32) (x3 : Vec F S1x20 .f32) : Vec F S3968x20 .f32 :=
  View.canon [⟨r4_0, k4_pay1 (View.ld x0 r4_0) (View.ld x1 r4_1) (View.ld x2 r4_1) (View.ld x3 r4_1)⟩]

/-- The store's rectangle is the whole buffer, so it covers it. -/
theorem cover4_4 (p0 : Vec F S3968x20 .f32) (y : S3968x20.Idx) :
    ∃ pc ∈ ([⟨r4_0, p0⟩] : List (View.Piece (Elt F) S3968x20 .f32)), y ∈ pc.1.set :=
  View.cover_of_tiled [⟨r4_0, p0⟩] S3968x20.size (by rfl) y

/-! ## The body's triple -/

set_option maxHeartbeats 1000000 in
/-- The body on whole staging memrefs, the inputs' at contents `x0 … x3` and the output's at anything, runs to the
    continuation holding the inputs' as they were and the output's at `out4_4 x0 x1 x2 x3`. -/
theorem sound_kernel4 (c : Dev nD) (E : Set ℕ) (i : grid4.Coords)
    (arg0 : Memref sig .tc .vmem S3968x20 .f32) (harg0 : arg0.IsWhole) (arg1 : Memref sig .tc .vmem S1x20 .f32) (harg1 : arg1.IsWhole)
    (arg2 : Memref sig .tc .vmem S1x20 .f32) (harg2 : arg2.IsWhole) (arg3 : Memref sig .tc .vmem S1x20 .f32) (harg3 : arg3.IsWhole)
    (arg4 : Memref sig .tc .vmem S3968x20 .f32) (harg4 : arg4.IsWhole)
    (x0 : Vec F S3968x20 .f32) (x1 : Vec F S1x20 .f32) (x2 : Vec F S1x20 .f32) (x3 : Vec F S1x20 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__bn_apply_kernel i arg0 harg0 arg1 harg1 arg2 harg2 arg3 harg3 arg4 harg4) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of this pipeline on core `c`: the arrays as the region finds them; after the body at point `t`
    each input's buffer at its block and the output's at `out4_4` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.KI.Reg5.lean ====
/- Region 5 of @main: the two-layer MLP head, one grid point, six whole-array windows.
   The body reads the five input blocks (features, first weight matrix, first bias row, second weight
   matrix, second bias row) and stores one value over the whole output block: the payload
   leaky(g·W1 + b1)·W2 + b2 of the five loaded blocks. This file states, at the buffer contents `V` the
   region is entered with, the block every window holds at the point, what the body leaves in the
   output window's buffer, the body's triple, the proof data of the pipeline and its body obligation. -/
import proofs.«108927_j51273319579928_2_alg».proof.Proof.GenP.KernelIdeal.Launch
import proofs.«108927_j51273319579928_2_alg».proof.Proof.Gen.KernelIdeal.Skeleton
import proofs.«108927_j51273319579928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): the window is uncut and
    never idle, and where it is not fetched its index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): the window is uncut and
    never idle, and where it is not fetched its index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): the window is uncut and
    never idle, and where it is not fetched its index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): the window is uncut and
    never idle, and where it is not fetched its index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): the window is uncut and
    never idle, and where it is not fetched its index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take the whole block -/

abbrev r5_0 : Rect S4096x20 := Rect.unit (s := S4096x20) ![0, 0] S4096x20.size inb_S4096x20_S4096x20_0_0
abbrev r5_1 : Rect S20x10 := Rect.unit (s := S20x10) ![0, 0] S20x10.size inb_S20x10_S20x10_0_0
abbrev r5_2 : Rect S1x10 := Rect.unit (s := S1x10) ![0, 0] S1x10.size inb_S1x10_S1x10_0_0
abbrev r5_3 : Rect S10x2 := Rect.unit (s := S10x2) ![0, 0] S10x2.size inb_S10x2_S10x2_0_0
abbrev r5_4 : Rect S1x2 := Rect.unit (s := S1x2) ![0, 0] S1x2.size inb_S1x2_S1x2_0_0
abbrev r5_5 : Rect S4096x2 := Rect.unit (s := S4096x2) ![0, 0] S4096x2.size inb_S4096x2_S4096x2_0_0

/-! ## What the body leaves in the output window's buffer -/

/-- Window 5's staging buffer after the body, from the five input windows' blocks: its one store, of the
    payload of the five loaded blocks, over the whole buffer. -/
def out5_5 (x0 : Vec F S4096x20 .f32) (x1 : Vec F S20x10 .f32) (x2 : Vec F S1x10 .f32) (x3 : Vec F S10x2 .f32) (x4 : Vec F S1x2 .f32) : Vec F S4096x2 .f32 :=
  View.canon [⟨r5_5, k5_pay1 (View.ld x0 r5_0) (View.ld x1 r5_1) (View.ld x2 r5_2) (View.ld x3 r5_3) (View.ld x4 r5_4)⟩]

/-- The one store's rectangle is the whole buffer, so it covers it. -/
theorem cover5_5 (p0 : Vec F S4096x2 .f32) (y : S4096x2.Idx) :
    ∃ pc ∈ ([⟨r5_5, p0⟩] : List (View.Piece (Elt F) S4096x2 .f32)), y ∈ pc.1.set :=
  View.cover_of_tiled [⟨r5_5, p0⟩] S4096x2.size (by rfl) y

/-! ## The body's triple -/

set_option maxHeartbeats 1000000 in
/-- The kernel body on whole staging memrefs, the inputs' at read contents `x0 … x4` and the output's at anything,
    runs to the continuation holding the inputs' as they were and the output's at `out5_5` of the inputs'. -/
theorem sound_kernel5 (c : Dev nD) (E : Set ℕ) (i : grid5.Coords) (arg1 : Memref sig .tc .vmem S4096x20 .f32) (harg1 : arg1.IsWhole) (arg2 : Memref sig .tc .vmem S20x10 .f32) (harg2 : arg2.IsWhole) (arg3 : Memref sig .tc .vmem S1x10 .f32) (harg3 : arg3.IsWhole) (arg4 : Memref sig .tc .vmem S10x2 .f32) (harg4 : arg4.IsWhole) (arg5 : Memref sig .tc .vmem S1x2 .f32) (harg5 : arg5.IsWhole) (arg6 : Memref sig .tc .vmem S4096x2 .f32) (harg6 : arg6.IsWhole)
    (x0 : Vec F S4096x20 .f32) (x1 : Vec F S20x10 .f32) (x2 : Vec F S1x10 .f32) (x3 : Vec F S10x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Hand

end
-- ==== Proof.KI.Run.lean ====
/-
  The run of the whole program: its six kernel regions among five stretches of host operations.
  The contents of every unscoped buffer are followed from the launch to the return as a fold: a host stretch applies
  its operations' pure functions; a region leaves each of its output arrays at what the grid points' write-backs make of
  it (the proof data's `arrAt` at the last point) and every other buffer as it found it. Every execution terminates
  with each unscoped buffer at the last stage of that fold (`run_all`); the argument arrays are no output of any region
  and no host operation writes one, so the fold walks each back to the launch memory (`frame`).
-/
import proofs.«108927_j51273319579928_2_alg».proof.Proof.KI.Reg0
import proofs.«108927_j51273319579928_2_alg».proof.Proof.KI.Reg1
import proofs.«108927_j51273319579928_2_alg».proof.Proof.KI.Reg2
import proofs.«108927_j51273319579928_2_alg».proof.Proof.KI.Reg3
import proofs.«108927_j51273319579928_2_alg».proof.Proof.KI.Reg4
import proofs.«108927_j51273319579928_2_alg».proof.Proof.KI.Reg5
import proofs.«108927_j51273319579928_2_alg».proof.Proof.GenP.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h
/-- At region 0's exit: its arrays at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev E3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h
/-- At region 1's exit: its arrays at what the write-backs leave, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- At region 2's exit: its arrays at what the write-backs leave, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
/-- The same read at the TensorCore's references. -/
abbrev E6 : (c : Dev nD) → (b : Ref sig .tc) → Buf (Elt F) ((c : Thread nD τ).loc b) := fun c b => W6 m ρ c b
theorem W6_of (c : Dev nD) (r : Ref sig .tc) (h : r ∉ hostOps3_W) : W6 m ρ c r = W5 m ρ c r :=
  StableHlo.after_of_writes_sub hostOps3 _ hostOps3_writes h
/-- At region 3's exit: its arrays at what the write-backs leave, every other buffer as entered. -/
def W7 (c : Dev nD) : Valuation τ sig (Elt F) :=
  Pipeline.withArrays spec3 c (W6 m ρ c) fun w => (dat3 (E6 m ρ) c).arrAt w cfg3.N
theorem W7_arr (c : Dev nD) (w : Fin cfg3.W) :
    W7 m ρ c (Proc.devRef .tc (Pipeline.arrRef spec3 w)) = (dat3 (E6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m ρ c b
theorem hF3 (c : Dev nD) (w : Fin cfg3.W) : (dat3 (E6 m ρ) c).arrAt w cfg3.N = E7 m ρ c (Pipeline.arrRef spec3 w) :=
  (W7_arr m ρ c w).symm
theorem hrest3 (c : Dev nD) : ∀ b, b ∉ Finset.univ.image (Pipeline.arrRef spec3) → E7 m ρ c b = E6 m ρ c b :=
  fun b hb => W7_of_ne m ρ c b fun w e => hb (Finset.mem_image.mpr ⟨w, Finset.mem_univ _, e⟩)
/-- After the host stretch `hostOps4`. -/
abbrev W8 : Dev nD → Valuation τ sig (Elt F) := fun c => StableHlo.after hostOps4 (W7 m ρ c)
/-- The same read at the TensorCore's references. -/
abbrev E8 : (c : Dev nD) → (b : Ref sig .tc) → Buf (Elt F) ((c : Thread nD τ).loc b) := fun c b => W8 m ρ c b
theorem W8_of (c : Dev nD) (r : Ref sig .tc) (h : r ∉ hostOps4_W) : W8 m ρ c r = W7 m ρ c r :=
  StableHlo.after_of_writes_sub hostOps4 _ hostOps4_writes h
/-- At region 4's exit: its arrays at what the write-backs leave, every other buffer as entered. -/
def W9 (c : Dev nD) : Valuation τ sig (Elt F) :=
  Pipeline.withArrays spec4 c (W8 m ρ c) fun w => (dat4 (E8 m ρ) c).arrAt w cfg4.N
theorem W9_arr (c : Dev nD) (w : Fin cfg4.W) :
    W9 m ρ c (Proc.devRef .tc (Pipeline.arrRef spec4 w)) = (dat4 (E8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references. -/
abbrev E9 : (c : Dev nD) → (b : Ref sig .tc) → Buf (Elt F) ((c : Thread nD τ).loc b) := fun c b => W9 m ρ c b
theorem hF4 (c : Dev nD) (w : Fin cfg4.W) : (dat4 (E8 m ρ) c).arrAt w cfg4.N = E9 m ρ c (Pipeline.arrRef spec4 w) :=
  (W9_arr m ρ c w).symm
theorem hrest4 (c : Dev nD) : ∀ b, b ∉ Finset.univ.image (Pipeline.arrRef spec4) → E9 m ρ c b = E8 m ρ c b :=
  fun b hb => W9_of_ne m ρ c b fun w e => hb (Finset.mem_image.mpr ⟨w, Finset.mem_univ _, e⟩)
/-- After the host stretch `hostOps5`. -/
abbrev W10 : Dev nD → Valuation τ sig (Elt F) := fun c => StableHlo.after hostOps5 (W9 m ρ c)
/-- The same read at the TensorCore's references. -/
abbrev E10 : (c : Dev nD) → (b : Ref sig .tc) → Buf (Elt F) ((c : Thread nD τ).loc b) := fun c b => W10 m ρ c b
theorem W10_of (c : Dev nD) (r : Ref sig .tc) (h : r ∉ hostOps5_W) : W10 m ρ c r = W9 m ρ c r :=
  StableHlo.after_of_writes_sub hostOps5 _ hostOps5_writes h
/-- At region 5's exit: its arrays at what the write-backs leave, every other buffer as entered. -/
def W11 (c : Dev nD) : Valuation τ sig (Elt F) :=
  Pipeline.withArrays spec5 c (W10 m ρ c) fun w => (dat5 (E10 m ρ) c).arrAt w cfg5.N
theorem W11_arr (c : Dev nD) (w : Fin cfg5.W) :
    W11 m ρ c (Proc.devRef .tc (Pipeline.arrRef spec5 w)) = (dat5 (E10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references. -/
abbrev E11 : (c : Dev nD) → (b : Ref sig .tc) → Buf (Elt F) ((c : Thread nD τ).loc b) := fun c b => W11 m ρ c b
theorem hF5 (c : Dev nD) (w : Fin cfg5.W) : (dat5 (E10 m ρ) c).arrAt w cfg5.N = E11 m ρ c (Pipeline.arrRef spec5 w) :=
  (W11_arr m ρ c w).symm
theorem hrest5 (c : Dev nD) : ∀ b, b ∉ Finset.univ.image (Pipeline.arrRef spec5) → E11 m ρ c b = E10 m ρ c b :=
  fun b hb => W11_of_ne m ρ c b fun w e => hb (Finset.mem_image.mpr ⟨w, Finset.mem_univ _, e⟩)

/-! ## The arguments end as launched

No host operation writes an argument array and no region has one as an output; a region that reads one through an
input window leaves it as it found it. -/
theorem W11_main_arg0 (c : Dev nD) : W11 m ρ c (Proc.devRef .tc main_arg0) = m ((c : Thread nD τ).loc main_arg0) :=
  (W11_of_ne m ρ c main_arg0 (by decide)).trans <|
  (W10_of m ρ c main_arg0 (by decide)).trans <|
  (W9_of_ne m ρ c main_arg0 (by decide)).trans <|
  (W8_of m ρ c main_arg0 (by decide)).trans <|
  (W7_of_ne m ρ c main_arg0 (by decide)).trans <|
  (W6_of m ρ c main_arg0 (by decide)).trans <|
  (W5_of_ne m ρ c main_arg0 (by decide)).trans <|
  (W4_of_ne m ρ c main_arg0 (by decide)).trans <|
  (W3_of m ρ c main_arg0 (by decide)).trans <|
  ((W2_arr m ρ c 0).trans (((dat0 (E1 m ρ) c).arrAt_in 0 rfl _).trans (A_eq0 (E1 m ρ) c 0))).trans <|
  (W1_of m ρ c main_arg0 (by decide)).trans rfl
theorem W11_main_arg1 (c : Dev nD) : W11 m ρ c (Proc.devRef .tc main_arg1) = m ((c : Thread nD τ).loc main_arg1) :=
  (W11_of_ne m ρ c main_arg1 (by decide)).trans <|
  (W10_of m ρ c main_arg1 (by decide)).trans <|
  (W9_of_ne m ρ c main_arg1 (by decide)).trans <|
  (W8_of m ρ c main_arg1 (by decide)).trans <|
  (W7_of_ne m ρ c main_arg1 (by decide)).trans <|
  (W6_of m ρ c main_arg1 (by decide)).trans <|
  (W5_of_ne m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W11_main_arg2 (c : Dev nD) : W11 m ρ c (Proc.devRef .tc main_arg2) = m ((c : Thread nD τ).loc main_arg2) :=
  (W11_of_ne m ρ c main_arg2 (by decide)).trans <|
  (W10_of m ρ c main_arg2 (by decide)).trans <|
  (W9_of_ne m ρ c main_arg2 (by decide)).trans <|
  (W8_of m ρ c main_arg2 (by decide)).trans <|
  (W7_of_ne m ρ c main_arg2 (by decide)).trans <|
  (W6_of m ρ c main_arg2 (by decide)).trans <|
  (W5_of_ne m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W11_main_arg3 (c : Dev nD) : W11 m ρ c (Proc.devRef .tc main_arg3) = m ((c : Thread nD τ).loc main_arg3) :=
  (W11_of_ne m ρ c main_arg3 (by decide)).trans <|
  (W10_of m ρ c main_arg3 (by decide)).trans <|
  (W9_of_ne m ρ c main_arg3 (by decide)).trans <|
  (W8_of m ρ c main_arg3 (by decide)).trans <|
  (W7_of_ne m ρ c main_arg3 (by decide)).trans <|
  (W6_of m ρ c main_arg3 (by decide)).trans <|
  (W5_of_ne m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W11_main_arg4 (c : Dev nD) : W11 m ρ c (Proc.devRef .tc main_arg4) = m ((c : Thread nD τ).loc main_arg4) :=
  (W11_of_ne m ρ c main_arg4 (by decide)).trans <|
  (W10_of m ρ c main_arg4 (by decide)).trans <|
  (W9_of_ne m ρ c main_arg4 (by decide)).trans <|
  (W8_of m ρ c main_arg4 (by decide)).trans <|
  (W7_of_ne m ρ c main_arg4 (by decide)).trans <|
  (W6_of m ρ c main_arg4 (by decide)).trans <|
  (W5_of_ne m ρ c main_arg4 (by decide)).trans <|
  (W4_of_ne m ρ c main_arg4 (by decide)).trans <|
  (W3_of m ρ c main_arg4 (by decide)).trans <|
  ((W2_arr m ρ c 1).trans (((dat0 (E1 m ρ) c).arrAt_in 1 rfl _).trans (A_eq0 (E1 m ρ) c 1))).trans <|
  (W1_of m ρ c main_arg4 (by decide)).trans rfl
theorem W11_main_arg5 (c : Dev nD) : W11 m ρ c (Proc.devRef .tc main_arg5) = m ((c : Thread nD τ).loc main_arg5) :=
  (W11_of_ne m ρ c main_arg5 (by decide)).trans <|
  (W10_of m ρ c main_arg5 (by decide)).trans <|
  (W9_of_ne m ρ c main_arg5 (by decide)).trans <|
  (W8_of m ρ c main_arg5 (by decide)).trans <|
  (W7_of_ne m ρ c main_arg5 (by decide)).trans <|
  (W6_of m ρ c main_arg5 (by decide)).trans <|
  (W5_of_ne m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W11_main_arg6 (c : Dev nD) : W11 m ρ c (Proc.devRef .tc main_arg6) = m ((c : Thread nD τ).loc main_arg6) :=
  (W11_of_ne m ρ c main_arg6 (by decide)).trans <|
  (W10_of m ρ c main_arg6 (by decide)).trans <|
  (W9_of_ne m ρ c main_arg6 (by decide)).trans <|
  (W8_of m ρ c main_arg6 (by decide)).trans <|
  (W7_of_ne m ρ c main_arg6 (by decide)).trans <|
  (W6_of m ρ c main_arg6 (by decide)).trans <|
  ((W5_arr m ρ c 1).trans (((dat2 (E4 m ρ) c).arrAt_in 1 rfl _).trans (A_eq2 (E4 m ρ) c 1))).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem W11_main_arg7 (c : Dev nD) : W11 m ρ c (Proc.devRef .tc main_arg7) = m ((c : Thread nD τ).loc main_arg7) :=
  (W11_of_ne m ρ c main_arg7 (by decide)).trans <|
  (W10_of m ρ c main_arg7 (by decide)).trans <|
  (W9_of_ne m ρ c main_arg7 (by decide)).trans <|
  (W8_of m ρ c main_arg7 (by decide)).trans <|
  (W7_of_ne m ρ c main_arg7 (by decide)).trans <|
  (W6_of m ρ c main_arg7 (by decide)).trans <|
  (W5_of_ne m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W11_main_arg8 (c : Dev nD) : W11 m ρ c (Proc.devRef .tc main_arg8) = m ((c : Thread nD τ).loc main_arg8) :=
  (W11_of_ne m ρ c main_arg8 (by decide)).trans <|
  (W10_of m ρ c main_arg8 (by decide)).trans <|
  (W9_of_ne m ρ c main_arg8 (by decide)).trans <|
  (W8_of m ρ c main_arg8 (by decide)).trans <|
  (W7_of_ne m ρ c main_arg8 (by decide)).trans <|
  (W6_of m ρ c main_arg8 (by decide)).trans <|
  (W5_of_ne m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W11_main_arg9 (c : Dev nD) : W11 m ρ c (Proc.devRef .tc main_arg9) = m ((c : Thread nD τ).loc main_arg9) :=
  (W11_of_ne m ρ c main_arg9 (by decide)).trans <|
  (W10_of m ρ c main_arg9 (by decide)).trans <|
  (W9_of_ne m ρ c main_arg9 (by decide)).trans <|
  (W8_of m ρ c main_arg9 (by decide)).trans <|
  (W7_of_ne m ρ c main_arg9 (by decide)).trans <|
  (W6_of m ρ c main_arg9 (by decide)).trans <|
  (W5_of_ne m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W11_main_arg10 (c : Dev nD) : W11 m ρ c (Proc.devRef .tc main_arg10) = m ((c : Thread nD τ).loc main_arg10) :=
  ((W11_arr m ρ c 1).trans (((dat5 (E10 m ρ) c).arrAt_in 1 rfl _).trans (A_eq5 (E10 m ρ) c 1))).trans <|
  (W10_of m ρ c main_arg10 (by decide)).trans <|
  (W9_of_ne m ρ c main_arg10 (by decide)).trans <|
  (W8_of m ρ c main_arg10 (by decide)).trans <|
  (W7_of_ne m ρ c main_arg10 (by decide)).trans <|
  (W6_of m ρ c main_arg10 (by decide)).trans <|
  (W5_of_ne m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W11_main_arg11 (c : Dev nD) : W11 m ρ c (Proc.devRef .tc main_arg11) = m ((c : Thread nD τ).loc main_arg11) :=
  (W11_of_ne m ρ c main_arg11 (by decide)).trans <|
  (W10_of m ρ c main_arg11 (by decide)).trans <|
  (W9_of_ne m ρ c main_arg11 (by decide)).trans <|
  (W8_of m ρ c main_arg11 (by decide)).trans <|
  (W7_of_ne m ρ c main_arg11 (by decide)).trans <|
  (W6_of m ρ c main_arg11 (by decide)).trans <|
  (W5_of_ne m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W11_main_arg12 (c : Dev nD) : W11 m ρ c (Proc.devRef .tc main_arg12) = m ((c : Thread nD τ).loc main_arg12) :=
  ((W11_arr m ρ c 3).trans (((dat5 (E10 m ρ) c).arrAt_in 3 rfl _).trans (A_eq5 (E10 m ρ) c 3))).trans <|
  (W10_of m ρ c main_arg12 (by decide)).trans <|
  (W9_of_ne m ρ c main_arg12 (by decide)).trans <|
  (W8_of m ρ c main_arg12 (by decide)).trans <|
  (W7_of_ne m ρ c main_arg12 (by decide)).trans <|
  (W6_of m ρ c main_arg12 (by decide)).trans <|
  (W5_of_ne m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W11_main_arg13 (c : Dev nD) : W11 m ρ c (Proc.devRef .tc main_arg13) = m ((c : Thread nD τ).loc main_arg13) :=
  (W11_of_ne m ρ c main_arg13 (by decide)).trans <|
  (W10_of m ρ c main_arg13 (by decide)).trans <|
  (W9_of_ne m ρ c main_arg13 (by decide)).trans <|
  (W8_of m ρ c main_arg13 (by decide)).trans <|
  (W7_of_ne m ρ c main_arg13 (by decide)).trans <|
  (W6_of m ρ c main_arg13 (by decide)).trans <|
  (W5_of_ne m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

/-! ## The proof data family and the thread state -/

/-- No pallas_call has a prefetched table. -/
abbrev padm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E4 m ρ) c
  | ⟨3, _⟩ => fun c => dat3 (E6 m ρ) c
  | ⟨4, _⟩ => fun c => dat4 (E8 m ρ) c
  | ⟨5, _⟩ => fun c => dat5 (E10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

/-! ## The regions as segments

Each region is entered from every unscoped buffer at its entry contents and left at its exit contents: its arrays are
split out of the unscoped buffers and put back at what the pipeline leaves; the generator register passes through the
pipeline's invariant; nothing is owed; the kernels have no semaphore of their own. -/

set_option backward.isDefEq.respectTransparency.types false in
/-- Region 0: entered from every unscoped buffer at `W1`, left at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W4`, left at `W5`. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (E6 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (E6 m ρ) c
  hout c := by
    rw [Pipeline.ownSems0_none]
    exact hout3 (E6 m ρ) c
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E6 m ρ c) (E7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W8`, left at `W9`. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (E8 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E8 m ρ c) (E9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W10`, left at `W11`. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E10 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E10 m ρ c) (E11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ) ]
/-- @main is the run of the segments. -/
theorem main_run (c : Dev nD) : main (F := F) c = Pipeline.Seg.run (psegs m ρ) := (main_chain c).trans (by chain_rfl)

set_option backward.isDefEq.respectTransparency.types false in
/-- From any memory with zero counters every weakly fair execution of @main terminates, nothing faulting, and every
    final state holds each unscoped buffer of each core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame claim at any float instance: the run ends, and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all m ρ)

end Cert.KernelIdeal.Hand

end
-- ==== Proof.K.Reg0.lean ====
import proofs.«108927_j51273319579928_2_alg».proof.Proof.GenP.Kernel.Launch
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 of @main: custom_call 0, `cc0__matmul_kernel` (pipeline 0), the first layer's matrix product

The region multiplies a row block by a whole weight matrix. Window 0 is the row block of the left
operand at the grid point, window 1 is the whole weight (the same block at every point), window 2 is
the row block of the product. Everything is stated at the buffer contents `V` the region finds when
it is entered.

The body loads the two input blocks whole, loads the output block (the value is unused) and stores
the product over the whole output block; so after the body the output's staging buffer is the
product of the two input blocks, and the input buffers are as they were.
-/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point: it is fetched at the
    first point only, and where it is not fetched its index has not moved, so the block it holds is
    still the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole left block. -/
abbrev r0_0 : Rect S3968x6 := Rect.unit (s := S3968x6) ![0, 0] S3968x6.size inb_S3968x6_S3968x6_0_0
/-- The whole weight. -/
abbrev r0_1 : Rect S6x32 := Rect.unit (s := S6x32) ![0, 0] S6x32.size inb_S6x32_S6x32_0_0
/-- The whole output block. -/
abbrev r0_2 : Rect S3968x32 := Rect.unit (s := S3968x32) ![0, 0] S3968x32.size inb_S3968x32_S3968x32_0_0

/-! ## What the body leaves in the output window's buffer -/

/-- Window 2's staging buffer after the body, from the input windows' blocks: its one store, of the
    product of the two loaded blocks, over the whole buffer. -/
def out0_2 (x0 : Vec F S3968x6 .f32) (x1 : Vec F S6x32 .f32) : Vec F S3968x32 .f32 :=
  View.canon [⟨r0_2, k0_pay1 (View.ld x0 r0_0) (View.ld x1 r0_1)⟩]

/-- The store tiles the buffer, so it covers it. -/
theorem cover0_2 (p0 : Vec F S3968x32 .f32) (y : S3968x32.Idx) :
    ∃ pc ∈ ([⟨r0_2, p0⟩] : List (View.Piece (Elt F) S3968x32 .f32)), y ∈ pc.1.set :=
  View.cover_of_tiled [⟨r0_2, p0⟩] S3968x32.size (by rfl) y

/-! ## The body's triple -/

set_option maxHeartbeats 1000000 in
/-- The kernel body on whole staging memrefs, the inputs' at contents `x0`, `x1` and the output's at
    anything, runs to the continuation holding the inputs' as they were and the output's at
    `out0_2 x0 x1`. -/
theorem sound_kernel0 (c : Dev nD) (E : Set ℕ) (i : grid0.Coords) (arg1 : Memref sig .tc .vmem S3968x6 .f32) (harg1 : arg1.IsWhole) (arg2 : Memref sig .tc .vmem S6x32 .f32) (harg2 : arg2.IsWhole) (arg3 : Memref sig .tc .vmem S3968x32 .f32) (harg3 : arg3.IsWhole)
    (x0 : Vec F S3968x6 .f32) (x1 : Vec F S6x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the
    body at point `t` each input's buffer at its block and the output's at `out0_2` of the input
    blocks; the invariant leaves the scoped rest and the generator register untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
import proofs.«108927_j51273319579928_2_alg».proof.Proof.GenP.Kernel.Launch
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: bias and leaky-relu, block by block

The second pallas_call adds a bias row to a block of 3968 rows of 32 entries and applies the leaky-relu entry by
entry. It has three windows: the block of the activations (window 0, a new block at every grid point), the bias row
(window 1, one block for the whole grid, fetched once), and the block of the result (window 2, written back at every
point). The body reads both inputs whole and overwrites the whole output block with one store, so what it leaves in
the output's staging buffer is a function of the two input blocks alone; the inputs' buffers are left as found.

This file states that function (`out1_2`), proves the body's triple against it, and packages the proof data and the
body obligation the pipeline's launch theorem asks for, at any contents `V` of the arrays on entry.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the arrays as the region finds them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds their block at every point: the window is fetched at each point and the
    body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point: fetched at the first point only, its block index
    never moves and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S3968x32 := Rect.unit (s := S3968x32) ![0, 0] S3968x32.size inb_S3968x32_S3968x32_0_0
abbrev r1_1 : Rect S1x32 := Rect.unit (s := S1x32) ![0, 0] S1x32.size inb_S1x32_S1x32_0_0

/-! ## What the body leaves in the output window's buffer -/

/-- The output's staging buffer after the body, from the two input blocks: its one store, of the whole block. -/
def out1_2 (x0 : Vec F S3968x32 .f32) (x1 : Vec F S1x32 .f32) : Vec F S3968x32 .f32 :=
  View.canon [⟨r1_0, k1_pay1 (View.ld x0 r1_0) (View.ld x1 r1_1)⟩]

/-- The store's rectangle is the whole buffer, so it covers it. -/
theorem cover1_2 (p0 : Vec F S3968x32 .f32) (y : S3968x32.Idx) :
    ∃ pc ∈ ([⟨r1_0, p0⟩] : List (View.Piece (Elt F) S3968x32 .f32)), y ∈ pc.1.set :=
  View.cover_of_tiled [⟨r1_0, p0⟩] S3968x32.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords)
    (arg0 : Memref sig .tc .vmem S3968x32 .f32) (harg0 : arg0.IsWhole) (arg1 : Memref sig .tc .vmem S1x32 .f32) (harg1 : arg1.IsWhole)
    (arg2 : Memref sig .tc .vmem S3968x32 .f32) (harg2 : arg2.IsWhole)
    (x0 : Vec F S3968x32 .f32) (x1 : Vec F S1x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__biasact_kernel i arg0 harg0 arg1 harg1 arg2 harg2) K := by
  simp only [cc1__biasact_kernel_eq_skeleton]; unfold cc1__biasact_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at `out1_2` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Reg2.lean ====
import proofs.«108927_j51273319579928_2_alg».proof.Proof.GenP.Kernel.Launch
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 of @main: custom_call 2, `cc2__matmul_kernel` (pipeline 2), the second layer's matrix product

The region multiplies a row block by a whole weight matrix. Window 0 is the row block of the left
operand at the grid point, window 1 is the whole weight (the same block at every point), window 2 is
the row block of the product. Everything is stated at the buffer contents `V` the region finds when
it is entered.

The body loads the two input blocks whole, loads the output block (the value is unused) and stores
the product over the whole output block; so after the body the output's staging buffer is the
product of the two input blocks, and the input buffers are as they were.
-/

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose
    array is `V`'s and whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point: it is fetched at the
    first point only, and where it is not fetched its index has not moved, so the block it holds is
    still the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole left block. -/
abbrev r2_0 : Rect S3968x32 := Rect.unit (s := S3968x32) ![0, 0] S3968x32.size inb_S3968x32_S3968x32_0_0
/-- The whole weight. -/
abbrev r2_1 : Rect S32x20 := Rect.unit (s := S32x20) ![0, 0] S32x20.size inb_S32x20_S32x20_0_0
/-- The whole output block. -/
abbrev r2_2 : Rect S3968x20 := Rect.unit (s := S3968x20) ![0, 0] S3968x20.size inb_S3968x20_S3968x20_0_0

/-! ## What the body leaves in the output window's buffer -/

/-- Window 2's staging buffer after the body, from the input windows' blocks: its one store, of the
    product of the two loaded blocks, over the whole buffer. -/
def out2_2 (x0 : Vec F S3968x32 .f32) (x1 : Vec F S32x20 .f32) : Vec F S3968x20 .f32 :=
  View.canon [⟨r2_2, k2_pay1 (View.ld x0 r2_0) (View.ld x1 r2_1)⟩]

/-- The store tiles the buffer, so it covers it. -/
theorem cover2_2 (p0 : Vec F S3968x20 .f32) (y : S3968x20.Idx) :
    ∃ pc ∈ ([⟨r2_2, p0⟩] : List (View.Piece (Elt F) S3968x20 .f32)), y ∈ pc.1.set :=
  View.cover_of_tiled [⟨r2_2, p0⟩] S3968x20.size (by rfl) y

/-! ## The body's triple -/

set_option maxHeartbeats 1000000 in
/-- The kernel body on whole staging memrefs, the inputs' at contents `x0`, `x1` and the output's at
    anything, runs to the continuation holding the inputs' as they were and the output's at
    `out2_2 x0 x1`. -/
theorem sound_kernel2 (c : Dev nD) (E : Set ℕ) (i : grid2.Coords) (arg1 : Memref sig .tc .vmem S3968x32 .f32) (harg1 : arg1.IsWhole) (arg2 : Memref sig .tc .vmem S32x20 .f32) (harg2 : arg2.IsWhole) (arg3 : Memref sig .tc .vmem S3968x20 .f32) (harg3 : arg3.IsWhole)
    (x0 : Vec F S3968x32 .f32) (x1 : Vec F S32x20 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the
    body at point `t` each input's buffer at its block and the output's at `out2_2` of the input
    blocks; the invariant leaves the scoped rest and the generator register untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the
    invariant and the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Reg3Body.lean ====
/-
  The statistics kernel's body, run once per control case.

  The body keeps two rows of running totals in scratch memory. At the first grid point it resets both rows; at every point it
  adds to them the column sums of v and of v * v, where v is the point's block of x with the bias row added to every row; at
  the last grid point it copies the two rows to the two output windows. The grid has 64 points, so a point is the first, the
  last, or neither, and the body is run in these three cases:
    first  : the scratch rows, found at any contents, end at the payloads applied to the reset row;
    middle : the scratch rows, found at s0 and s1, end at the payloads applied to s0 and s1;
    last   : as a middle point, and the output windows, found at any contents, end holding the two scratch rows.
  In the first two cases the output windows are not touched and do not appear.
-/
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access, however the zeros are spelt. -/
theorem hz3 : (![0, 0] : Fin 2 → Nat) = fun _ => 0 := funext fun a => by fin_cases a <;> rfl

/-- The condition of the reset (`scf.if` on "the point is the first"), from the grid coordinates. -/
abbrev cond3_0 (i : grid3.Coords) : Prop := (Scalar.cmpi .ne (Scalar.extui (Scalar.cmpi .eq (BitVec.ofNat 32 (i 0).val) 0#32)) 0#32) = 1#1
/-- The condition of the copy-out (`scf.if` on "the point is the last"). -/
abbrev cond3_1 (i : grid3.Coords) : Prop := k3_cond2 i = 1#1

/-- A row of running totals after a point that found it at `s`: the sums, -/
abbrev sums3 (x0 : Vec F S3968x20 .f32) (x1 : Vec F S1x20 .f32) (s : Vec F S1x20 .f32) : Vec F S1x20 .f32 := k3_pay4 x0 x1 s
/-- and the sums of squares. -/
abbrev squares3 (x0 : Vec F S3968x20 .f32) (x1 : Vec F S1x20 .f32) (s : Vec F S1x20 .f32) : Vec F S1x20 .f32 := k3_pay5 x0 x1 s

set_option maxHeartbeats 1000000 in
/-- FIRST POINT: both scratch rows are reset, then accumulated into; the output windows are not touched. -/
theorem sound_kernel3_first (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : cond3_0 i) (hc1 : ¬cond3_1 i)
    (x0 : Vec F S3968x20 .f32) (x1 : Vec F S1x20 .f32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg5 fullShare (sums3 x0 x1 k3_pay1) ∗ owns (c : Thread nD τ) arg6 fullShare (squares3 x0 x1 k3_pay2)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    sl_unfold_run_names
    rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    sl_unfold_run_names
    rw [View.readCov_unit_zero _ hz3]
    simp only [View.readAt_eq_ld, View.ld_unit_zero (S := S3968x20) hz3, View.ld_unit_zero (S := S1x20) hz3]

set_option maxHeartbeats 1000000 in
/-- A MIDDLE POINT: both scratch rows, found at `s0` and `s1`, are accumulated into; the output windows are not touched. -/
theorem sound_kernel3_middle (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : ¬cond3_0 i) (hc1 : ¬cond3_1 i)
    (x0 : Vec F S3968x20 .f32) (x1 : Vec F S1x20 .f32) (s0 s1 : Vec F S1x20 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg5 fullShare (sums3 x0 x1 s0) ∗ owns (c : Thread nD τ) arg6 fullShare (squares3 x0 x1 s1)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]

set_option maxHeartbeats 1000000 in
/-- THE LAST POINT: both scratch rows are accumulated into, then copied to the two output windows, found at any contents. -/
theorem sound_kernel3_last (c : Dev nD) (E : Set ℕ) (i : grid3.Coords) (arg1 : Memref sig .tc .vmem S3968x20 .f32) (harg1 : arg1.IsWhole) (arg2 : Memref sig .tc .vmem S1x20 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole)
    (hc0 : ¬cond3_0 i) (hc1 : cond3_1 i)
    (x0 : Vec F S3968x20 .f32) (x1 : Vec F S1x20 .f32) (s0 s1 : Vec F S1x20 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (sums3 x0 x1 s0) ∗ owns (c : Thread nD τ) arg4 fullShare (squares3 x0 x1 s1)
            ∗ owns (c : Thread nD τ) arg5 fullShare (sums3 x0 x1 s0) ∗ owns (c : Thread nD τ) arg6 fullShare (squares3 x0 x1 s1)) -∗ K ⟨⟩))
      ⊢ wp frame (wpE (defs₀ (F := F)) Variants.none c none) E (cc3__bn_stats_kernel i arg1 harg1 arg2 harg2 arg3 harg3 arg4 harg4 arg5 harg5 arg6 harg6) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  isplitl [H3]
  · iexists _; isplitr
    swap; · iexact H3
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  isplitl [H4]
  · iexists _; isplitr
    swap; · iexact H4
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]
  · iexists _; isplitr
    swap; · iexact H5
    ipureintro
    try sl_unfold_run_names
    rw [View.read_writes_eq_canon _ _ _ (fun y => ⟨_, List.mem_cons_self, View.mem_set_unit_zero hz3 inb_S1x20_S1x20_0_0 y⟩), View.canon_cons_unit_zero hz3]
    try sl_unfold_run_names
    try rw [View.readCov_unit_zero _ hz3]
    simp only [View.readAt_eq_ld, View.ld_unit_zero (S := S3968x20) hz3, View.ld_unit_zero (S := S1x20) hz3]

end Cert.Kernel.Hand

end
-- ==== Proof.K.Reg3.lean ====
/-
  Region 3 (the batch-norm statistics call), at the buffer contents V the region is entered with.

  The call runs its body at 64 grid points. Two scratch rows carry running totals from point to point: after point n the first
  holds the column sums, over the blocks 0..n of x, of v = x + bias, and the second the column sums of v * v (`accAt3`, by
  recursion on the point: the first point starts from the reset row). The two output windows sit at a constant block index; the body
  stores into them at the last point only, where it copies the two scratch rows, and the pipeline writes them back there only. So
  the proof data names, for an output window, the scratch row after the point (consulted at the last point alone), and the region
  invariant before point n carries the two scratch rows at `accAt3 (n - 1)` (at any contents before the first point), every other
  scoped buffer of the core untouched, and the generator register at some state.
-/
import proofs.«108927_j51273319579928_2_alg».proof.Proof.K.Reg3Body
import proofs.«108927_j51273319579928_2_alg».proof.Proof.GenP.Kernel.Launch
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control cases and the schedule, decided over the grid -/

/-- The reset runs at the first point only, -/
theorem hcond3_0 : ∀ t : Fin cfg3.N, cond3_0 (grid3.coords t) ↔ t.val = 0 :=
  (by decide +kernel : ∀ t : Fin grid3.N, cond3_0 (grid3.coords t) ↔ t.val = 0)
/-- the copy-out at the last point only. -/
theorem hcond3_1 : ∀ t : Fin cfg3.N, cond3_1 (grid3.coords t) ↔ t.val = 63 :=
  (by decide +kernel : ∀ t : Fin grid3.N, cond3_1 (grid3.coords t) ↔ t.val = 63)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the output windows are idle (the body stores nothing into them) and are not written back; -/
theorem idleAt3_2 : ∀ t : Fin cfg3.N, ¬cond3_1 (grid3.coords t) → cfg3.idle 2 (grid3.coords t) = true := by decide +kernel
theorem idleAt3_3 : ∀ t : Fin cfg3.N, ¬cond3_1 (grid3.coords t) → cfg3.idle 3 (grid3.coords t) = true := by decide +kernel
theorem noFlush3_2 : ∀ t : Fin cfg3.N, ¬cond3_1 (grid3.coords t) → (cfg3.win 2).flush t = false := by decide +kernel
theorem noFlush3_3 : ∀ t : Fin cfg3.N, ¬cond3_1 (grid3.coords t) → (cfg3.win 3).flush t = false := by decide +kernel
/-- at the last point they are live. -/
theorem liveAt3_2 : ∀ t : Fin cfg3.N, cond3_1 (grid3.coords t) → cfg3.idle 2 (grid3.coords t) = false := by decide +kernel
theorem liveAt3_3 : ∀ t : Fin cfg3.N, cond3_1 (grid3.coords t) → cfg3.idle 3 (grid3.coords t) = false := by decide +kernel

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of x in its current staging buffer at every point (fetched at every point). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row in its staging buffer at every point: fetched at the first point, and its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The running totals, point by point -/

/-- What the two scratch rows hold after the body at point `n`: the sums and the sums of squares so far. -/
def accAt3 (c : Dev nD) : (n : ℕ) → n < cfg3.N → Vec F S1x20 .f32 × Vec F S1x20 .f32
  | 0, hn => (sums3 (iblk3 V c 0 ⟨0, hn⟩) (iblk3 V c 1 ⟨0, hn⟩) k3_pay1, squares3 (iblk3 V c 0 ⟨0, hn⟩) (iblk3 V c 1 ⟨0, hn⟩) k3_pay2)
  | n + 1, hn => (sums3 (iblk3 V c 0 ⟨n + 1, hn⟩) (iblk3 V c 1 ⟨n + 1, hn⟩) (accAt3 c n (Nat.lt_of_succ_lt hn)).1,
      squares3 (iblk3 V c 0 ⟨n + 1, hn⟩) (iblk3 V c 1 ⟨n + 1, hn⟩) (accAt3 c n (Nat.lt_of_succ_lt hn)).2)

theorem accAt3_zero (c : Dev nD) (t : Fin cfg3.N) (h : t.val = 0) :
    accAt3 V c t.val t.isLt = (sums3 (iblk3 V c 0 t) (iblk3 V c 1 t) k3_pay1, squares3 (iblk3 V c 0 t) (iblk3 V c 1 t) k3_pay2) := by
  obtain ⟨n, hn⟩ := t
  cases n with
  | zero => rfl
  | succ n => exact absurd h (Nat.succ_ne_zero n)

theorem accAt3_pos (c : Dev nD) (t : Fin cfg3.N) (h : t.val ≠ 0) :
    accAt3 V c t.val t.isLt = (sums3 (iblk3 V c 0 t) (iblk3 V c 1 t) (accAt3 V c (t.val - 1) (Nat.lt_of_le_of_lt (Nat.sub_le _ _) t.isLt)).1,
      squares3 (iblk3 V c 0 t) (iblk3 V c 1 t) (accAt3 V c (t.val - 1) (Nat.lt_of_le_of_lt (Nat.sub_le _ _) t.isLt)).2) := by
  obtain ⟨n, hn⟩ := t
  cases n with
  | zero => exact absurd rfl h
  | succ n => rfl

/-! ## The region invariant -/

/-- The scratch rows as memrefs: whole scoped buffers of the call's own. -/
abbrev scM3_0 : Memref sig .tc .vmem S1x20 .f32 := Memref.whole cc3_scratch0
abbrev scM3_1 : Memref sig .tc .vmem S1x20 .f32 := Memref.whole cc3_scratch1

/-- The class invariant with the two scratch rows as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The invariant before position `n`: before the first point the class's; afterwards the scratch rows at what the point before
    left, the other scoped buffers unopened, the generator register at some state. -/
def Phi3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1])
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1])
      ∗ (∃ r, prngReg c r)) := rfl

theorem Phi3_pos (c : Dev nD) (n : ℕ) (h : n ≤ cfg3.N) (hz : n ≠ 0) :
    Phi3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-! ## The pipeline's proof data -/

/-- The proof data of pipeline 3 on core `c`: the arrays as the region finds them; after the body at point `t` each input's buffer
    at its block and each output's at the scratch row it is a copy of; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (accAt3 V c t.val t.isLt).1
    | ⟨3, _⟩ => (accAt3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (accAt3 V c t.val t.isLt).1 := by dsimp only [dat3]
theorem after3_3 (c : Dev nD) (t : Fin cfg3.N) : (dat3 V c).after 3 t = (accAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: an output window idle at the point is handed back as it was found. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point. The inputs' staging memrefs hold their blocks; the point is the first, the last or neither; the
    invariant hands the body the two scratch rows (at any contents at the first point, else at what the point before left) and
    takes them back at this point's totals; at the last point the output windows end holding those totals, elsewhere they pass
    through untouched; the other scoped buffers, the generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 64 := lt_of_lt_of_eq t.isLt (show cfg3.N = 64 from N_3)
  by_cases h0 : t.val = 0
  · -- the first point
    have hc0 : cond3_0 (grid3.coords t) := (hcond3_0 t).mpr h0
    have hc1 : ¬cond3_1 (grid3.coords t) := fun h => by have := (hcond3_1 t).mp h; omega
    rw [Dat.leavesExact_idle (dat3 V c) 2 t (idleAt3_2 t hc1) (noFlush3_2 t hc1),
      Dat.leavesExact_idle (dat3 V c) 3 t (idleAt3_3 t hc1) (noFlush3_3 t hc1)]
    rw [accAt3_zero V c t h0]; (try dsimp only)
    rw [Phi3_castSucc V c t, Phi3_zero V c _ _ h0, PhiA3_eq]
    iintro ⟨⟨⟨⟨HS0, HS1⟩, Hrest⟩, Hg⟩, Ho, ⟨%d0, H0⟩, ⟨%d1, H1⟩, H2, H3⟩
    iapply (sound_kernel3_first c Set.univ (grid3.coords t) _ _ _ _ _ _ _ _ _ _ _ _ hc0 hc1 (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitr [Hg]
      · isplitr [Hrest]
        · isplitl [HS0]; · iexact HS0
          iexact HS1
        · iexact Hrest
      · iexact Hg
    isplitl [Ho]; · iexact Ho
    isplitl [H0]; · iexact H0
    isplitl [H1]; · iexact H1
    isplitl [H2]; · iexact H2
    iexact H3
  · have hc0 : ¬cond3_0 (grid3.coords t) := fun h => h0 ((hcond3_0 t).mp h)
    rw [accAt3_pos V c t h0]; (try dsimp only)
    rw [Phi3_castSucc V c t, Phi3_pos V c _ _ h0]
    by_cases h1 : t.val = 63
    · -- the last point
      have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [show (dat3 V c).leavesExact 3 t = owns (c : Thread nD τ) (st3_3 t) fullShare ((dat3 V c).after 3 t) from by
        unfold Dat.leavesExact; rw [liveAt3_3 t hc1], after3_3]
      rw [accAt3_pos V c t h0]; (try dsimp only)
      iintro ⟨⟨⟨⟨HS0, HS1⟩, Hrest⟩, Hg⟩, Ho, ⟨%d0, H0⟩, ⟨%d1, H1⟩, ⟨%d2, H2⟩, ⟨%d3, H3⟩⟩
      iapply (sound_kernel3_last c Set.univ (grid3.coords t) _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitr [Hg]
        · isplitr [Hrest]
          · isplitl [HS0]; · iexact HS0
            iexact HS1
          · iexact Hrest
        · iexact Hg
      isplitl [Ho]; · iexact Ho
      isplitl [H0]; · iexact H0
      isplitl [H1]; · iexact H1
      isplitl [H2]; · iexact H2
      iexact H3
    · -- a middle point
      have hc1 : ¬cond3_1 (grid3.coords t) := fun h => h1 ((hcond3_1 t).mp h)
      rw [Dat.leavesExact_idle (dat3 V c) 2 t (idleAt3_2 t hc1) (noFlush3_2 t hc1),
        Dat.leavesExact_idle (dat3 V c) 3 t (idleAt3_3 t hc1) (noFlush3_3 t hc1)]
      iintro ⟨⟨⟨⟨HS0, HS1⟩, Hrest⟩, Hg⟩, Ho, ⟨%d0, H0⟩, ⟨%d1, H1⟩, H2, H3⟩
      iapply (sound_kernel3_middle c Set.univ (grid3.coords t) _ _ _ _ _ _ _ _ _ _ _ _ hc0 hc1 (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitr [Hrest]
          · isplitl [HS0]; · iexact HS0
            iexact HS1
          · iexact Hrest
        · iexact Hg
      isplitl [Ho]; · iexact Ho
      isplitl [H0]; · iexact H0
      isplitl [H1]; · iexact H1
      isplitl [H2]; · iexact H2
      iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the region and out of it -/

/-- What the region is entered with — the generator register, no prefetched table, the scoped buffers no window stages — is the
    invariant before the first point. -/
theorem hin3 (c : Dev nD) :
    iprop((∃ r, prngReg c r) ∗ Pipeline.prefHeld (pcfgs (F := F) 3).pre c (fun _ => fullShare) ((cfgs 3).toPCfg_adm : (pcfgs (F := F) 3).Adm).1
        ∗ Pipeline.scopedRest spec3 c) ⊢ (dat3 V c).Φ 0 := by
  rw [show (dat3 V c).Φ 0 = Phi3 V c 0 (Nat.zero_le _) from rfl, Phi3_zero V c 0 _ rfl]; unfold Pipeline.ΦA
  iintro ⟨Hp, -, Hr⟩
  isplitl [Hr]; · iexact Hr
  iexact Hp

/-- After the last point the invariant gives those back: the scratch rows' totals are forgotten. -/
theorem hout3 (c : Dev nD) :
    (dat3 V c).Φ (Fin.last cfg3.N) ⊢ iprop((∃ r, prngReg c r) ∗ emp ∗ Pipeline.scopedRest spec3 c) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), scopedRest3_split]
  simp only [scM3_0, scM3_1, owns_whole]
  iintro ⟨⟨⟨HS0, HS1⟩, Hrest⟩, Hg⟩
  isplitl [Hg]; · iexact Hg
  isplitr; · iempintro
  isplitr [Hrest]
  · isplitl [HS0]
    · iexists _; iexact HS0
    · iexists _; iexact HS1
  · iexact Hrest

end Cert.Kernel.Hand

end
-- ==== Proof.K.Reg4.lean ====
import proofs.«108927_j51273319579928_2_alg».proof.Proof.GenP.Kernel.Launch
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the normalisation applied, block by block

The fifth pallas_call takes a block of 3968 rows of 20 entries, adds a bias row, multiplies by a scale row, adds a
shift row and applies the leaky-relu entry by entry. It has five windows: the block of the activations (window 0, a
new block at every grid point), the three rows (windows 1, 2, 3: one block each for the whole grid, fetched once),
and the block of the result (window 4, written back at every point). The body reads the four inputs whole and
overwrites the whole output block with one store, so what it leaves in the output's staging buffer is a function of
the four input blocks alone; the inputs' buffers are left as found.

This file states that function (`out4_4`), proves the body's triple against it, and packages the proof data and the
body obligation the pipeline's launch theorem asks for, at any contents `V` of the arrays on entry.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the arrays as the region finds them
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds their block at every point: the window is fetched at each point and the
    body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the row at every point: fetched at the first point only, its block index
    never moves and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the scale row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same for the shift row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S3968x20 := Rect.unit (s := S3968x20) ![0, 0] S3968x20.size inb_S3968x20_S3968x20_0_0
abbrev r4_1 : Rect S1x20 := Rect.unit (s := S1x20) ![0, 0] S1x20.size inb_S1x20_S1x20_0_0

/-! ## What the body leaves in the output window's buffer -/

/-- The output's staging buffer after the body, from the four input blocks: its one store, of the whole block. -/
def out4_4 (x0 : Vec F S3968x20 .f32) (x1 : Vec F S1x20 .f32) (x2 : Vec F S1x20 .f32) (x3 : Vec F S1x20 .f32) : Vec F S3968x20 .f32 :=
  View.canon [⟨r4_0, k4_pay1 (View.ld x0 r4_0) (View.ld x1 r4_1) (View.ld x2 r4_1) (View.ld x3 r4_1)⟩]

/-- The store's rectangle is the whole buffer, so it covers it. -/
theorem cover4_4 (p0 : Vec F S3968x20 .f32) (y : S3968x20.Idx) :
    ∃ pc ∈ ([⟨r4_0, p0⟩] : List (View.Piece (Elt F) S3968x20 .f32)), y ∈ pc.1.set :=
  View.cover_of_tiled [⟨r4_0, p0⟩] S3968x20.size (by rfl) y

/-! ## The body's triple -/

set_option maxHeartbeats 1000000 in
/-- The body on whole staging memrefs, the inputs' at contents `x0 … x3` and the output's at anything, runs to the
    continuation holding the inputs' as they were and the output's at `out4_4 x0 x1 x2 x3`. -/
theorem sound_kernel4 (c : Dev nD) (E : Set ℕ) (i : grid4.Coords)
    (arg0 : Memref sig .tc .vmem S3968x20 .f32) (harg0 : arg0.IsWhole) (arg1 : Memref sig .tc .vmem S1x20 .f32) (harg1 : arg1.IsWhole)
    (arg2 : Memref sig .tc .vmem S1x20 .f32) (harg2 : arg2.IsWhole) (arg3 : Memref sig .tc .vmem S1x20 .f32) (harg3 : arg3.IsWhole)
    (arg4 : Memref sig .tc .vmem S3968x20 .f32) (harg4 : arg4.IsWhole)
    (x0 : Vec F S3968x20 .f32) (x1 : Vec F S1x20 .f32) (x2 : Vec F S1x20 .f32) (x3 : Vec F S1x20 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__bn_apply_kernel i arg0 harg0 arg1 harg1 arg2 harg2 arg3 harg3 arg4 harg4) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of this pipeline on core `c`: the arrays as the region finds them; after the body at point `t`
    each input's buffer at its block and the output's at `out4_4` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.K.Reg5.lean ====
/- Region 5 of @main: the two-layer MLP head, one grid point, six whole-array windows.
   The body reads the five input blocks (features, first weight matrix, first bias row, second weight
   matrix, second bias row) and stores one value over the whole output block: the payload
   leaky(g·W1 + b1)·W2 + b2 of the five loaded blocks. This file states, at the buffer contents `V` the
   region is entered with, the block every window holds at the point, what the body leaves in the
   output window's buffer, the body's triple, the proof data of the pipeline and its body obligation. -/
import proofs.«108927_j51273319579928_2_alg».proof.Proof.GenP.Kernel.Launch
import proofs.«108927_j51273319579928_2_alg».proof.Proof.Gen.Kernel.Skeleton
import proofs.«108927_j51273319579928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): the window is uncut and
    never idle, and where it is not fetched its index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): the window is uncut and
    never idle, and where it is not fetched its index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): the window is uncut and
    never idle, and where it is not fetched its index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): the window is uncut and
    never idle, and where it is not fetched its index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): the window is uncut and
    never idle, and where it is not fetched its index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take the whole block -/

abbrev r5_0 : Rect S4096x20 := Rect.unit (s := S4096x20) ![0, 0] S4096x20.size inb_S4096x20_S4096x20_0_0
abbrev r5_1 : Rect S20x10 := Rect.unit (s := S20x10) ![0, 0] S20x10.size inb_S20x10_S20x10_0_0
abbrev r5_2 : Rect S1x10 := Rect.unit (s := S1x10) ![0, 0] S1x10.size inb_S1x10_S1x10_0_0
abbrev r5_3 : Rect S10x2 := Rect.unit (s := S10x2) ![0, 0] S10x2.size inb_S10x2_S10x2_0_0
abbrev r5_4 : Rect S1x2 := Rect.unit (s := S1x2) ![0, 0] S1x2.size inb_S1x2_S1x2_0_0
abbrev r5_5 : Rect S4096x2 := Rect.unit (s := S4096x2) ![0, 0] S4096x2.size inb_S4096x2_S4096x2_0_0

/-! ## What the body leaves in the output window's buffer -/

/-- Window 5's staging buffer after the body, from the five input windows' blocks: its one store, of the
    payload of the five loaded blocks, over the whole buffer. -/
def out5_5 (x0 : Vec F S4096x20 .f32) (x1 : Vec F S20x10 .f32) (x2 : Vec F S1x10 .f32) (x3 : Vec F S10x2 .f32) (x4 : Vec F S1x2 .f32) : Vec F S4096x2 .f32 :=
  View.canon [⟨r5_5, k5_pay1 (View.ld x0 r5_0) (View.ld x1 r5_1) (View.ld x2 r5_2) (View.ld x3 r5_3) (View.ld x4 r5_4)⟩]

/-- The one store's rectangle is the whole buffer, so it covers it. -/
theorem cover5_5 (p0 : Vec F S4096x2 .f32) (y : S4096x2.Idx) :
    ∃ pc ∈ ([⟨r5_5, p0⟩] : List (View.Piece (Elt F) S4096x2 .f32)), y ∈ pc.1.set :=
  View.cover_of_tiled [⟨r5_5, p0⟩] S4096x2.size (by rfl) y

/-! ## The body's triple -/

set_option maxHeartbeats 1000000 in
/-- The kernel body on whole staging memrefs, the inputs' at read contents `x0 … x4` and the output's at anything,
    runs to the continuation holding the inputs' as they were and the output's at `out5_5` of the inputs'. -/
theorem sound_kernel5 (c : Dev nD) (E : Set ℕ) (i : grid5.Coords) (arg1 : Memref sig .tc .vmem S4096x20 .f32) (harg1 : arg1.IsWhole) (arg2 : Memref sig .tc .vmem S20x10 .f32) (harg2 : arg2.IsWhole) (arg3 : Memref sig .tc .vmem S1x10 .f32) (harg3 : arg3.IsWhole) (arg4 : Memref sig .tc .vmem S10x2 .f32) (harg4 : arg4.IsWhole) (arg5 : Memref sig .tc .vmem S1x2 .f32) (harg5 : arg5.IsWhole) (arg6 : Memref sig .tc .vmem S4096x2 .f32) (harg6 : arg6.IsWhole)
    (x0 : Vec F S4096x20 .f32) (x1 : Vec F S20x10 .f32) (x2 : Vec F S1x10 .f32) (x3 : Vec F S10x2 .f32) (x4 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Hand

end
-- ==== Proof.K.Run.lean ====
/-
  The run of the whole program: its six kernel regions among five stretches of host operations.
  The contents of every unscoped buffer are followed from the launch to the return as a fold: a host stretch applies
  its operations' pure functions; a region leaves each of its output arrays at what the grid points' write-backs make of
  it (the proof data's `arrAt` at the last point) and every other buffer as it found it. Every execution terminates
  with each unscoped buffer at the last stage of that fold (`run_all`); the argument arrays are no output of any region
  and no host operation writes one, so the fold walks each back to the launch memory (`frame`).
-/
import proofs.«108927_j51273319579928_2_alg».proof.Proof.K.Reg0
import proofs.«108927_j51273319579928_2_alg».proof.Proof.K.Reg1
import proofs.«108927_j51273319579928_2_alg».proof.Proof.K.Reg2
import proofs.«108927_j51273319579928_2_alg».proof.Proof.K.Reg3
import proofs.«108927_j51273319579928_2_alg».proof.Proof.K.Reg4
import proofs.«108927_j51273319579928_2_alg».proof.Proof.K.Reg5
import proofs.«108927_j51273319579928_2_alg».proof.Proof.GenP.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h
/-- At region 0's exit: its arrays at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- The same read at the TensorCore's references. -/
abbrev E3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h
/-- At region 1's exit: its arrays at what the write-backs leave, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)
/-- At region 2's exit: its arrays at what the write-backs leave, every other buffer as entered. -/
def W5 (c : Dev nD) : Valuation τ sig (Elt F) :=
  Pipeline.withArrays spec2 c (W4 m ρ c) fun w => (dat2 (E4 m ρ) c).arrAt w cfg2.N
theorem W5_arr (c : Dev nD) (w : Fin cfg2.W) :
    W5 m ρ c (Proc.devRef .tc (Pipeline.arrRef spec2 w)) = (dat2 (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m ρ c b
theorem hF2 (c : Dev nD) (w : Fin cfg2.W) : (dat2 (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
/-- The same read at the TensorCore's references. -/
abbrev E6 : (c : Dev nD) → (b : Ref sig .tc) → Buf (Elt F) ((c : Thread nD τ).loc b) := fun c b => W6 m ρ c b
theorem W6_of (c : Dev nD) (r : Ref sig .tc) (h : r ∉ hostOps3_W) : W6 m ρ c r = W5 m ρ c r :=
  StableHlo.after_of_writes_sub hostOps3 _ hostOps3_writes h
/-- At region 3's exit: its arrays at what the write-backs leave, every other buffer as entered. -/
def W7 (c : Dev nD) : Valuation τ sig (Elt F) :=
  Pipeline.withArrays spec3 c (W6 m ρ c) fun w => (dat3 (E6 m ρ) c).arrAt w cfg3.N
theorem W7_arr (c : Dev nD) (w : Fin cfg3.W) :
    W7 m ρ c (Proc.devRef .tc (Pipeline.arrRef spec3 w)) = (dat3 (E6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m ρ c b
theorem hF3 (c : Dev nD) (w : Fin cfg3.W) : (dat3 (E6 m ρ) c).arrAt w cfg3.N = E7 m ρ c (Pipeline.arrRef spec3 w) :=
  (W7_arr m ρ c w).symm
theorem hrest3 (c : Dev nD) : ∀ b, b ∉ Finset.univ.image (Pipeline.arrRef spec3) → E7 m ρ c b = E6 m ρ c b :=
  fun b hb => W7_of_ne m ρ c b fun w e => hb (Finset.mem_image.mpr ⟨w, Finset.mem_univ _, e⟩)
/-- After the host stretch `hostOps4`. -/
abbrev W8 : Dev nD → Valuation τ sig (Elt F) := fun c => StableHlo.after hostOps4 (W7 m ρ c)
/-- The same read at the TensorCore's references. -/
abbrev E8 : (c : Dev nD) → (b : Ref sig .tc) → Buf (Elt F) ((c : Thread nD τ).loc b) := fun c b => W8 m ρ c b
theorem W8_of (c : Dev nD) (r : Ref sig .tc) (h : r ∉ hostOps4_W) : W8 m ρ c r = W7 m ρ c r :=
  StableHlo.after_of_writes_sub hostOps4 _ hostOps4_writes h
/-- At region 4's exit: its arrays at what the write-backs leave, every other buffer as entered. -/
def W9 (c : Dev nD) : Valuation τ sig (Elt F) :=
  Pipeline.withArrays spec4 c (W8 m ρ c) fun w => (dat4 (E8 m ρ) c).arrAt w cfg4.N
theorem W9_arr (c : Dev nD) (w : Fin cfg4.W) :
    W9 m ρ c (Proc.devRef .tc (Pipeline.arrRef spec4 w)) = (dat4 (E8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references. -/
abbrev E9 : (c : Dev nD) → (b : Ref sig .tc) → Buf (Elt F) ((c : Thread nD τ).loc b) := fun c b => W9 m ρ c b
theorem hF4 (c : Dev nD) (w : Fin cfg4.W) : (dat4 (E8 m ρ) c).arrAt w cfg4.N = E9 m ρ c (Pipeline.arrRef spec4 w) :=
  (W9_arr m ρ c w).symm
theorem hrest4 (c : Dev nD) : ∀ b, b ∉ Finset.univ.image (Pipeline.arrRef spec4) → E9 m ρ c b = E8 m ρ c b :=
  fun b hb => W9_of_ne m ρ c b fun w e => hb (Finset.mem_image.mpr ⟨w, Finset.mem_univ _, e⟩)
/-- After the host stretch `hostOps5`. -/
abbrev W10 : Dev nD → Valuation τ sig (Elt F) := fun c => StableHlo.after hostOps5 (W9 m ρ c)
/-- The same read at the TensorCore's references. -/
abbrev E10 : (c : Dev nD) → (b : Ref sig .tc) → Buf (Elt F) ((c : Thread nD τ).loc b) := fun c b => W10 m ρ c b
theorem W10_of (c : Dev nD) (r : Ref sig .tc) (h : r ∉ hostOps5_W) : W10 m ρ c r = W9 m ρ c r :=
  StableHlo.after_of_writes_sub hostOps5 _ hostOps5_writes h
/-- At region 5's exit: its arrays at what the write-backs leave, every other buffer as entered. -/
def W11 (c : Dev nD) : Valuation τ sig (Elt F) :=
  Pipeline.withArrays spec5 c (W10 m ρ c) fun w => (dat5 (E10 m ρ) c).arrAt w cfg5.N
theorem W11_arr (c : Dev nD) (w : Fin cfg5.W) :
    W11 m ρ c (Proc.devRef .tc (Pipeline.arrRef spec5 w)) = (dat5 (E10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references. -/
abbrev E11 : (c : Dev nD) → (b : Ref sig .tc) → Buf (Elt F) ((c : Thread nD τ).loc b) := fun c b => W11 m ρ c b
theorem hF5 (c : Dev nD) (w : Fin cfg5.W) : (dat5 (E10 m ρ) c).arrAt w cfg5.N = E11 m ρ c (Pipeline.arrRef spec5 w) :=
  (W11_arr m ρ c w).symm
theorem hrest5 (c : Dev nD) : ∀ b, b ∉ Finset.univ.image (Pipeline.arrRef spec5) → E11 m ρ c b = E10 m ρ c b :=
  fun b hb => W11_of_ne m ρ c b fun w e => hb (Finset.mem_image.mpr ⟨w, Finset.mem_univ _, e⟩)

/-! ## The arguments end as launched

No host operation writes an argument array and no region has one as an output; a region that reads one through an
input window leaves it as it found it. -/
theorem W11_main_arg0 (c : Dev nD) : W11 m ρ c (Proc.devRef .tc main_arg0) = m ((c : Thread nD τ).loc main_arg0) :=
  (W11_of_ne m ρ c main_arg0 (by decide)).trans <|
  (W10_of m ρ c main_arg0 (by decide)).trans <|
  (W9_of_ne m ρ c main_arg0 (by decide)).trans <|
  (W8_of m ρ c main_arg0 (by decide)).trans <|
  (W7_of_ne m ρ c main_arg0 (by decide)).trans <|
  (W6_of m ρ c main_arg0 (by decide)).trans <|
  (W5_of_ne m ρ c main_arg0 (by decide)).trans <|
  (W4_of_ne m ρ c main_arg0 (by decide)).trans <|
  (W3_of m ρ c main_arg0 (by decide)).trans <|
  ((W2_arr m ρ c 0).trans (((dat0 (E1 m ρ) c).arrAt_in 0 rfl _).trans (A_eq0 (E1 m ρ) c 0))).trans <|
  (W1_of m ρ c main_arg0 (by decide)).trans rfl
theorem W11_main_arg1 (c : Dev nD) : W11 m ρ c (Proc.devRef .tc main_arg1) = m ((c : Thread nD τ).loc main_arg1) :=
  (W11_of_ne m ρ c main_arg1 (by decide)).trans <|
  (W10_of m ρ c main_arg1 (by decide)).trans <|
  (W9_of_ne m ρ c main_arg1 (by decide)).trans <|
  (W8_of m ρ c main_arg1 (by decide)).trans <|
  (W7_of_ne m ρ c main_arg1 (by decide)).trans <|
  (W6_of m ρ c main_arg1 (by decide)).trans <|
  (W5_of_ne m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W11_main_arg2 (c : Dev nD) : W11 m ρ c (Proc.devRef .tc main_arg2) = m ((c : Thread nD τ).loc main_arg2) :=
  (W11_of_ne m ρ c main_arg2 (by decide)).trans <|
  (W10_of m ρ c main_arg2 (by decide)).trans <|
  (W9_of_ne m ρ c main_arg2 (by decide)).trans <|
  (W8_of m ρ c main_arg2 (by decide)).trans <|
  (W7_of_ne m ρ c main_arg2 (by decide)).trans <|
  (W6_of m ρ c main_arg2 (by decide)).trans <|
  (W5_of_ne m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W11_main_arg3 (c : Dev nD) : W11 m ρ c (Proc.devRef .tc main_arg3) = m ((c : Thread nD τ).loc main_arg3) :=
  (W11_of_ne m ρ c main_arg3 (by decide)).trans <|
  (W10_of m ρ c main_arg3 (by decide)).trans <|
  (W9_of_ne m ρ c main_arg3 (by decide)).trans <|
  (W8_of m ρ c main_arg3 (by decide)).trans <|
  (W7_of_ne m ρ c main_arg3 (by decide)).trans <|
  (W6_of m ρ c main_arg3 (by decide)).trans <|
  (W5_of_ne m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem W11_main_arg4 (c : Dev nD) : W11 m ρ c (Proc.devRef .tc main_arg4) = m ((c : Thread nD τ).loc main_arg4) :=
  (W11_of_ne m ρ c main_arg4 (by decide)).trans <|
  (W10_of m ρ c main_arg4 (by decide)).trans <|
  (W9_of_ne m ρ c main_arg4 (by decide)).trans <|
  (W8_of m ρ c main_arg4 (by decide)).trans <|
  (W7_of_ne m ρ c main_arg4 (by decide)).trans <|
  (W6_of m ρ c main_arg4 (by decide)).trans <|
  (W5_of_ne m ρ c main_arg4 (by decide)).trans <|
  (W4_of_ne m ρ c main_arg4 (by decide)).trans <|
  (W3_of m ρ c main_arg4 (by decide)).trans <|
  ((W2_arr m ρ c 1).trans (((dat0 (E1 m ρ) c).arrAt_in 1 rfl _).trans (A_eq0 (E1 m ρ) c 1))).trans <|
  (W1_of m ρ c main_arg4 (by decide)).trans rfl
theorem W11_main_arg5 (c : Dev nD) : W11 m ρ c (Proc.devRef .tc main_arg5) = m ((c : Thread nD τ).loc main_arg5) :=
  (W11_of_ne m ρ c main_arg5 (by decide)).trans <|
  (W10_of m ρ c main_arg5 (by decide)).trans <|
  (W9_of_ne m ρ c main_arg5 (by decide)).trans <|
  (W8_of m ρ c main_arg5 (by decide)).trans <|
  (W7_of_ne m ρ c main_arg5 (by decide)).trans <|
  (W6_of m ρ c main_arg5 (by decide)).trans <|
  (W5_of_ne m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem W11_main_arg6 (c : Dev nD) : W11 m ρ c (Proc.devRef .tc main_arg6) = m ((c : Thread nD τ).loc main_arg6) :=
  (W11_of_ne m ρ c main_arg6 (by decide)).trans <|
  (W10_of m ρ c main_arg6 (by decide)).trans <|
  (W9_of_ne m ρ c main_arg6 (by decide)).trans <|
  (W8_of m ρ c main_arg6 (by decide)).trans <|
  (W7_of_ne m ρ c main_arg6 (by decide)).trans <|
  (W6_of m ρ c main_arg6 (by decide)).trans <|
  ((W5_arr m ρ c 1).trans (((dat2 (E4 m ρ) c).arrAt_in 1 rfl _).trans (A_eq2 (E4 m ρ) c 1))).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem W11_main_arg7 (c : Dev nD) : W11 m ρ c (Proc.devRef .tc main_arg7) = m ((c : Thread nD τ).loc main_arg7) :=
  (W11_of_ne m ρ c main_arg7 (by decide)).trans <|
  (W10_of m ρ c main_arg7 (by decide)).trans <|
  (W9_of_ne m ρ c main_arg7 (by decide)).trans <|
  (W8_of m ρ c main_arg7 (by decide)).trans <|
  (W7_of_ne m ρ c main_arg7 (by decide)).trans <|
  (W6_of m ρ c main_arg7 (by decide)).trans <|
  (W5_of_ne m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W11_main_arg8 (c : Dev nD) : W11 m ρ c (Proc.devRef .tc main_arg8) = m ((c : Thread nD τ).loc main_arg8) :=
  (W11_of_ne m ρ c main_arg8 (by decide)).trans <|
  (W10_of m ρ c main_arg8 (by decide)).trans <|
  (W9_of_ne m ρ c main_arg8 (by decide)).trans <|
  (W8_of m ρ c main_arg8 (by decide)).trans <|
  (W7_of_ne m ρ c main_arg8 (by decide)).trans <|
  (W6_of m ρ c main_arg8 (by decide)).trans <|
  (W5_of_ne m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W11_main_arg9 (c : Dev nD) : W11 m ρ c (Proc.devRef .tc main_arg9) = m ((c : Thread nD τ).loc main_arg9) :=
  (W11_of_ne m ρ c main_arg9 (by decide)).trans <|
  (W10_of m ρ c main_arg9 (by decide)).trans <|
  (W9_of_ne m ρ c main_arg9 (by decide)).trans <|
  (W8_of m ρ c main_arg9 (by decide)).trans <|
  (W7_of_ne m ρ c main_arg9 (by decide)).trans <|
  (W6_of m ρ c main_arg9 (by decide)).trans <|
  (W5_of_ne m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W11_main_arg10 (c : Dev nD) : W11 m ρ c (Proc.devRef .tc main_arg10) = m ((c : Thread nD τ).loc main_arg10) :=
  ((W11_arr m ρ c 1).trans (((dat5 (E10 m ρ) c).arrAt_in 1 rfl _).trans (A_eq5 (E10 m ρ) c 1))).trans <|
  (W10_of m ρ c main_arg10 (by decide)).trans <|
  (W9_of_ne m ρ c main_arg10 (by decide)).trans <|
  (W8_of m ρ c main_arg10 (by decide)).trans <|
  (W7_of_ne m ρ c main_arg10 (by decide)).trans <|
  (W6_of m ρ c main_arg10 (by decide)).trans <|
  (W5_of_ne m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem W11_main_arg11 (c : Dev nD) : W11 m ρ c (Proc.devRef .tc main_arg11) = m ((c : Thread nD τ).loc main_arg11) :=
  (W11_of_ne m ρ c main_arg11 (by decide)).trans <|
  (W10_of m ρ c main_arg11 (by decide)).trans <|
  (W9_of_ne m ρ c main_arg11 (by decide)).trans <|
  (W8_of m ρ c main_arg11 (by decide)).trans <|
  (W7_of_ne m ρ c main_arg11 (by decide)).trans <|
  (W6_of m ρ c main_arg11 (by decide)).trans <|
  (W5_of_ne m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem W11_main_arg12 (c : Dev nD) : W11 m ρ c (Proc.devRef .tc main_arg12) = m ((c : Thread nD τ).loc main_arg12) :=
  ((W11_arr m ρ c 3).trans (((dat5 (E10 m ρ) c).arrAt_in 3 rfl _).trans (A_eq5 (E10 m ρ) c 3))).trans <|
  (W10_of m ρ c main_arg12 (by decide)).trans <|
  (W9_of_ne m ρ c main_arg12 (by decide)).trans <|
  (W8_of m ρ c main_arg12 (by decide)).trans <|
  (W7_of_ne m ρ c main_arg12 (by decide)).trans <|
  (W6_of m ρ c main_arg12 (by decide)).trans <|
  (W5_of_ne m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem W11_main_arg13 (c : Dev nD) : W11 m ρ c (Proc.devRef .tc main_arg13) = m ((c : Thread nD τ).loc main_arg13) :=
  (W11_of_ne m ρ c main_arg13 (by decide)).trans <|
  (W10_of m ρ c main_arg13 (by decide)).trans <|
  (W9_of_ne m ρ c main_arg13 (by decide)).trans <|
  (W8_of m ρ c main_arg13 (by decide)).trans <|
  (W7_of_ne m ρ c main_arg13 (by decide)).trans <|
  (W6_of m ρ c main_arg13 (by decide)).trans <|
  (W5_of_ne m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl

/-! ## The proof data family and the thread state -/

/-- No pallas_call has a prefetched table. -/
abbrev padm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E4 m ρ) c
  | ⟨3, _⟩ => fun c => dat3 (E6 m ρ) c
  | ⟨4, _⟩ => fun c => dat4 (E8 m ρ) c
  | ⟨5, _⟩ => fun c => dat5 (E10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

/-! ## The regions as segments

Each region is entered from every unscoped buffer at its entry contents and left at its exit contents: its arrays are
split out of the unscoped buffers and put back at what the pipeline leaves; the generator register passes through the
pipeline's invariant; nothing is owed; the kernels have no semaphore of their own. -/

set_option backward.isDefEq.respectTransparency.types false in
/-- Region 0: entered from every unscoped buffer at `W1`, left at `W2`. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W4`, left at `W5`. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W6`, left at `W7`. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (E6 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (E6 m ρ) c
  hout c := by
    rw [Pipeline.ownSems0_none]
    exact hout3 (E6 m ρ) c
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E6 m ρ c) (E7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W8`, left at `W9`. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (E8 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E8 m ρ c) (E9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W10`, left at `W11`. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E10 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E10 m ρ c) (E11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev psegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ) ]
/-- @main is the run of the segments. -/
theorem main_run (c : Dev nD) : main (F := F) c = Pipeline.Seg.run (psegs m ρ) := (main_chain c).trans (by chain_rfl)

set_option backward.isDefEq.respectTransparency.types false in
/-- From any memory with zero counters every weakly fair execution of @main terminates, nothing faulting, and every
    final state holds each unscoped buffer of each core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) padm (pdats m ρ) () cellOf_inj emb₁ defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame claim at any float instance: the run ends, and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c)⟩)
    (run_all m ρ)

end Cert.Kernel.Hand

end
-- ==== Proof.Frames.lean ====
import proofs.«108927_j51273319579928_2_alg».proof.Defs
import proofs.«108927_j51273319579928_2_alg».proof.Proof.Gen.Kernel
import proofs.«108927_j51273319579928_2_alg».proof.Proof.Gen.KernelIdeal
import proofs.«108927_j51273319579928_2_alg».proof.Proof.Gen.ReferenceIdeal
import proofs.«108927_j51273319579928_2_alg».proof.Proof.Gen.Pre_finite_inputs
import proofs.«108927_j51273319579928_2_alg».proof.Proof.KI.Run
import proofs.«108927_j51273319579928_2_alg».proof.Proof.K.Run
import proofs.«108927_j51273319579928_2_alg».proof.Proof.GenP.ReferenceIdeal.Run

/-!
# The three frames and the idealization conjunct, as the claim states them

Each program, from any launch memory, runs to the end without a fault and leaves its fourteen argument arrays as
launched. For the two kernel programs that is the run through their six regions and the host stretches between them,
which holds at any float instance and needs nothing of the precondition; for the reference it is its run with the
result dropped. The idealized kernel is the kernel's own text read on extended reals, no operation rewritten, so the
idealization conjunct is trivially true.
-/

noncomputable section

namespace Cert.Proof.Frames

open Idealize.ShloMosaic Idealize.SL.Sem

/-- The word-level kernel runs and its arguments end unchanged. -/
theorem frame_k : Cert.frame_Kernel (hKernel := Cert.Kernel.Gen.facts) (hPre_finite_inputs := Cert.Pre_finite_inputs.Gen.facts) :=
  fun m ρ _ => Cert.Kernel.Hand.frame m ρ

/-- The kernel on extended reals runs and its arguments end unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and its arguments end unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- No operation was rewritten when the kernel was read on extended reals. -/
theorem preserves : Cert.preserves_Kernel_KernelIdeal := trivial

end Cert.Proof.Frames
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KV.Host.lean ====
/-
  What the host stretches between the kernel regions compute, stated with the reference program's own stage functions:
  each stretch applies to the buffers it finds the same operations, in the same order, as the corresponding lines of
  the reference, so once the buffers it reads are known to hold reference stages, the buffer it writes holds the next
  reference stage. The edge list is sliced and sign-normalised once (stretch 0) and then used by both aggregations:
  rows gathered at the sources, scaled by the edge weights, and summed into the rows of the destinations.
-/
import proofs.«108927_j51273319579928_2_alg».proof.Proof.GenP.KernelIdeal.Launch
import proofs.«108927_j51273319579928_2_alg».proof.Proof.GenP.ReferenceIdeal.Read
import Idealize.ShloMosaic.Lib.StableHlo.Run
import Idealize.ShloMosaic.Lib.Pipeline.Value
import Idealize.ShloMosaic.Lib.ValueIdx
import proofs.«108927_j51273319579928_2_alg».proof.Proof.LibRowCast

noncomputable section

namespace Cert.KernelIdeal.Hand

open Idealize.ShloMosaic Idealize.ShloMosaic.TcCoe Idealize.SL.Sem Idealize.ShloMosaic.StableHlo
open Cert.KernelIdeal Cert.KernelIdeal.Gen
open Idealize.ShloMosaic.ValueIdx
open Cert.ReferenceIdeal.Read (val_main_v1 val_main_v3 val_main_v4 val_main_v17 val_main_v26 val_main_v39 val_main_v72 val_main_v75)

variable {F : FTy → Type} [FloatOps F]
variable (W : Valuation τ sig (Elt F))

/-! ## Stretch 0: the edge list's two rows -/

/-- The sources: row 0 of the edge list as a vector. -/
theorem host0_v1 : StableHlo.after hostOps0 W (Proc.devRef .tc main_v1) = val_main_v1 (F := F) (W (Proc.devRef .tc main_arg1)) := by
  after_results; rfl
/-- The destinations: row 1 of the edge list as a vector. -/
theorem host0_v3 : StableHlo.after hostOps0 W (Proc.devRef .tc main_v3) = val_main_v3 (F := F) (W (Proc.devRef .tc main_arg1)) := by
  after_results; rfl

/-! ## Stretch 1: the first aggregation -/

/-- The projected rows gathered at the sources, scaled by the edge weights and summed by destination. -/
theorem host1_v17 (x0 x1 x2 x4)
    (h4 : W (Proc.devRef .tc main_v4) = val_main_v4 (F := F) x0 x4)
    (h1 : W (Proc.devRef .tc main_v1) = val_main_v1 (F := F) x1)
    (h3 : W (Proc.devRef .tc main_v3) = val_main_v3 (F := F) x1)
    (h2 : W (Proc.devRef .tc main_arg2) = x2) :
    StableHlo.after hostOps1 W (Proc.devRef .tc main_v17) = val_main_v17 (F := F) x0 x1 x2 x4 := by
  after_results_simp
  rw [h4, h1, h3, h2]; rfl

/-! ## Stretch 3: the second aggregation -/

theorem host3_v33 (x0 x1 x2 x4 x5 x6)
    (h20 : W (Proc.devRef .tc main_v20) = val_main_v26 (F := F) x0 x1 x2 x4 x5 x6)
    (h1 : W (Proc.devRef .tc main_v1) = val_main_v1 (F := F) x1)
    (h3 : W (Proc.devRef .tc main_v3) = val_main_v3 (F := F) x1)
    (h2 : W (Proc.devRef .tc main_arg2) = x2) :
    StableHlo.after hostOps3 W (Proc.devRef .tc main_v33) = val_main_v39 (F := F) x0 x1 x2 x4 x5 x6 := by
  after_results_simp
  rw [h20, h1, h3, h2]; rfl

/-! ## Stretch 5: the pooling over graphs, and the head's two bias rows -/

/-- The normalised rows summed into the rows of their graphs. -/
theorem host5_v56 (x0 x1 x2 x3 x4 x5 x6 x7 x8 x9)
    (h53 : W (Proc.devRef .tc main_v53) = val_main_v72 (F := F) x0 x1 x2 x4 x5 x6 x7 x8 x9)
    (h3 : W (Proc.devRef .tc main_arg3) = x3) :
    StableHlo.after hostOps5 W (Proc.devRef .tc main_v56) = val_main_v75 (F := F) x0 x1 x2 x3 x4 x5 x6 x7 x8 x9 := by
  after_results_simp
  rw [h53, h3]; rfl
/-- The first bias of the head as a row. -/
theorem host5_v57 : StableHlo.after hostOps5 W (Proc.devRef .tc main_v57)
    = shapeCast _ (W (Proc.devRef .tc main_arg11)) shapeCasts_S10_S1x10 := by
  after_results_simp; rfl
/-- The second bias of the head as a row. -/
theorem host5_v58 : StableHlo.after hostOps5 W (Proc.devRef .tc main_v58)
    = shapeCast _ (W (Proc.devRef .tc main_arg13)) shapeCasts_S2_S1x2 := by
  after_results_simp; rfl

/-! ## The bias rows of stretches 1 and 3 -/

theorem host1_v18 : StableHlo.after hostOps1 W (Proc.devRef .tc main_v18)
    = shapeCast _ (W (Proc.devRef .tc main_arg5)) shapeCasts_S32_S1x32 := by
  after_results_simp; rfl
theorem host3_v34 : StableHlo.after hostOps3 W (Proc.devRef .tc main_v34)
    = shapeCast _ (W (Proc.devRef .tc main_arg7)) shapeCasts_S20_S1x20 := by
  after_results_simp; rfl

/-! ## Stretch 4: the batch statistics turned into a scale and a shift

From the two rows of column sums the stretch computes, column by column, the mean (the sum over the count), the
variance in its one-pass form (the mean of the squares less the square of the mean), the reciprocal square root of
the variance plus the small constant, the scale (the weight times that root) and the shift (the offset less the mean
times the scale); the bias, the scale and the shift are handed to the next region as rows. -/

/-- The three rows at column `j`, from the sums' rows at column `j` and the three parameter vectors at `j`. -/
theorem host4_rows_term :
    StableHlo.after hostOps4 W (Proc.devRef .tc main_v50) = shapeCast S1x20 (W (Proc.devRef .tc main_arg7)) shapeCasts_S20_S1x20
    ∧ StableHlo.after hostOps4 W (Proc.devRef .tc main_v51)
      = shapeCast S1x20 (mulf (W (Proc.devRef .tc main_arg8))
          (Host.rsqrt (addf (subf
            (Host.divf (shapeCast S20 (W (Proc.devRef .tc main_v35_1)) shapeCasts_S1x20_S20) (broadcastInDim S20 ![] bcast_S_S20 (constant S_ .f32 0x48780000#32)))
            (mulf (Host.divf (shapeCast S20 (W (Proc.devRef .tc main_v35_0)) shapeCasts_S1x20_S20) (broadcastInDim S20 ![] bcast_S_S20 (constant S_ .f32 0x48780000#32)))
                  (Host.divf (shapeCast S20 (W (Proc.devRef .tc main_v35_0)) shapeCasts_S1x20_S20) (broadcastInDim S20 ![] bcast_S_S20 (constant S_ .f32 0x48780000#32)))))
            (broadcastInDim S20 ![] bcast_S_S20 (constant S_ .f32 0x3727C5AC#32))))) shapeCasts_S20_S1x20
    ∧ StableHlo.after hostOps4 W (Proc.devRef .tc main_v52)
      = shapeCast S1x20 (subf (W (Proc.devRef .tc main_arg9))
          (mulf (Host.divf (shapeCast S20 (W (Proc.devRef .tc main_v35_0)) shapeCasts_S1x20_S20) (broadcastInDim S20 ![] bcast_S_S20 (constant S_ .f32 0x48780000#32)))
            (mulf (W (Proc.devRef .tc main_arg8))
              (Host.rsqrt (addf (subf
                (Host.divf (shapeCast S20 (W (Proc.devRef .tc main_v35_1)) shapeCasts_S1x20_S20) (broadcastInDim S20 ![] bcast_S_S20 (constant S_ .f32 0x48780000#32)))
                (mulf (Host.divf (shapeCast S20 (W (Proc.devRef .tc main_v35_0)) shapeCasts_S1x20_S20) (broadcastInDim S20 ![] bcast_S_S20 (constant S_ .f32 0x48780000#32)))
                      (Host.divf (shapeCast S20 (W (Proc.devRef .tc main_v35_0)) shapeCasts_S1x20_S20) (broadcastInDim S20 ![] bcast_S_S20 (constant S_ .f32 0x48780000#32)))))
                (broadcastInDim S20 ![] bcast_S_S20 (constant S_ .f32 0x3727C5AC#32))))))) shapeCasts_S20_S1x20 := by
  refine ⟨?_, ?_, ?_⟩ <;> (after_results_simp; rfl)

/-! ## Rows and vectors read at a column -/

/-- A row [1, b] flattened to a vector of b entries reads, at j, the row's entry (0, j): the two indices have the
    same row-major position. -/
theorem shapeCast_unrow_apply {α : Type} {b : ℕ} (x : (⟨2, ![1, b]⟩ : Shape).Idx → α)
    (h : (⟨2, ![1, b]⟩ : Shape).ShapeCasts ⟨1, ![b]⟩) (j : Fin b) :
    shapeCast ⟨1, ![b]⟩ x h (ix1 j) = x (ix2 (0 : Fin 1) j) :=
  shapeCast_apply x h _ _ (by
    rw [Shape.rowMajor_val_two, Shape.rowMajor_val_one]
    show (0 : Fin 1).val * b + j.val = j.val
    simp)

/-- A constant spread over a vector reads the constant's word everywhere. -/
theorem splat20_apply (w : BitVec 32) (j : Fin 20) :
    (broadcastInDim S20 ![] bcast_S_S20 (constant (F := F) S_ .f32 w) : (⟨S20, .f32⟩ : BufTy).Contents (Elt F)) (ix1 j)
      = FloatOps.ofBits .f32 w :=
  (broadcastInDim_apply _ bcast_S_S20 (constant (F := F) S_ .f32 w) (ix1 j) (fun a => a.elim0) (fun a => a.elim0)).trans rfl

/-- The three rows stretch 4 hands to the next region, at column `j`: the bias; the scale, the weight times the
    reciprocal square root of (mean of squares − mean² + the small constant); the shift, the offset less mean times
    scale — the mean and the mean of squares being the two sums' entries over the count. -/
theorem host4_rows_apply (j : Fin 20) :
    (StableHlo.after hostOps4 W (Proc.devRef .tc main_v50) : (⟨S1x20, .f32⟩ : BufTy).Contents (Elt F)) (ix2 (0 : Fin 1) j)
        = (W (Proc.devRef .tc main_arg7) : (⟨S20, .f32⟩ : BufTy).Contents (Elt F)) (ix1 j)
    ∧ (StableHlo.after hostOps4 W (Proc.devRef .tc main_v51) : (⟨S1x20, .f32⟩ : BufTy).Contents (Elt F)) (ix2 (0 : Fin 1) j)
        = FloatOps.mulf ((W (Proc.devRef .tc main_arg8) : (⟨S20, .f32⟩ : BufTy).Contents (Elt F)) (ix1 j))
            (FloatOps.hostUnary .rsqrt (FloatOps.addf (FloatOps.subf
              (FloatOps.hostDivf ((W (Proc.devRef .tc main_v35_1) : (⟨S1x20, .f32⟩ : BufTy).Contents (Elt F)) (ix2 (0 : Fin 1) j)) (FloatOps.ofBits .f32 0x48780000#32))
              (FloatOps.mulf
                (FloatOps.hostDivf ((W (Proc.devRef .tc main_v35_0) : (⟨S1x20, .f32⟩ : BufTy).Contents (Elt F)) (ix2 (0 : Fin 1) j)) (FloatOps.ofBits .f32 0x48780000#32))
                (FloatOps.hostDivf ((W (Proc.devRef .tc main_v35_0) : (⟨S1x20, .f32⟩ : BufTy).Contents (Elt F)) (ix2 (0 : Fin 1) j)) (FloatOps.ofBits .f32 0x48780000#32))))
              (FloatOps.ofBits .f32 0x3727C5AC#32)))
    ∧ (StableHlo.after hostOps4 W (Proc.devRef .tc main_v52) : (⟨S1x20, .f32⟩ : BufTy).Contents (Elt F)) (ix2 (0 : Fin 1) j)
        = FloatOps.subf ((W (Proc.devRef .tc main_arg9) : (⟨S20, .f32⟩ : BufTy).Contents (Elt F)) (ix1 j))
            (FloatOps.mulf
              (FloatOps.hostDivf ((W (Proc.devRef .tc main_v35_0) : (⟨S1x20, .f32⟩ : BufTy).Contents (Elt F)) (ix2 (0 : Fin 1) j)) (FloatOps.ofBits .f32 0x48780000#32))
              (FloatOps.mulf ((W (Proc.devRef .tc main_arg8) : (⟨S20, .f32⟩ : BufTy).Contents (Elt F)) (ix1 j))
                (FloatOps.hostUnary .rsqrt (FloatOps.addf (FloatOps.subf
                  (FloatOps.hostDivf ((W (Proc.devRef .tc main_v35_1) : (⟨S1x20, .f32⟩ : BufTy).Contents (Elt F)) (ix2 (0 : Fin 1) j)) (FloatOps.ofBits .f32 0x48780000#32))
                  (FloatOps.mulf
                    (FloatOps.hostDivf ((W (Proc.devRef .tc main_v35_0) : (⟨S1x20, .f32⟩ : BufTy).Contents (Elt F)) (ix2 (0 : Fin 1) j)) (FloatOps.ofBits .f32 0x48780000#32))
                    (FloatOps.hostDivf ((W (Proc.devRef .tc main_v35_0) : (⟨S1x20, .f32⟩ : BufTy).Contents (Elt F)) (ix2 (0 : Fin 1) j)) (FloatOps.ofBits .f32 0x48780000#32))))
                  (FloatOps.ofBits .f32 0x3727C5AC#32))))) := by
  obtain ⟨e50, e51, e52⟩ := host4_rows_term (F := F) W
  have hs0 : shapeCast S20 (W (Proc.devRef .tc main_v35_0)) shapeCasts_S1x20_S20 (ix1 j)
      = (W (Proc.devRef .tc main_v35_0) : (⟨S1x20, .f32⟩ : BufTy).Contents (Elt F)) (ix2 (0 : Fin 1) j) :=
    shapeCast_unrow_apply (W (Proc.devRef .tc main_v35_0) : (⟨S1x20, .f32⟩ : BufTy).Contents (Elt F)) shapeCasts_S1x20_S20 j
  have hs1 : shapeCast S20 (W (Proc.devRef .tc main_v35_1)) shapeCasts_S1x20_S20 (ix1 j)
      = (W (Proc.devRef .tc main_v35_1) : (⟨S1x20, .f32⟩ : BufTy).Contents (Elt F)) (ix2 (0 : Fin 1) j) :=
    shapeCast_unrow_apply (W (Proc.devRef .tc main_v35_1) : (⟨S1x20, .f32⟩ : BufTy).Contents (Elt F)) shapeCasts_S1x20_S20 j
  have hN := splat20_apply (F := F) 0x48780000#32 j
  have hε := splat20_apply (F := F) 0x3727C5AC#32 j
  refine ⟨?_, ?_, ?_⟩
  · rw [e50]; exact Cert.RowCast.shapeCast_row_apply _ shapeCasts_S20_S1x20 0 j
  · rw [e51]; refine (Cert.RowCast.shapeCast_row_apply _ shapeCasts_S20_S1x20 0 j).trans ?_
    show FloatOps.mulf _ (FloatOps.hostUnary .rsqrt (FloatOps.addf (FloatOps.subf (FloatOps.hostDivf _ _) (FloatOps.mulf (FloatOps.hostDivf _ _) (FloatOps.hostDivf _ _))) _)) = _
    rw [hs0, hs1, hN, hε]
  · rw [e52]; refine (Cert.RowCast.shapeCast_row_apply _ shapeCasts_S20_S1x20 0 j).trans ?_
    show FloatOps.subf _ (FloatOps.mulf (FloatOps.hostDivf _ _) (FloatOps.mulf _ (FloatOps.hostUnary .rsqrt (FloatOps.addf (FloatOps.subf (FloatOps.hostDivf _ _) (FloatOps.mulf (FloatOps.hostDivf _ _) (FloatOps.hostDivf _ _))) _)))) = _
    rw [hs0, hs1, hN, hε]

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KV.Val0.lean ====
import proofs.«108927_j51273319579928_2_alg».proof.Proof.KI.Reg0
import proofs.«108927_j51273319579928_2_alg».proof.Proof.LibDotRows
import Idealize.ShloMosaic.Lib.Pipeline.Value
import Idealize.ShloMosaic.Lib.ValueIdx
import Idealize.ShloMosaic.PureOps.Ideal.Laws

/-!
# Region 0, read at the exact values: the array the region writes is the matrix product

At the exact extended reals a change of float format is the identity and the contraction into a zero
accumulator is the plain sum of products. So the body's payload at entry `(p, q)` of a block is
`∑ k, x (p, k) * w (k, q)` over the two loaded blocks; the left block at grid point `t` is rows
`3968·t … 3968·t + 3967` of the left array and the weight's block is the whole weight at every point; and the
64 output blocks tile the rows of the output array (row `r` lies in the block of point `r / 3968`). Hence
after the region entry `(r, q)` of the output array is `∑ k, X (r, k) * W (k, q)` of the arrays
`X`, `W` the region found.
-/

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL Idealize.SL.Sem
open Idealize.ShloMosaic.Pipeline (Dat)

/-- The zero offsets of a whole-block access, in the two spellings. -/
theorem hz0 : (![0, 0] : Fin 2 → Nat) = fun _ => 0 := funext fun a => by fin_cases a <;> rfl

/-! ## The payload at an index -/

/-- The body's product of two blocks at entry `(p, q)`: the sum over the contracted axis. -/
theorem pay0_apply (l : Vec Ideal S3968x6 .f32) (r : Vec Ideal S6x32 .f32) (p : Fin 3968) (q : Fin 32) :
    k0_pay1 (F := Ideal) l r (ix2 p q) = ∑ k : Fin 6, l (ix2 p k) * r (ix2 k q) := by
  unfold k0_pay1
  refine (Ideal.matmul_constant_zero_apply dot_S3968x6_S6x32_S3968x32_1_0_0_1_n_n none _ _ (ix2 p q)).trans ?_
  show ∑ c, l (dot_S3968x6_S6x32_S3968x32_1_0_0_1_n_n.lhsIdx (ix2 p q) c) * r (dot_S3968x6_S6x32_S3968x32_1_0_0_1_n_n.rhsIdx (ix2 p q) c) = _
  dot_rows dot_S3968x6_S6x32_S3968x32_1_0_0_1_n_n S3968x6 S6x32 6

/-- What the body leaves in the output's staging buffer, at entry `(p, q)`. -/
theorem out0_2_apply (x : Vec Ideal S3968x6 .f32) (w : Vec Ideal S6x32 .f32) (p : Fin 3968) (q : Fin 32) :
    out0_2 (F := Ideal) x w (ix2 p q) = ∑ k : Fin 6, x (ix2 p k) * w (ix2 k q) := by
  unfold out0_2
  rw [View.canon_unit_zero hz0]
  simp only [View.ld_unit_zero (S := S3968x6) hz0, View.ld_unit_zero (S := S6x32) hz0]
  exact pay0_apply x w p q

/-- The same at any index of the block, by its coordinates. -/
theorem out0_2_at (x : Vec Ideal S3968x6 .f32) (w : Vec Ideal S6x32 .f32) (y : S3968x32.Idx) :
    out0_2 (F := Ideal) x w y = ∑ k : Fin 6, x (ix2 (y 0) k) * w (ix2 k (y 1)) := by
  obtain ⟨p, q, rfl⟩ : ∃ (p : Fin 3968) (q : Fin 32), y = ix2 p q := ⟨y 0, y 1, eq_ix2 y⟩
  exact out0_2_apply x w p q

/-! ## From blocks to the array -/

section Closed
variable (V : (c : Dev nD) → (b : Ref sig .tc) → Buf (Elt Ideal) ((c : Thread nD τ).loc b))

/-- The matrix product of two whole arrays, entry by entry. -/
def prod0 (X : S253952x6.Idx → Elt Ideal .f32) (W : S6x32.Idx → Elt Ideal .f32) : S253952x32.Idx → Elt Ideal .f32 :=
  fun i => ∑ k : Fin 6, X (ix2 (i 0) k) * W (ix2 k (i 1))

/-- The index maps over the grid: the left and the output blocks move down the rows with the point,
    the weight's block stays at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `3968·t …` of the left array. -/
theorem iblk0_0_apply (c : Dev nD) (t : Fin cfg0.N) (x : S3968x6.Idx) (i : S253952x6.Idx)
    (h0 : (i 0).val = t.val * 3968 + (x 0).val) (h1 : (i 1).val = (x 1).val) :
    (iblk0 V c 0 t : Vec Ideal S3968x6 .f32) x = (V c (Pipeline.arrRef spec0 0) : S253952x6.Idx → Elt Ideal .f32) i := by
  obtain ⟨e0, e1, -⟩ := idx_facts0 t
  unfold iblk0
  rw [View.read_apply]
  refine congrArg (V c (Pipeline.arrRef spec0 0) : S253952x6.Idx → Elt Ideal .f32) (funext fun a => Fin.ext ?_)
  match a with
  | ⟨0, _⟩ => show win0_0.index t (0 : Fin 2) * 3968 + 1 * (x 0).val = (i 0).val; omega
  | ⟨1, _⟩ => show win0_0.index t (1 : Fin 2) * 6 + 1 * (x 1).val = (i 1).val; omega

/-- The weight window's block at any point is the whole weight. -/
theorem iblk0_1_apply (c : Dev nD) (t : Fin cfg0.N) (x : S6x32.Idx) :
    (iblk0 V c 1 t : Vec Ideal S6x32 .f32) x = (V c (Pipeline.arrRef spec0 1) : S6x32.Idx → Elt Ideal .f32) x := by
  obtain ⟨-, -, e2, e3, -⟩ := idx_facts0 t
  unfold iblk0
  rw [View.read_apply]
  refine congrArg (V c (Pipeline.arrRef spec0 1) : S6x32.Idx → Elt Ideal .f32) (funext fun a => Fin.ext ?_)
  match a with
  | ⟨0, _⟩ => show win0_1.index t (0 : Fin 2) * 6 + 1 * (x 0).val = (x 0).val; omega
  | ⟨1, _⟩ => show win0_1.index t (1 : Fin 2) * 32 + 1 * (x 1).val = (x 1).val; omega

/-- What point `t` writes back is block `t` of the product of the arrays the region found. -/
theorem flushed0_2_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 (F := Ideal) V c).after 2 t) = _
  rw [after0_2]
  obtain ⟨-, -, -, -, e4, e5⟩ := idx_facts0 t
  funext j
  refine (out0_2_at (iblk0 V c 0 t) (iblk0 V c 1 t) ((cfg0.win 2).xinj (grid0.coords t) j)).trans ?_
  rw [View.read_apply]
  unfold prod0
  refine Finset.sum_congr rfl fun k _ => ?_
  rw [iblk0_1_apply V c t]
  refine congrArg₂ (· * ·) (iblk0_0_apply V c t _ _ ?_ ?_) (congrArg (V c (Pipeline.arrRef spec0 1) : S6x32.Idx → Elt Ideal .f32) (funext fun a => Fin.ext ?_))
  · show win0_2.index t (0 : Fin 2) * 3968 + 1 * (j 0).val = t.val * 3968 + (j 0).val; omega
  · rfl
  · match a with
    | ⟨0, _⟩ => rfl
    | ⟨1, _⟩ => show (j 1).val = win0_2.index t (1 : Fin 2) * 32 + 1 * (j 1).val; omega

/-- An index of the output array is in point `t`'s block iff each coordinate is in the block's range. -/
theorem mem_blk0_2 (t : Fin cfg0.N) (i : S253952x32.Idx) :
    i ∈ ((cfg0.win 2).blk t).view.set ↔ ∀ a : Fin 2, win0_2.index t a * S3968x32.size a ≤ (i a).val ∧ (i a).val < win0_2.index t a * S3968x32.size a + S3968x32.size a := by
  show i ∈ ((View.whole main_v4).slice (win0_2.rect t)).set ↔ _
  rw [View.set_slice_whole, Rect.mem_set_unit]
  exact Iff.rfl

/-- Every index of the output array is in some point's block: row `r` in the block of point `r / 3968`. -/
theorem covered0_2 (i : S253952x32.Idx) :
    ∃ t : Fin cfg0.N, (cfg0.win 2).flush t = true ∧ i ∈ ((cfg0.win 2).blk t).view.set := by
  have hi0 : (i 0).val < 253952 := (i 0).isLt
  have hi1 : (i 1).val < 32 := (i 1).isLt
  have hN : cfg0.N = 64 := N_0
  refine ⟨⟨(i 0).val / 3968, by rw [hN]; omega⟩, flush0_2 _, ?_⟩
  rw [mem_blk0_2]
  obtain ⟨-, -, -, -, e4, e5⟩ := idx_facts0 ⟨(i 0).val / 3968, by rw [hN]; omega⟩
  intro a
  match a with
  | ⟨0, _⟩ => show win0_2.index _ (0 : Fin 2) * 3968 ≤ (i 0).val ∧ (i 0).val < win0_2.index _ (0 : Fin 2) * 3968 + 3968; rw [e4]; show (i 0).val / 3968 * 3968 ≤ (i 0).val ∧ (i 0).val < (i 0).val / 3968 * 3968 + 3968; omega
  | ⟨1, _⟩ => show win0_2.index _ (1 : Fin 2) * 32 ≤ (i 1).val ∧ (i 1).val < win0_2.index _ (1 : Fin 2) * 32 + 32; rw [e5]; omega

/-- The output array after the region is the product of the arrays the region found. -/
theorem final0_2 (c : Dev nD) :
    (dat0 (F := Ideal) V c).arrAt 2 cfg0.N = prod0 (V c (Pipeline.arrRef spec0 0)) (V c (Pipeline.arrRef spec0 1)) :=
  (dat0 (F := Ideal) V c).arrAt_eq_of_cover 2 _ (fun t _ => flushed0_2_eq V c t) (covered0_2)

/-- The closed form, entry by entry: with `X` and `W` the left array and the weight as the region finds
    them, entry `(r, q)` of the output array after the region is `∑ k, X (r, k) * W (k, q)`. -/
theorem closed0_2 (c : Dev nD) (X : S253952x6.Idx → Elt Ideal .f32) (W : S6x32.Idx → Elt Ideal .f32)
    (hX : V c (Pipeline.arrRef spec0 0) = X) (hW : V c (Pipeline.arrRef spec0 1) = W) (r : Fin 253952) (q : Fin 32) :
    (dat0 (F := Ideal) V c).arrAt 2 cfg0.N (ix2 r q) = ∑ k : Fin 6, X (ix2 r k) * W (ix2 k q) := by
  rw [final0_2, hX, hW]
  rfl

end Closed

end Cert.KernelIdeal.Hand

end
-- ==== Proof.KV.Match0.lean ====
import proofs.«108927_j51273319579928_2_alg».proof.Proof.KV.Val0
import proofs.«108927_j51273319579928_2_alg».proof.Proof.GenP.ReferenceIdeal.Read

/-!
# Region 0 against the reference's first matrix product

The output array of region 0 is the matrix product of the two arrays the region finds; the
reference's first `dot_general`, read at an index, is the same sum over the contracted axis with the
same operand indices. So when the region finds the reference's two operands, the array it leaves is
the reference's stage.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The entrywise matrix product is the reference's first `dot_general` of the same operands. -/
theorem prod0_eq_ref (X : S253952x6.Idx → Elt Ideal .f32) (W : S6x32.Idx → Elt Ideal .f32) :
    prod0 X W = Cert.ReferenceIdeal.Read.val_main_v4 (F := Ideal) X W := by
  funext i
  refine Eq.trans ?_ (Cert.ReferenceIdeal.Read.val_main_v4_apply X W i).symm
  unfold prod0
  refine Finset.sum_congr rfl fun k _ => ?_
  have el : Cert.ReferenceIdeal.Read.lidx_main_v4 i k = ix2 (i 0) k :=
    funext fun a => Fin.ext (by match a with | ⟨0, _⟩ => rfl | ⟨1, _⟩ => rfl)
  have er : Cert.ReferenceIdeal.Read.ridx_main_v4 i k = ix2 k (i 1) :=
    funext fun a => Fin.ext (by match a with | ⟨0, _⟩ => rfl | ⟨1, _⟩ => rfl)
  rw [el, er] <;> rfl

section Match
variable (V : (c : Dev nD) → (b : Ref sig .tc) → Buf (Elt Ideal) ((c : Thread nD τ).loc b))

/-- If the region finds `x0` in its left array and `x4` in its weight, the array it leaves is the
    reference's stage `val_main_v4 x0 x4`. -/
theorem match0 (c : Dev nD) (x0 : (⟨Cert.ReferenceIdeal.S253952x6, .f32⟩ : BufTy).Contents (Elt Ideal))
    (x4 : (⟨Cert.ReferenceIdeal.S6x32, .f32⟩ : BufTy).Contents (Elt Ideal))
    (h0 : V c (Pipeline.arrRef spec0 0) = x0) (h4 : V c (Pipeline.arrRef spec0 1) = x4) :
    (dat0 (F := Ideal) V c).arrAt 2 cfg0.N = Cert.ReferenceIdeal.Read.val_main_v4 (F := Ideal) x0 x4 := by
  rw [final0_2, h0, h4]
  exact prod0_eq_ref x0 x4

end Match

end Cert.KernelIdeal.Hand

end
-- ==== Proof.Spec.lean ====
import Idealize.ShloMosaic.PureOps.Ideal
import Idealize.ShloMosaic.Lib.ValueIdx

/-!
# The scalar leaky-relu of this network, on extended reals

Both programs apply the same activation entry by entry: `y` where `0 ≤ y`, and `slope * y` elsewhere, the slope
being the single-precision word `0x3C23D70A` (the nearest float to one hundredth) and the threshold the zero word. It
is stated here once as a function of one extended real, in exactly the form the vector operations `select`,
`cmpf .oge`, `mulf` and a splat of the two words take at one index, so that each side's vector expression reads
`leaky` of its operand's entry by unfolding alone. Neither word is evaluated.
-/

namespace Cert.Spec

open Idealize.ShloMosaic

/-- The leaky-relu on one extended real: `y` where `y ≥ 0`, `slope * y` elsewhere. -/
noncomputable def leaky (y : Ideal .f32) : Ideal .f32 :=
  Scalar.select (Ideal.cmp .oge y (Ideal.ofBits .f32 0x00000000#32)) y (Ideal.ofBits .f32 0x3C23D70A#32 * y)

/-- The vector form with scalar splats (`vector.broadcast` of an `arith.constant`), read at an index of any shape. -/
theorem leaky_splat (S : Shape) (v : FVec Ideal S .f32) (i : S.Idx) :
    select (cmpf .oge v (broadcast S (Scalar.ofBits (F := Ideal) .f32 0x00000000#32))) v
        (mulf (broadcast S (Scalar.ofBits (F := Ideal) .f32 0x3C23D70A#32)) v) i = leaky (v i) := rfl

/-- The same with the two words as arbitrary vectors known only entry by entry (a rank-0 constant broadcast in
    dimensions, or a dense constant): the form a host stage takes. -/
theorem leaky_of_entries (S : Shape) (v z a : FVec Ideal S .f32) (i : S.Idx)
    (hz : z i = Ideal.ofBits .f32 0x00000000#32) (ha : a i = Ideal.ofBits .f32 0x3C23D70A#32) :
    select (cmpf .oge v z) v (mulf a v) i = leaky (v i) := by
  show Scalar.select (Ideal.cmp .oge (v i) (z i)) (v i) (a i * v i) = leaky (v i)
  rw [hz, ha]; rfl

end Cert.Spec
-- ==== Proof.KV.Pay.lean ====
import proofs.«108927_j51273319579928_2_alg».proof.Proof.Gen.KernelIdeal.Skeleton
import proofs.«108927_j51273319579928_2_alg».proof.Proof.Spec
import Idealize.ShloMosaic.Lib.Pipeline.Value
import Idealize.ShloMosaic.Lib.ValueIdx
import Idealize.ShloMosaic.Lib.ValueLayout

/-!
# The two pointwise bodies at an index, on extended reals

The bias-and-activation body computes, from a block `x` of 3968 rows and a bias row `b`, the block whose entry
`(p, q)` is `leaky (x (p, q) + b (0, q))`: the shape casts are identities, the row is broadcast down the rows, and
the compare / multiply / select is the scalar leaky-relu at each entry. The normalisation body computes likewise
`leaky ((x (p, q) + b (0, q)) * s (0, q) + h (0, q))` from a block and three rows.
-/

noncomputable section

namespace Cert.KernelIdeal.HandValue

open Cert.KernelIdeal Cert.KernelIdeal.Gen
open Idealize.ShloMosaic Idealize.ShloMosaic.ValueIdx

/-- The bias-and-activation payload at entry `(p, q)` of the block. -/
theorem k1_pay1_apply (x : Vec Ideal S3968x32 .f32) (b : Vec Ideal S1x32 .f32) (p : Fin 3968) (q : Fin 32) :
    k1_pay1 (F := Ideal) x b (ix2 p q) = Cert.Spec.leaky (x (ix2 p q) + b (ix2 (0 : Fin 1) q)) := by
  unfold k1_pay1
  refine (Cert.Spec.leaky_splat S3968x32 _ (ix2 p q)).trans ?_
  refine congrArg Cert.Spec.leaky ?_
  rw [addf_apply, shapeCast_self, shapeCast_self, shapeCast_self]
  exact congrArg (x (ix2 p q) + ·) (broadcastTo_1b_ab_apply b _ p q)

/-- The normalisation payload at entry `(p, q)` of the block. -/
theorem k4_pay1_apply (x : Vec Ideal S3968x20 .f32) (b s h : Vec Ideal S1x20 .f32) (p : Fin 3968) (q : Fin 20) :
    k4_pay1 (F := Ideal) x b s h (ix2 p q)
      = Cert.Spec.leaky ((x (ix2 p q) + b (ix2 (0 : Fin 1) q)) * s (ix2 (0 : Fin 1) q) + h (ix2 (0 : Fin 1) q)) := by
  unfold k4_pay1
  refine (Cert.Spec.leaky_splat S3968x20 _ (ix2 p q)).trans ?_
  refine congrArg Cert.Spec.leaky ?_
  rw [addf_apply, mulf_apply, addf_apply]
  simp only [shapeCast_self]
  rw [broadcastTo_1b_ab_apply b _ p q, broadcastTo_1b_ab_apply s _ p q, broadcastTo_1b_ab_apply h _ p q]

end Cert.KernelIdeal.HandValue
-- ==== Proof.KV.Val1.lean ====
import proofs.«108927_j51273319579928_2_alg».proof.Proof.KI.Reg1
import proofs.«108927_j51273319579928_2_alg».proof.Proof.KV.Pay
import Idealize.ShloMosaic.Lib.Pipeline.Value

/-!
# Region 1 on extended reals: the whole output array

Each grid point `t` handles rows `3968 t … 3968 t + 3967`: the activations' block and the output's block are both
block `t` of their arrays, and the bias row is the one block of its array at every point. So what point `t` writes
back is block `t` of ONE function of the two arrays as the region finds them — entry `(r, j)` is
`leaky (x (r, j) + b (0, j))` — and the 64 blocks tile the 253952 rows, so the output array ends holding that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

section Region1
variable (V : (c : Dev nD) → (b : Ref sig .tc) → Buf (Elt Ideal) ((c : Thread nD τ).loc b))

theorem zero_off2 : (![0, 0] : Fin 2 → Nat) = fun _ => 0 := funext fun a => by fin_cases a <;> rfl

/-- The output array as one function of the activations `x` and the bias row `b`, entry by entry. -/
def biasAct (x : S253952x32.Idx → Ideal .f32) (b : S1x32.Idx → Ideal .f32) : S253952x32.Idx → Ideal .f32 :=
  fun i => Cert.Spec.leaky (x i + b (ix2 (0 : Fin 1) (i 1)))

/-- The printed index maps over the grid: at point `t` the activations' and the output's block is `(t, 0)`, the bias
    row's is `(0, 0)`. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasAct` of the two arrays as the region finds them. -/
theorem flushed1_eq (c : Dev nD) (t : Fin cfg1.N) :
    (dat1 V c).flushed 2 t = ((cfg1.win 2).blk t).view.read (Elt Ideal) (biasAct (V c main_v17) (V c main_v18)) := by
  show (cfg1.win 2).cut (grid1.coords t) ((dat1 V c).after 2 t) = _
  rw [after1_2]
  unfold out1_2
  rw [View.canon_unit_zero zero_off2]
  simp only [View.ld_unit_zero (S := S3968x32) zero_off2, View.ld_unit_zero (S := S1x32) zero_off2]
  obtain ⟨e0, e1, e2, e3, e4, e5⟩ := blocks1 t
  refine funext fun (j : S3968x32.Idx) => ?_
  obtain ⟨p, q, rfl⟩ : ∃ (p : Fin 3968) (q : Fin 32), j = ix2 p q := ⟨j 0, j 1, eq_ix2 j⟩
  show k1_pay1 (F := Ideal) (iblk1 V c 0 t) (iblk1 V c 1 t) (ix2 p q)
    = biasAct (V c main_v17) (V c main_v18) (((cfg1.win 2).blk t).view.emb (ix2 p q))
  refine (k1_pay1_apply (iblk1 V c 0 t) (iblk1 V c 1 t) p q).trans ?_
  unfold biasAct
  refine congrArg Cert.Spec.leaky ?_
  have h0 : iblk1 V c 0 t (ix2 p q) = V c main_v17 (((cfg1.win 2).blk t).view.emb (ix2 p q)) := by
    show V c main_v17 (((cfg1.win 0).blk t).view.emb (ix2 p q)) = _
    refine congrArg (V c main_v17) ?_
    funext a; apply Fin.ext
    match a with
    | ⟨0, _⟩ => show win1_0.index t (0 : Fin 2) * 3968 + 1 * p.val = win1_2.index t (0 : Fin 2) * 3968 + 1 * p.val; omega
    | ⟨1, _⟩ => show win1_0.index t (1 : Fin 2) * 32 + 1 * q.val = win1_2.index t (1 : Fin 2) * 32 + 1 * q.val; omega
  have h1 : iblk1 V c 1 t (ix2 (0 : Fin 1) q)
      = V c main_v18 (ix2 (0 : Fin 1) ((((cfg1.win 2).blk t).view.emb (ix2 p q)) 1)) := by
    show V c main_v18 (((cfg1.win 1).blk t).view.emb (ix2 (0 : Fin 1) q)) = _
    refine congrArg (V c main_v18) ?_
    funext a; apply Fin.ext
    match a with
    | ⟨0, _⟩ => show win1_1.index t (0 : Fin 2) * 1 + 1 * 0 = 0; omega
    | ⟨1, _⟩ => show win1_1.index t (1 : Fin 2) * 32 + 1 * q.val = win1_2.index t (1 : Fin 2) * 32 + 1 * q.val; omega
  rw [h0, h1]

/-- An index of the output array is in point `t`'s block iff each coordinate is in the block's range on its axis. -/
theorem mem_blk1 (t : Fin cfg1.N) (i : S253952x32.Idx) :
    i ∈ ((cfg1.win 2).blk t).view.set ↔ ∀ a : Fin 2, win1_2.index t a * S3968x32.size a ≤ (i a).val ∧ (i a).val < win1_2.index t a * S3968x32.size a + S3968x32.size a := by
  show i ∈ ((View.whole main_v19).slice (win1_2.rect t)).set ↔ _
  rw [View.set_slice_whole, Rect.mem_set_unit]
  exact Iff.rfl

/-- Every index of the output array lies in the block of the point its row falls under. -/
theorem cover1 (i : S253952x32.Idx) : ∃ t : Fin cfg1.N, (cfg1.win 2).flush t = true ∧ i ∈ ((cfg1.win 2).blk t).view.set := by
  have hi0 : (i 0).val < 253952 := (i 0).isLt
  have hi1 : (i 1).val < 32 := (i 1).isLt
  have hN : cfg1.N = 64 := N_1
  let t : Fin cfg1.N := ⟨(i 0).val / 3968, by rw [hN]; omega⟩
  obtain ⟨e0, e1, e2, e3, e4, e5⟩ := blocks1 t
  have ht : t.val = (i 0).val / 3968 := rfl
  refine ⟨t, flush1_2 t, ?_⟩
  rw [mem_blk1]
  intro a
  match a with
  | ⟨0, _⟩ => show win1_2.index t (0 : Fin 2) * 3968 ≤ (i 0).val ∧ (i 0).val < win1_2.index t (0 : Fin 2) * 3968 + 3968; omega
  | ⟨1, _⟩ => show win1_2.index t (1 : Fin 2) * 32 ≤ (i 1).val ∧ (i 1).val < win1_2.index t (1 : Fin 2) * 32 + 32; omega

/-- The output array after the region: `biasAct` of the two input arrays as the region finds them. -/
theorem final1 (c : Dev nD) : (dat1 V c).arrAt 2 cfg1.N = biasAct (V c main_v17) (V c main_v18) :=
  (dat1 V c).arrAt_eq_of_cover 2 (biasAct (V c main_v17) (V c main_v18)) (fun t _ => flushed1_eq V c t) cover1

/-- The same at an entry given by its coordinates, the two arrays the region finds named `x` and `b`. -/
theorem final1_apply (c : Dev nD) (x : S253952x32.Idx → Ideal .f32) (b : S1x32.Idx → Ideal .f32)
    (hx : V c (Pipeline.arrRef spec1 0) = x) (hb : V c (Pipeline.arrRef spec1 1) = b) (r : Fin 253952) (j : Fin 32) :
    (dat1 V c).arrAt 2 cfg1.N (ix2 r j) = Cert.Spec.leaky (x (ix2 r j) + b (ix2 (0 : Fin 1) j)) := by
  subst hx hb
  rw [final1]; rfl

end Region1

end Cert.KernelIdeal.HandValue
-- ==== Proof.KV.Match1.lean ====
import proofs.«108927_j51273319579928_2_alg».proof.Proof.KV.Val1
import proofs.«108927_j51273319579928_2_alg».proof.Proof.GenP.ReferenceIdeal.Read

/-!
# Region 1 against the reference's first activation

The reference adds the bias `b1`, broadcast first to a row and then down the rows, to the aggregated features and
applies the leaky-relu through an outlined select. Read at entry `(r, j)` that is `leaky (agg (r, j) + b1 j)`.
The kernel's second region computes `leaky (A (r, j) + row (0, j))` from the array `A` and the bias row it finds; when
the row it finds is the reshaped `b1`, the two agree entry by entry.
-/

noncomputable section

namespace Cert.KernelIdeal.Hand

open Cert.KernelIdeal Cert.KernelIdeal.Gen Cert.KernelIdeal.HandValue
open Idealize.ShloMosaic Idealize.ShloMosaic.TcCoe Idealize.ShloMosaic.ValueIdx

/-- The kernel side: if the region finds the array `A` at its first window and, at its second, a row holding `x5`,
    its output array ends holding `leaky (A (r, j) + x5 j)` at `(r, j)`. -/
theorem match1_kernel (V : (c : Dev nD) → (b : Ref sig .tc) → Buf (Elt Ideal) ((c : Thread nD τ).loc b)) (c : Dev nD)
    (A : S253952x32.Idx → Ideal .f32) (x5 : S32.Idx → Ideal .f32)
    (hA : (V c (Pipeline.arrRef spec1 0) : S253952x32.Idx → Ideal .f32) = A)
    (hb : ∀ j : Fin 32, (V c (Pipeline.arrRef spec1 1) : S1x32.Idx → Ideal .f32) (ix2 (0 : Fin 1) j) = x5 (ix1 j))
    (r : Fin 253952) (j : Fin 32) :
    (dat1 (F := Ideal) V c).arrAt 2 cfg1.N (ix2 r j) = Cert.Spec.leaky (A (ix2 r j) + x5 (ix1 j)) := by
  rw [final1_apply V c A _ hA rfl r j]
  exact congrArg (fun y => Cert.Spec.leaky (A (ix2 r j) + y)) (hb j)

/-- The reference side: its first activation at `(r, j)` is `leaky` of the aggregated features there plus `b1 j`. -/
theorem match1_reference (x0 : (⟨Cert.ReferenceIdeal.S253952x6, .f32⟩ : BufTy).Contents (Elt Ideal))
    (x1 : (⟨Cert.ReferenceIdeal.S2x4063232, .i32⟩ : BufTy).Contents (Elt Ideal))
    (x2 : (⟨Cert.ReferenceIdeal.S4063232, .f32⟩ : BufTy).Contents (Elt Ideal))
    (x4 : (⟨Cert.ReferenceIdeal.S6x32, .f32⟩ : BufTy).Contents (Elt Ideal))
    (x5 : (⟨Cert.ReferenceIdeal.S32, .f32⟩ : BufTy).Contents (Elt Ideal)) (r : Fin 253952) (j : Fin 32) :
    Cert.ReferenceIdeal.Read.val_main_v25 (F := Ideal) x0 x1 x2 x4 x5 (ix2 r j)
      = Cert.Spec.leaky (Cert.ReferenceIdeal.Read.val_main_v17 (F := Ideal) x0 x1 x2 x4 (ix2 r j) + x5 (ix1 j)) := by
  have hidx : Cert.ReferenceIdeal.Read.idx_main_v18 (Cert.ReferenceIdeal.Read.idx_main_v19 (ix2 r j)) = ix1 j :=
    funext fun a => Fin.ext (by match a with | ⟨0, _⟩ => rfl)
  have h20 : Cert.ReferenceIdeal.Read.val_main_v20 (F := Ideal) x0 x1 x2 x4 x5 (ix2 r j)
      = Cert.ReferenceIdeal.Read.val_main_v17 (F := Ideal) x0 x1 x2 x4 (ix2 r j) + x5 (ix1 j) := by
    rw [Cert.ReferenceIdeal.Read.val_main_v20_apply, Cert.ReferenceIdeal.Read.val_main_v19_apply,
      Cert.ReferenceIdeal.Read.val_main_v18_apply, hidx]
    rfl
  have hz : Cert.ReferenceIdeal.Read.val_main_v21 (F := Ideal) (ix2 r j) = Ideal.ofBits .f32 0x00000000#32 :=
    (Cert.ReferenceIdeal.Read.val_main_v21_apply (F := Ideal) (ix2 r j)).trans rfl
  have ha : Cert.ReferenceIdeal.Read.val_main_v23 (F := Ideal) (ix2 r j) = Ideal.ofBits .f32 0x3C23D70A#32 :=
    (Cert.ReferenceIdeal.Read.val_main_v23_apply (F := Ideal) (ix2 r j)).trans rfl
  rw [← h20]
  exact Cert.Spec.leaky_of_entries Cert.ReferenceIdeal.S253952x32
    (Cert.ReferenceIdeal.Read.val_main_v20 (F := Ideal) x0 x1 x2 x4 x5)
    (Cert.ReferenceIdeal.Read.val_main_v21 (F := Ideal)) (Cert.ReferenceIdeal.Read.val_main_v23 (F := Ideal)) (ix2 r j) hz ha

end Cert.KernelIdeal.Hand
-- ==== Proof.KV.Val2.lean ====
import proofs.«108927_j51273319579928_2_alg».proof.Proof.KI.Reg2
import proofs.«108927_j51273319579928_2_alg».proof.Proof.LibDotRows
import Idealize.ShloMosaic.Lib.Pipeline.Value
import Idealize.ShloMosaic.Lib.ValueIdx
import Idealize.ShloMosaic.PureOps.Ideal.Laws

/-!
# Region 2, read at the exact values: the array the region writes is the matrix product

At the exact extended reals a change of float format is the identity and the contraction into a zero
accumulator is the plain sum of products. So the body's payload at entry `(p, q)` of a block is
`∑ k, x (p, k) * w (k, q)` over the two loaded blocks; the left block at grid point `t` is rows
`3968·t … 3968·t + 3967` of the left array and the weight's block is the whole weight at every point; and the
64 output blocks tile the rows of the output array (row `r` lies in the block of point `r / 3968`). Hence
after the region entry `(r, q)` of the output array is `∑ k, X (r, k) * W (k, q)` of the arrays
`X`, `W` the region found.
-/

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL Idealize.SL.Sem
open Idealize.ShloMosaic.Pipeline (Dat)

/-- The zero offsets of a whole-block access, in the two spellings. -/
theorem hz2 : (![0, 0] : Fin 2 → Nat) = fun _ => 0 := funext fun a => by fin_cases a <;> rfl

/-! ## The payload at an index -/

/-- The body's product of two blocks at entry `(p, q)`: the sum over the contracted axis. -/
theorem pay2_apply (l : Vec Ideal S3968x32 .f32) (r : Vec Ideal S32x20 .f32) (p : Fin 3968) (q : Fin 20) :
    k2_pay1 (F := Ideal) l r (ix2 p q) = ∑ k : Fin 32, l (ix2 p k) * r (ix2 k q) := by
  unfold k2_pay1
  rw [shapeCast_self l shapeCasts_S3968x32_S3968x32]
  refine (Ideal.matmul_constant_zero_apply dot_S3968x32_S32x20_S3968x20_1_0_0_1_n_n none _ _ (ix2 p q)).trans ?_
  show ∑ c, l (dot_S3968x32_S32x20_S3968x20_1_0_0_1_n_n.lhsIdx (ix2 p q) c) * r (dot_S3968x32_S32x20_S3968x20_1_0_0_1_n_n.rhsIdx (ix2 p q) c) = _
  dot_rows dot_S3968x32_S32x20_S3968x20_1_0_0_1_n_n S3968x32 S32x20 32

/-- What the body leaves in the output's staging buffer, at entry `(p, q)`. -/
theorem out2_2_apply (x : Vec Ideal S3968x32 .f32) (w : Vec Ideal S32x20 .f32) (p : Fin 3968) (q : Fin 20) :
    out2_2 (F := Ideal) x w (ix2 p q) = ∑ k : Fin 32, x (ix2 p k) * w (ix2 k q) := by
  unfold out2_2
  rw [View.canon_unit_zero hz2]
  simp only [View.ld_unit_zero (S := S3968x32) hz2, View.ld_unit_zero (S := S32x20) hz2]
  exact pay2_apply x w p q

/-- The same at any index of the block, by its coordinates. -/
theorem out2_2_at (x : Vec Ideal S3968x32 .f32) (w : Vec Ideal S32x20 .f32) (y : S3968x20.Idx) :
    out2_2 (F := Ideal) x w y = ∑ k : Fin 32, x (ix2 (y 0) k) * w (ix2 k (y 1)) := by
  obtain ⟨p, q, rfl⟩ : ∃ (p : Fin 3968) (q : Fin 20), y = ix2 p q := ⟨y 0, y 1, eq_ix2 y⟩
  exact out2_2_apply x w p q

/-! ## From blocks to the array -/

section Closed
variable (V : (c : Dev nD) → (b : Ref sig .tc) → Buf (Elt Ideal) ((c : Thread nD τ).loc b))

/-- The matrix product of two whole arrays, entry by entry. -/
def prod2 (X : S253952x32.Idx → Elt Ideal .f32) (W : S32x20.Idx → Elt Ideal .f32) : S253952x20.Idx → Elt Ideal .f32 :=
  fun i => ∑ k : Fin 32, X (ix2 (i 0) k) * W (ix2 k (i 1))

/-- The index maps over the grid: the left and the output blocks move down the rows with the point,
    the weight's block stays at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `3968·t …` of the left array. -/
theorem iblk2_0_apply (c : Dev nD) (t : Fin cfg2.N) (x : S3968x32.Idx) (i : S253952x32.Idx)
    (h0 : (i 0).val = t.val * 3968 + (x 0).val) (h1 : (i 1).val = (x 1).val) :
    (iblk2 V c 0 t : Vec Ideal S3968x32 .f32) x = (V c (Pipeline.arrRef spec2 0) : S253952x32.Idx → Elt Ideal .f32) i := by
  obtain ⟨e0, e1, -⟩ := idx_facts2 t
  unfold iblk2
  rw [View.read_apply]
  refine congrArg (V c (Pipeline.arrRef spec2 0) : S253952x32.Idx → Elt Ideal .f32) (funext fun a => Fin.ext ?_)
  match a with
  | ⟨0, _⟩ => show win2_0.index t (0 : Fin 2) * 3968 + 1 * (x 0).val = (i 0).val; omega
  | ⟨1, _⟩ => show win2_0.index t (1 : Fin 2) * 32 + 1 * (x 1).val = (i 1).val; omega

/-- The weight window's block at any point is the whole weight. -/
theorem iblk2_1_apply (c : Dev nD) (t : Fin cfg2.N) (x : S32x20.Idx) :
    (iblk2 V c 1 t : Vec Ideal S32x20 .f32) x = (V c (Pipeline.arrRef spec2 1) : S32x20.Idx → Elt Ideal .f32) x := by
  obtain ⟨-, -, e2, e3, -⟩ := idx_facts2 t
  unfold iblk2
  rw [View.read_apply]
  refine congrArg (V c (Pipeline.arrRef spec2 1) : S32x20.Idx → Elt Ideal .f32) (funext fun a => Fin.ext ?_)
  match a with
  | ⟨0, _⟩ => show win2_1.index t (0 : Fin 2) * 32 + 1 * (x 0).val = (x 0).val; omega
  | ⟨1, _⟩ => show win2_1.index t (1 : Fin 2) * 20 + 1 * (x 1).val = (x 1).val; omega

/-- What point `t` writes back is block `t` of the product of the arrays the region found. -/
theorem flushed2_2_eq (c : Dev nD) (t : Fin cfg2.N) :
    (dat2 (F := Ideal) V c).flushed 2 t
      = ((cfg2.win 2).blk t).view.read (Elt Ideal) (prod2 (V c (Pipeline.arrRef spec2 0)) (V c (Pipeline.arrRef spec2 1))) := by
  show (cfg2.win 2).cut (grid2.coords t) ((dat2 (F := Ideal) V c).after 2 t) = _
  rw [after2_2]
  obtain ⟨-, -, -, -, e4, e5⟩ := idx_facts2 t
  funext j
  refine (out2_2_at (iblk2 V c 0 t) (iblk2 V c 1 t) ((cfg2.win 2).xinj (grid2.coords t) j)).trans ?_
  rw [View.read_apply]
  unfold prod2
  refine Finset.sum_congr rfl fun k _ => ?_
  rw [iblk2_1_apply V c t]
  refine congrArg₂ (· * ·) (iblk2_0_apply V c t _ _ ?_ ?_) (congrArg (V c (Pipeline.arrRef spec2 1) : S32x20.Idx → Elt Ideal .f32) (funext fun a => Fin.ext ?_))
  · show win2_2.index t (0 : Fin 2) * 3968 + 1 * (j 0).val = t.val * 3968 + (j 0).val; omega
  · rfl
  · match a with
    | ⟨0, _⟩ => rfl
    | ⟨1, _⟩ => show (j 1).val = win2_2.index t (1 : Fin 2) * 20 + 1 * (j 1).val; omega

/-- An index of the output array is in point `t`'s block iff each coordinate is in the block's range. -/
theorem mem_blk2_2 (t : Fin cfg2.N) (i : S253952x20.Idx) :
    i ∈ ((cfg2.win 2).blk t).view.set ↔ ∀ a : Fin 2, win2_2.index t a * S3968x20.size a ≤ (i a).val ∧ (i a).val < win2_2.index t a * S3968x20.size a + S3968x20.size a := by
  show i ∈ ((View.whole main_v20).slice (win2_2.rect t)).set ↔ _
  rw [View.set_slice_whole, Rect.mem_set_unit]
  exact Iff.rfl

/-- Every index of the output array is in some point's block: row `r` in the block of point `r / 3968`. -/
theorem covered2_2 (i : S253952x20.Idx) :
    ∃ t : Fin cfg2.N, (cfg2.win 2).flush t = true ∧ i ∈ ((cfg2.win 2).blk t).view.set := by
  have hi0 : (i 0).val < 253952 := (i 0).isLt
  have hi1 : (i 1).val < 20 := (i 1).isLt
  have hN : cfg2.N = 64 := N_2
  refine ⟨⟨(i 0).val / 3968, by rw [hN]; omega⟩, flush2_2 _, ?_⟩
  rw [mem_blk2_2]
  obtain ⟨-, -, -, -, e4, e5⟩ := idx_facts2 ⟨(i 0).val / 3968, by rw [hN]; omega⟩
  intro a
  match a with
  | ⟨0, _⟩ => show win2_2.index _ (0 : Fin 2) * 3968 ≤ (i 0).val ∧ (i 0).val < win2_2.index _ (0 : Fin 2) * 3968 + 3968; rw [e4]; show (i 0).val / 3968 * 3968 ≤ (i 0).val ∧ (i 0).val < (i 0).val / 3968 * 3968 + 3968; omega
  | ⟨1, _⟩ => show win2_2.index _ (1 : Fin 2) * 20 ≤ (i 1).val ∧ (i 1).val < win2_2.index _ (1 : Fin 2) * 20 + 20; rw [e5]; omega

/-- The output array after the region is the product of the arrays the region found. -/
theorem final2_2 (c : Dev nD) :
    (dat2 (F := Ideal) V c).arrAt 2 cfg2.N = prod2 (V c (Pipeline.arrRef spec2 0)) (V c (Pipeline.arrRef spec2 1)) :=
  (dat2 (F := Ideal) V c).arrAt_eq_of_cover 2 _ (fun t _ => flushed2_2_eq V c t) (covered2_2)

/-- The closed form, entry by entry: with `X` and `W` the left array and the weight as the region finds
    them, entry `(r, q)` of the output array after the region is `∑ k, X (r, k) * W (k, q)`. -/
theorem closed2_2 (c : Dev nD) (X : S253952x32.Idx → Elt Ideal .f32) (W : S32x20.Idx → Elt Ideal .f32)
    (hX : V c (Pipeline.arrRef spec2 0) = X) (hW : V c (Pipeline.arrRef spec2 1) = W) (r : Fin 253952) (q : Fin 20) :
    (dat2 (F := Ideal) V c).arrAt 2 cfg2.N (ix2 r q) = ∑ k : Fin 32, X (ix2 r k) * W (ix2 k q) := by
  rw [final2_2, hX, hW]
  rfl

end Closed

end Cert.KernelIdeal.Hand

end
-- ==== Proof.KV.Match2.lean ====
import proofs.«108927_j51273319579928_2_alg».proof.Proof.KV.Val2
import proofs.«108927_j51273319579928_2_alg».proof.Proof.GenP.ReferenceIdeal.Read

/-!
# Region 2 against the reference's second matrix product

The output array of region 2 is the matrix product of the hidden array `H` and the weight the region
finds. The reference's second `dot_general`, read at an index, is the same sum over the contracted
axis, of its own hidden stage and the same weight. So the two sides meet as soon as the hidden array
the region finds is known to be the reference's hidden stage.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The reference's second `dot_general` at entry `(r, q)`: the sum over the contracted axis of its
    hidden stage's row `r` against the weight's column `q`. -/
theorem ref26_apply (x0 : (⟨Cert.ReferenceIdeal.S253952x6, .f32⟩ : BufTy).Contents (Elt Ideal)) (x1 : (⟨Cert.ReferenceIdeal.S2x4063232, .i32⟩ : BufTy).Contents (Elt Ideal)) (x2 : (⟨Cert.ReferenceIdeal.S4063232, .f32⟩ : BufTy).Contents (Elt Ideal)) (x4 : (⟨Cert.ReferenceIdeal.S6x32, .f32⟩ : BufTy).Contents (Elt Ideal)) (x5 : (⟨Cert.ReferenceIdeal.S32, .f32⟩ : BufTy).Contents (Elt Ideal)) (x6 : (⟨Cert.ReferenceIdeal.S32x20, .f32⟩ : BufTy).Contents (Elt Ideal)) (r : Fin 253952) (q : Fin 20) :
    Cert.ReferenceIdeal.Read.val_main_v26 (F := Ideal) x0 x1 x2 x4 x5 x6 (ix2 r q)
      = ∑ k : Fin 32, Cert.ReferenceIdeal.Read.val_main_v25 (F := Ideal) x0 x1 x2 x4 x5 (ix2 r k) * x6 (ix2 k q) := by
  refine (Cert.ReferenceIdeal.Read.val_main_v26_apply x0 x1 x2 x4 x5 x6 (ix2 r q)).trans ?_
  refine Finset.sum_congr rfl fun k _ => ?_
  have el : Cert.ReferenceIdeal.Read.lidx_main_v26 (ix2 r q) k = ix2 r k :=
    funext fun a => Fin.ext (by match a with | ⟨0, _⟩ => rfl | ⟨1, _⟩ => rfl)
  have er : Cert.ReferenceIdeal.Read.ridx_main_v26 (ix2 r q) k = ix2 k q :=
    funext fun a => Fin.ext (by match a with | ⟨0, _⟩ => rfl | ⟨1, _⟩ => rfl)
  rw [el, er] <;> rfl

/-- The entrywise matrix product of the reference's hidden stage and the weight is the reference's
    second product stage. -/
theorem prod2_eq_ref (x0 : (⟨Cert.ReferenceIdeal.S253952x6, .f32⟩ : BufTy).Contents (Elt Ideal)) (x1 : (⟨Cert.ReferenceIdeal.S2x4063232, .i32⟩ : BufTy).Contents (Elt Ideal)) (x2 : (⟨Cert.ReferenceIdeal.S4063232, .f32⟩ : BufTy).Contents (Elt Ideal)) (x4 : (⟨Cert.ReferenceIdeal.S6x32, .f32⟩ : BufTy).Contents (Elt Ideal)) (x5 : (⟨Cert.ReferenceIdeal.S32, .f32⟩ : BufTy).Contents (Elt Ideal)) (x6 : (⟨Cert.ReferenceIdeal.S32x20, .f32⟩ : BufTy).Contents (Elt Ideal)) :
    prod2 (Cert.ReferenceIdeal.Read.val_main_v25 (F := Ideal) x0 x1 x2 x4 x5) x6 = Cert.ReferenceIdeal.Read.val_main_v26 (F := Ideal) x0 x1 x2 x4 x5 x6 := by
  funext i
  obtain ⟨r, q, rfl⟩ : ∃ (r : Fin 253952) (q : Fin 20), i = ix2 r q := ⟨i 0, i 1, eq_ix2 i⟩
  exact (ref26_apply x0 x1 x2 x4 x5 x6 r q).symm

section Match
variable (V : (c : Dev nD) → (b : Ref sig .tc) → Buf (Elt Ideal) ((c : Thread nD τ).loc b))

/-- If the region finds `H` in its left array and `x6` in its weight, entry `(r, q)` of the array it
    leaves is `∑ k, H (r, k) * x6 (k, q)`. -/
theorem match2_at (c : Dev nD) (H : S253952x32.Idx → Elt Ideal .f32) (x6 : S32x20.Idx → Elt Ideal .f32)
    (hH : V c (Pipeline.arrRef spec2 0) = H) (h6 : V c (Pipeline.arrRef spec2 1) = x6) (r : Fin 253952) (q : Fin 20) :
    (dat2 (F := Ideal) V c).arrAt 2 cfg2.N (ix2 r q) = ∑ k : Fin 32, H (ix2 r k) * x6 (ix2 k q) :=
  closed2_2 V c H x6 hH h6 r q

/-- If the region finds the reference's hidden stage in its left array and `x6` in its weight, the
    array it leaves is the reference's stage `val_main_v26`. -/
theorem match2 (c : Dev nD) (x0 : (⟨Cert.ReferenceIdeal.S253952x6, .f32⟩ : BufTy).Contents (Elt Ideal)) (x1 : (⟨Cert.ReferenceIdeal.S2x4063232, .i32⟩ : BufTy).Contents (Elt Ideal)) (x2 : (⟨Cert.ReferenceIdeal.S4063232, .f32⟩ : BufTy).Contents (Elt Ideal)) (x4 : (⟨Cert.ReferenceIdeal.S6x32, .f32⟩ : BufTy).Contents (Elt Ideal)) (x5 : (⟨Cert.ReferenceIdeal.S32, .f32⟩ : BufTy).Contents (Elt Ideal)) (x6 : (⟨Cert.ReferenceIdeal.S32x20, .f32⟩ : BufTy).Contents (Elt Ideal))
    (hH : V c (Pipeline.arrRef spec2 0) = Cert.ReferenceIdeal.Read.val_main_v25 (F := Ideal) x0 x1 x2 x4 x5) (h6 : V c (Pipeline.arrRef spec2 1) = x6) :
    (dat2 (F := Ideal) V c).arrAt 2 cfg2.N = Cert.ReferenceIdeal.Read.val_main_v26 (F := Ideal) x0 x1 x2 x4 x5 x6 := by
  rw [final2_2, hH, h6]
  exact prod2_eq_ref x0 x1 x2 x4 x5 x6

end Match

end Cert.KernelIdeal.Hand

end
-- ==== Proof.KV.Bridge1.lean ====
/-
  The kernel program's buffers, followed from the launch through the first three regions and the two aggregations, are
  the reference program's stages: the first projection (rows of x times W1), the first aggregation (rows gathered at the
  edges' sources, scaled by the edge weights, summed by destination), the first layer's activation (the bias added, the
  leaky rectifier), the second projection and the second aggregation. Buffers no segment writes keep their contents.
-/
import proofs.«108927_j51273319579928_2_alg».proof.Proof.KI.Run
import proofs.«108927_j51273319579928_2_alg».proof.Proof.KV.Host
import proofs.«108927_j51273319579928_2_alg».proof.Proof.KV.Match0
import proofs.«108927_j51273319579928_2_alg».proof.Proof.KV.Match1
import proofs.«108927_j51273319579928_2_alg».proof.Proof.KV.Match2

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Keep
variable {F : FTy → Type} [FloatOps F]
variable (m : (ℓ : Loc nD τ sig) → Buf (Elt F) ℓ) (ρ : Dev nD → PrngReg)

/-! ## Which buffers survive which segments -/
theorem keep_v1_2 (c : Dev nD) : W2 m ρ c (Proc.devRef .tc main_v1) = W1 m ρ c (Proc.devRef .tc main_v1) :=
  (W2_of_ne m ρ c main_v1 (by decide)).trans rfl
theorem keep_v3_2 (c : Dev nD) : W2 m ρ c (Proc.devRef .tc main_v3) = W1 m ρ c (Proc.devRef .tc main_v3) :=
  (W2_of_ne m ρ c main_v3 (by decide)).trans rfl
theorem keep_v1_5 (c : Dev nD) : W5 m ρ c (Proc.devRef .tc main_v1) = W1 m ρ c (Proc.devRef .tc main_v1) :=
  (W5_of_ne m ρ c main_v1 (by decide)).trans <|
  (W4_of_ne m ρ c main_v1 (by decide)).trans <|
  (W3_of m ρ c main_v1 (by decide)).trans <|
  (W2_of_ne m ρ c main_v1 (by decide)).trans rfl
theorem keep_v3_5 (c : Dev nD) : W5 m ρ c (Proc.devRef .tc main_v3) = W1 m ρ c (Proc.devRef .tc main_v3) :=
  (W5_of_ne m ρ c main_v3 (by decide)).trans <|
  (W4_of_ne m ρ c main_v3 (by decide)).trans <|
  (W3_of m ρ c main_v3 (by decide)).trans <|
  (W2_of_ne m ρ c main_v3 (by decide)).trans rfl
theorem keep_a0_1 (c : Dev nD) : W1 m ρ c (Proc.devRef .tc main_arg0) = W0 m ρ c (Proc.devRef .tc main_arg0) :=
  (W1_of m ρ c main_arg0 (by decide)).trans rfl
theorem keep_a4_1 (c : Dev nD) : W1 m ρ c (Proc.devRef .tc main_arg4) = W0 m ρ c (Proc.devRef .tc main_arg4) :=
  (W1_of m ρ c main_arg4 (by decide)).trans rfl
theorem keep_a1_0 (c : Dev nD) : W0 m ρ c (Proc.devRef .tc main_arg1) = W0 m ρ c (Proc.devRef .tc main_arg1) :=
  rfl
theorem keep_a2_2 (c : Dev nD) : W2 m ρ c (Proc.devRef .tc main_arg2) = W0 m ρ c (Proc.devRef .tc main_arg2) :=
  (W2_of_ne m ρ c main_arg2 (by decide)).trans <|
  (W1_of m ρ c main_arg2 (by decide)).trans rfl
theorem keep_a5_2 (c : Dev nD) : W2 m ρ c (Proc.devRef .tc main_arg5) = W0 m ρ c (Proc.devRef .tc main_arg5) :=
  (W2_of_ne m ρ c main_arg5 (by decide)).trans <|
  (W1_of m ρ c main_arg5 (by decide)).trans rfl
theorem keep_a6_4 (c : Dev nD) : W4 m ρ c (Proc.devRef .tc main_arg6) = W0 m ρ c (Proc.devRef .tc main_arg6) :=
  (W4_of_ne m ρ c main_arg6 (by decide)).trans <|
  (W3_of m ρ c main_arg6 (by decide)).trans <|
  (W2_of_ne m ρ c main_arg6 (by decide)).trans <|
  (W1_of m ρ c main_arg6 (by decide)).trans rfl
theorem keep_a2_5 (c : Dev nD) : W5 m ρ c (Proc.devRef .tc main_arg2) = W0 m ρ c (Proc.devRef .tc main_arg2) :=
  (W5_of_ne m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem keep_a7_5 (c : Dev nD) : W5 m ρ c (Proc.devRef .tc main_arg7) = W0 m ρ c (Proc.devRef .tc main_arg7) :=
  (W5_of_ne m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem keep_a7_7 (c : Dev nD) : W7 m ρ c (Proc.devRef .tc main_arg7) = W0 m ρ c (Proc.devRef .tc main_arg7) :=
  (W7_of_ne m ρ c main_arg7 (by decide)).trans <|
  (W6_of m ρ c main_arg7 (by decide)).trans <|
  (W5_of_ne m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem keep_a8_7 (c : Dev nD) : W7 m ρ c (Proc.devRef .tc main_arg8) = W0 m ρ c (Proc.devRef .tc main_arg8) :=
  (W7_of_ne m ρ c main_arg8 (by decide)).trans <|
  (W6_of m ρ c main_arg8 (by decide)).trans <|
  (W5_of_ne m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem keep_a9_7 (c : Dev nD) : W7 m ρ c (Proc.devRef .tc main_arg9) = W0 m ρ c (Proc.devRef .tc main_arg9) :=
  (W7_of_ne m ρ c main_arg9 (by decide)).trans <|
  (W6_of m ρ c main_arg9 (by decide)).trans <|
  (W5_of_ne m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem keep_a3_9 (c : Dev nD) : W9 m ρ c (Proc.devRef .tc main_arg3) = W0 m ρ c (Proc.devRef .tc main_arg3) :=
  (W9_of_ne m ρ c main_arg3 (by decide)).trans <|
  (W8_of m ρ c main_arg3 (by decide)).trans <|
  (W7_of_ne m ρ c main_arg3 (by decide)).trans <|
  (W6_of m ρ c main_arg3 (by decide)).trans <|
  (W5_of_ne m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem keep_a11_9 (c : Dev nD) : W9 m ρ c (Proc.devRef .tc main_arg11) = W0 m ρ c (Proc.devRef .tc main_arg11) :=
  (W9_of_ne m ρ c main_arg11 (by decide)).trans <|
  (W8_of m ρ c main_arg11 (by decide)).trans <|
  (W7_of_ne m ρ c main_arg11 (by decide)).trans <|
  (W6_of m ρ c main_arg11 (by decide)).trans <|
  (W5_of_ne m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans rfl
theorem keep_a13_9 (c : Dev nD) : W9 m ρ c (Proc.devRef .tc main_arg13) = W0 m ρ c (Proc.devRef .tc main_arg13) :=
  (W9_of_ne m ρ c main_arg13 (by decide)).trans <|
  (W8_of m ρ c main_arg13 (by decide)).trans <|
  (W7_of_ne m ρ c main_arg13 (by decide)).trans <|
  (W6_of m ρ c main_arg13 (by decide)).trans <|
  (W5_of_ne m ρ c main_arg13 (by decide)).trans <|
  (W4_of_ne m ρ c main_arg13 (by decide)).trans <|
  (W3_of m ρ c main_arg13 (by decide)).trans <|
  (W2_of_ne m ρ c main_arg13 (by decide)).trans <|
  (W1_of m ρ c main_arg13 (by decide)).trans rfl
theorem keep_a10_10 (c : Dev nD) : W10 m ρ c (Proc.devRef .tc main_arg10) = W0 m ρ c (Proc.devRef .tc main_arg10) :=
  (W10_of m ρ c main_arg10 (by decide)).trans <|
  (W9_of_ne m ρ c main_arg10 (by decide)).trans <|
  (W8_of m ρ c main_arg10 (by decide)).trans <|
  (W7_of_ne m ρ c main_arg10 (by decide)).trans <|
  (W6_of m ρ c main_arg10 (by decide)).trans <|
  (W5_of_ne m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl
theorem keep_a12_10 (c : Dev nD) : W10 m ρ c (Proc.devRef .tc main_arg12) = W0 m ρ c (Proc.devRef .tc main_arg12) :=
  (W10_of m ρ c main_arg12 (by decide)).trans <|
  (W9_of_ne m ρ c main_arg12 (by decide)).trans <|
  (W8_of m ρ c main_arg12 (by decide)).trans <|
  (W7_of_ne m ρ c main_arg12 (by decide)).trans <|
  (W6_of m ρ c main_arg12 (by decide)).trans <|
  (W5_of_ne m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans rfl
theorem keep_v33_8 (c : Dev nD) : W8 m ρ c (Proc.devRef .tc main_v33) = W6 m ρ c (Proc.devRef .tc main_v33) :=
  (W8_of m ρ c main_v33 (by decide)).trans <|
  ((W7_arr m ρ c 0).trans (((dat3 (E6 m ρ) c).arrAt_in 0 rfl _).trans (A_eq3 (E6 m ρ) c 0))).trans rfl

end Keep

/-! ## The stages of the run are the reference's stages

At the exact instance the contents of the buffers the regions and the host stretches write are followed from the launch:
each is the reference program's stage function of the argument arrays. -/

section Stages

variable (m : (ℓ : Loc nD τ sig) → Buf (Elt Ideal) ℓ) (ρ : Dev nD → PrngReg) (c : Dev nD)

/-- Argument 0 as launched. -/
abbrev a0 := m ((c : Thread nD τ).loc main_arg0)
/-- Argument 1 as launched. -/
abbrev a1 := m ((c : Thread nD τ).loc main_arg1)
/-- Argument 2 as launched. -/
abbrev a2 := m ((c : Thread nD τ).loc main_arg2)
/-- Argument 3 as launched. -/
abbrev a3 := m ((c : Thread nD τ).loc main_arg3)
/-- Argument 4 as launched. -/
abbrev a4 := m ((c : Thread nD τ).loc main_arg4)
/-- Argument 5 as launched. -/
abbrev a5 := m ((c : Thread nD τ).loc main_arg5)
/-- Argument 6 as launched. -/
abbrev a6 := m ((c : Thread nD τ).loc main_arg6)
/-- Argument 7 as launched. -/
abbrev a7 := m ((c : Thread nD τ).loc main_arg7)
/-- Argument 8 as launched. -/
abbrev a8 := m ((c : Thread nD τ).loc main_arg8)
/-- Argument 9 as launched. -/
abbrev a9 := m ((c : Thread nD τ).loc main_arg9)
/-- Argument 10 as launched. -/
abbrev a10 := m ((c : Thread nD τ).loc main_arg10)
/-- Argument 11 as launched. -/
abbrev a11 := m ((c : Thread nD τ).loc main_arg11)
/-- Argument 12 as launched. -/
abbrev a12 := m ((c : Thread nD τ).loc main_arg12)
/-- Argument 13 as launched. -/
abbrev a13 := m ((c : Thread nD τ).loc main_arg13)

theorem st_v1 : W1 m ρ c (Proc.devRef .tc main_v1) = Cert.ReferenceIdeal.Read.val_main_v1 (F := Ideal) (a1 m c) := host0_v1 (W0 m ρ c)
theorem st_v3 : W1 m ρ c (Proc.devRef .tc main_v3) = Cert.ReferenceIdeal.Read.val_main_v3 (F := Ideal) (a1 m c) := host0_v3 (W0 m ρ c)

/-- Region 0 leaves the first projection. -/
theorem st_v4 : W2 m ρ c (Proc.devRef .tc main_v4) = Cert.ReferenceIdeal.Read.val_main_v4 (F := Ideal) (a0 m c) (a4 m c) := by
  exact (W2_arr m ρ c 2).trans (match0 (E1 m ρ) c (a0 m c) (a4 m c) (keep_a0_1 m ρ c) (keep_a4_1 m ρ c))

theorem st_v17 : W3 m ρ c (Proc.devRef .tc main_v17) = Cert.ReferenceIdeal.Read.val_main_v17 (F := Ideal) (a0 m c) (a1 m c) (a2 m c) (a4 m c) :=
  host1_v17 (W2 m ρ c) _ _ _ _ (st_v4 m ρ c) ((keep_v1_2 m ρ c).trans (st_v1 m ρ c)) ((keep_v3_2 m ρ c).trans (st_v3 m ρ c)) (keep_a2_2 m ρ c)

/-- The first bias as region 1 finds it: a row whose entry (0, j) is the vector's entry j. -/
theorem st_v18 (j : Fin 32) : (W3 m ρ c (Proc.devRef .tc main_v18) : (⟨S1x32, .f32⟩ : BufTy).Contents (Elt Ideal)) (ix2 (0 : Fin 1) j) = (a5 m c : (⟨S32, .f32⟩ : BufTy).Contents (Elt Ideal)) (ix1 j) := by
  rw [show W3 m ρ c (Proc.devRef .tc main_v18) = _ from host1_v18 (W2 m ρ c)]
  exact (Cert.RowCast.shapeCast_row_apply _ shapeCasts_S32_S1x32 0 j).trans (congrFun (keep_a5_2 m ρ c) _)

/-- Region 1 leaves the first layer's activations. -/
theorem st_v19 : W4 m ρ c (Proc.devRef .tc main_v19) = Cert.ReferenceIdeal.Read.val_main_v25 (F := Ideal) (a0 m c) (a1 m c) (a2 m c) (a4 m c) (a5 m c) := by
  refine (W4_arr m ρ c 2).trans (funext fun i => ?_)
  obtain ⟨r, j, rfl⟩ : ∃ (r : Fin 253952) (j : Fin 32), i = ix2 r j := ⟨i 0, i 1, eq_ix2 i⟩
  rw [match1_reference]
  exact match1_kernel (E3 m ρ) c _ (a5 m c) (st_v17 m ρ c) (st_v18 m ρ c) r j

/-- Region 2 leaves the second projection. -/
theorem st_v20 : W5 m ρ c (Proc.devRef .tc main_v20) = Cert.ReferenceIdeal.Read.val_main_v26 (F := Ideal) (a0 m c) (a1 m c) (a2 m c) (a4 m c) (a5 m c) (a6 m c) := by
  exact (W5_arr m ρ c 2).trans (match2 (E4 m ρ) c _ _ _ _ _ _ (st_v19 m ρ c) (keep_a6_4 m ρ c))

theorem st_v33 : W6 m ρ c (Proc.devRef .tc main_v33) = Cert.ReferenceIdeal.Read.val_main_v39 (F := Ideal) (a0 m c) (a1 m c) (a2 m c) (a4 m c) (a5 m c) (a6 m c) :=
  host3_v33 (W5 m ρ c) _ _ _ _ _ _ (st_v20 m ρ c) ((keep_v1_5 m ρ c).trans (st_v1 m ρ c)) ((keep_v3_5 m ρ c).trans (st_v3 m ρ c)) (keep_a2_5 m ρ c)

theorem st_v34 (j : Fin 20) : (W6 m ρ c (Proc.devRef .tc main_v34) : (⟨S1x20, .f32⟩ : BufTy).Contents (Elt Ideal)) (ix2 (0 : Fin 1) j) = (a7 m c : (⟨S20, .f32⟩ : BufTy).Contents (Elt Ideal)) (ix1 j) := by
  rw [show W6 m ρ c (Proc.devRef .tc main_v34) = _ from host3_v34 (W5 m ρ c)]
  exact (Cert.RowCast.shapeCast_row_apply _ shapeCasts_S20_S1x20 0 j).trans (congrFun (keep_a7_5 m ρ c) _)

end Stages

end Cert.KernelIdeal.Hand

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KV.Pay3.lean ====
/-
  The arithmetic of the batch-norm statistics body, read entry by entry over the extended reals.

  The body forms v = x + b, the block x of 3968 rows with the bias row b added to every row, and adds to two running
  rows the column sums of v and of v * v. Read at column j these are
    v (r, j)        = x (r, j) + b (0, j),
    sums' (0, j)    = sums (0, j) + ∑ r, v (r, j),
    squares' (0, j) = squares (0, j) + ∑ r, v (r, j) * v (r, j),
  and the row the first grid point resets both running rows to is zero.
-/
import proofs.«108927_j51273319579928_2_alg».proof.Proof.Gen.KernelIdeal.Skeleton
import proofs.«108927_j51273319579928_2_alg».proof.Proof.LibColSum
import proofs.«108927_j51273319579928_2_alg».proof.Proof.LibRowBroadcast
import proofs.«108927_j51273319579928_2_alg».proof.Proof.LibRowCast
import Idealize.ShloMosaic.Lib.ValueIdx
import Idealize.ShloMosaic.Lib.Pipeline.Value
import Idealize.ShloMosaic.PureOps.Ideal.Laws

set_option maxRecDepth 16384

noncomputable section

namespace Cert.KernelIdeal.StatsValue

open Cert.KernelIdeal Cert.KernelIdeal.Gen
open Idealize.ShloMosaic Idealize.ShloMosaic.ValueIdx

/-- The row both running rows are reset to is zero at every entry. -/
theorem reset0_apply (u : Fin 1) (j : Fin 20) : k3_pay1 (F := Ideal) (ix2 u j) = 0 := by
  unfold k3_pay1
  rw [shapeCast_self]
  exact Ideal.ofBits_zero_f32

theorem reset1_apply (u : Fin 1) (j : Fin 20) : k3_pay2 (F := Ideal) (ix2 u j) = 0 := by
  unfold k3_pay2
  rw [shapeCast_self]
  exact Ideal.ofBits_zero_f32

/-- The shifted block: entry (r, j) of x plus entry j of the bias row. -/
theorem shifted_apply (x : Vec Ideal S3968x20 .f32) (b : Vec Ideal S1x20 .f32) (r : Fin 3968) (j : Fin 20) :
    k3_pay3 (F := Ideal) x b (ix2 r j) = x (ix2 r j) + b (ix2 (0 : Fin 1) j) := by
  unfold k3_pay3
  rw [shapeCast_self, shapeCast_self, shapeCast_self]
  refine (addf_apply _ _ _).trans ?_
  exact congrArg (x (ix2 r j) + ·) (Cert.RowBroadcast.broadcastTo_1b_ab_apply b _ r j)

/-- The running row of sums after a point: what it held plus the column sums of the shifted block. -/
theorem sums_apply (x : Vec Ideal S3968x20 .f32) (b : Vec Ideal S1x20 .f32) (s : Vec Ideal S1x20 .f32) (j : Fin 20) :
    k3_pay4 (F := Ideal) x b s (ix2 (0 : Fin 1) j) = s (ix2 (0 : Fin 1) j) + ∑ r : Fin 3968, (x (ix2 r j) + b (ix2 (0 : Fin 1) j)) := by
  unfold k3_pay4
  dsimp only
  rw [shapeCast_self]
  refine (addf_apply _ _ _).trans ?_
  refine congrArg (s (ix2 (0 : Fin 1) j) + ·) ?_
  refine (Cert.RowCast.shapeCast_row_apply _ _ (0 : Fin 1) j).trans ?_
  refine (Cert.ColSum.multiReduction_add_col (k3_pay3 (F := Ideal) x b) _ _ _ _ j).trans ?_
  exact Finset.sum_congr rfl fun r _ => shifted_apply x b r j

/-- The running row of sums of squares after a point: what it held plus the column sums of the squared shifted block. -/
theorem squares_apply (x : Vec Ideal S3968x20 .f32) (b : Vec Ideal S1x20 .f32) (s : Vec Ideal S1x20 .f32) (j : Fin 20) :
    k3_pay5 (F := Ideal) x b s (ix2 (0 : Fin 1) j)
      = s (ix2 (0 : Fin 1) j) + ∑ r : Fin 3968, (x (ix2 r j) + b (ix2 (0 : Fin 1) j)) * (x (ix2 r j) + b (ix2 (0 : Fin 1) j)) := by
  unfold k3_pay5
  dsimp only
  rw [shapeCast_self]
  refine (addf_apply _ _ _).trans ?_
  refine congrArg (s (ix2 (0 : Fin 1) j) + ·) ?_
  refine (Cert.RowCast.shapeCast_row_apply _ _ (0 : Fin 1) j).trans ?_
  refine (Cert.ColSum.multiReduction_add_col (mulf (k3_pay3 (F := Ideal) x b) (k3_pay3 (F := Ideal) x b)) _ _ _ _ j).trans ?_
  refine Finset.sum_congr rfl fun r _ => ?_
  refine (mulf_apply _ _ _).trans ?_
  rw [shifted_apply x b r j]

end Cert.KernelIdeal.StatsValue

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.KV.Val3.lean ====
/-
  What region 3 leaves in its two output arrays, entry by entry over the extended reals.

  The region reads x (253952 rows of 20) in 64 blocks of 3968 rows and a bias row b. With v (n, j) = x (n, j) + b (0, j), the
  first output array ends holding, at column j, the sum of v (n, j) over all 253952 rows, and the second the sum of
  v (n, j) * v (n, j). The steps: a block's entry (r, j) at point t is row t * 3968 + r of x, and the bias block is the bias row;
  the scratch rows after point n are running totals started at zero, hence sums over the points 0..n of the per-block column
  sums; the one write-back, at the last point, writes the whole output array; and a sum over 64 blocks of 3968 rows is the sum
  over all 253952 rows. Addition of extended reals is commutative and associative, so no finiteness is used.
-/
import proofs.«108927_j51273319579928_2_alg».proof.Proof.KI.Reg3
import proofs.«108927_j51273319579928_2_alg».proof.Proof.KV.Pay3
import proofs.«108927_j51273319579928_2_alg».proof.Proof.LibChainSum
import proofs.«108927_j51273319579928_2_alg».proof.Proof.LibSumSplit
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.StatsValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- 64 blocks of 3968 rows are the 253952 rows. -/
theorem tiles3 : 64 * 3968 = 253952 := by norm_num

/-- Row `r` of block `n`, as a row of x. -/
abbrev row3 (n : ℕ) (hn : n < 64) (r : Fin 3968) : Fin 253952 := Cert.PointDist.tileIdx tiles3 ⟨n, hn⟩ r

theorem lt64 (t : Fin cfg3.N) : t.val < 64 := lt_of_lt_of_eq t.isLt (show cfg3.N = 64 from N_3)

/-- The array x and the bias row as the region finds them. -/
abbrev xArr3 (c : Dev nD) : Vec Ideal S253952x20 .f32 := V c (Pipeline.arrRef spec3 0)
abbrev bRow3 (c : Dev nD) : Vec Ideal S1x20 .f32 := V c (Pipeline.arrRef spec3 1)

/-- Where the block of x sits at each point: block row `t`, block column 0. -/
theorem xindex3 : ∀ t : Fin cfg3.N, win3_0.index t 0 = t.val ∧ win3_0.index t 1 = 0 :=
  (by decide +kernel : ∀ t : Fin grid3.N, win3_0.index t 0 = t.val ∧ win3_0.index t 1 = 0)
/-- The bias row's block is the row, at every point. -/
theorem bindex3 : ∀ t : Fin cfg3.N, win3_1.index t 0 = 0 ∧ win3_1.index t 1 = 0 :=
  (by decide +kernel : ∀ t : Fin grid3.N, win3_1.index t 0 = 0 ∧ win3_1.index t 1 = 0)

/-- The block of x at point `t`, entry (r, j): row t * 3968 + r of x, column j. -/
theorem xblk_apply (c : Dev nD) (t : Fin cfg3.N) (r : Fin 3968) (j : Fin 20) :
    (iblk3 V c 0 t : Vec Ideal S3968x20 .f32) (ix2 r j)
      = xArr3 V c (ix2 (row3 t.val (lt64 t) r) j) := by
  obtain ⟨h0, h1⟩ := xindex3 t
  unfold iblk3
  rw [View.read_apply]
  show V c main_v33 _ = V c main_v33 _
  congr 1
  funext a
  apply Fin.ext
  match a with
  | ⟨0, _⟩ => show win3_0.index t 0 * 3968 + 1 * r.val = t.val * 3968 + r.val; rw [h0]; omega
  | ⟨1, _⟩ => show win3_0.index t 1 * 20 + 1 * j.val = j.val; rw [h1]; omega

/-- The bias block at any point, entry (0, j): entry (0, j) of the bias row. -/
theorem bblk_apply (c : Dev nD) (t : Fin cfg3.N) (j : Fin 20) :
    (iblk3 V c 1 t : Vec Ideal S1x20 .f32) (ix2 (0 : Fin 1) j)
      = bRow3 V c (ix2 (0 : Fin 1) j) := by
  obtain ⟨h0, h1⟩ := bindex3 t
  unfold iblk3
  rw [View.read_apply]
  show V c main_v34 _ = V c main_v34 _
  congr 1
  funext a
  apply Fin.ext
  match a with
  | ⟨0, _⟩ => show win3_1.index t 0 * 1 + 1 * 0 = 0; rw [h0]
  | ⟨1, _⟩ => show win3_1.index t 1 * 20 + 1 * j.val = j.val; rw [h1]; omega

/-- The shifted entry: row n of x at column j plus the bias row's entry j. -/
abbrev shifted3 (c : Dev nD) (j : Fin 20) (n : Fin 253952) : Elt Ideal .f32 :=
  xArr3 V c (ix2 n j) + bRow3 V c (ix2 (0 : Fin 1) j)

/-- One block's column sum of the shifted entries, and of their squares. -/
abbrev blockSum3 (c : Dev nD) (j : Fin 20) (t : Fin cfg3.N) : Elt Ideal .f32 := ∑ r : Fin 3968, shifted3 V c j (row3 t.val (lt64 t) r)
abbrev blockSq3 (c : Dev nD) (j : Fin 20) (t : Fin cfg3.N) : Elt Ideal .f32 :=
  ∑ r : Fin 3968, shifted3 V c j (row3 t.val (lt64 t) r) * shifted3 V c j (row3 t.val (lt64 t) r)

/-- The first scratch row after point n, at column j: the block sums of the points 0..n added up. -/
theorem sums_upto (c : Dev nD) (j : Fin 20) (n : ℕ) (hn : n < cfg3.N) :
    (accAt3 V c n hn).1 (ix2 (0 : Fin 1) j)
      = ∑ i : Fin (n + 1), blockSum3 V c j ⟨i.val, lt_of_le_of_lt (Nat.le_of_lt_succ i.isLt) hn⟩ := by
  refine Cert.ChainSum.chain_eq_sum (blockSum3 V c j) (fun n hn => (accAt3 V c n hn).1 (ix2 (0 : Fin 1) j)) (fun h => ?_) (fun n h => ?_) n hn
  · show sums3 (iblk3 V c 0 ⟨0, h⟩) (iblk3 V c 1 ⟨0, h⟩) (k3_pay1 (F := Ideal)) (ix2 (0 : Fin 1) j) = _
    refine (sums_apply _ _ _ j).trans ?_
    rw [reset0_apply, zero_add]
    exact Finset.sum_congr rfl fun r _ => by rw [xblk_apply V c ⟨0, h⟩ r j, bblk_apply V c ⟨0, h⟩ j]
  · show sums3 (iblk3 V c 0 ⟨n + 1, h⟩) (iblk3 V c 1 ⟨n + 1, h⟩) (accAt3 V c n (Nat.lt_of_succ_lt h)).1 (ix2 (0 : Fin 1) j) = _
    refine (sums_apply _ _ _ j).trans ?_
    refine congrArg ((accAt3 V c n (Nat.lt_of_succ_lt h)).1 (ix2 (0 : Fin 1) j) + ·) ?_
    exact Finset.sum_congr rfl fun r _ => by rw [xblk_apply V c ⟨n + 1, h⟩ r j, bblk_apply V c ⟨n + 1, h⟩ j]

/-- The second scratch row likewise, with the squares. -/
theorem squares_upto (c : Dev nD) (j : Fin 20) (n : ℕ) (hn : n < cfg3.N) :
    (accAt3 V c n hn).2 (ix2 (0 : Fin 1) j)
      = ∑ i : Fin (n + 1), blockSq3 V c j ⟨i.val, lt_of_le_of_lt (Nat.le_of_lt_succ i.isLt) hn⟩ := by
  refine Cert.ChainSum.chain_eq_sum (blockSq3 V c j) (fun n hn => (accAt3 V c n hn).2 (ix2 (0 : Fin 1) j)) (fun h => ?_) (fun n h => ?_) n hn
  · show squares3 (iblk3 V c 0 ⟨0, h⟩) (iblk3 V c 1 ⟨0, h⟩) (k3_pay2 (F := Ideal)) (ix2 (0 : Fin 1) j) = _
    refine (squares_apply _ _ _ j).trans ?_
    rw [reset1_apply, zero_add]
    exact Finset.sum_congr rfl fun r _ => by rw [xblk_apply V c ⟨0, h⟩ r j, bblk_apply V c ⟨0, h⟩ j]
  · show squares3 (iblk3 V c 0 ⟨n + 1, h⟩) (iblk3 V c 1 ⟨n + 1, h⟩) (accAt3 V c n (Nat.lt_of_succ_lt h)).2 (ix2 (0 : Fin 1) j) = _
    refine (squares_apply _ _ _ j).trans ?_
    refine congrArg ((accAt3 V c n (Nat.lt_of_succ_lt h)).2 (ix2 (0 : Fin 1) j) + ·) ?_
    exact Finset.sum_congr rfl fun r _ => by rw [xblk_apply V c ⟨n + 1, h⟩ r j, bblk_apply V c ⟨n + 1, h⟩ j]

/-- The last point. -/
abbrev last3 : Fin cfg3.N := ⟨63, by rw [show cfg3.N = 64 from N_3]; decide⟩

/-- After the last point the first scratch row holds, at column j, the sum over all rows of the shifted entries, -/
theorem sums_last (c : Dev nD) (j : Fin 20) :
    (accAt3 V c last3.val last3.isLt).1 (ix2 (0 : Fin 1) j) = ∑ n : Fin 253952, shifted3 V c j n := by
  rw [sums_upto V c j 63 last3.isLt, Cert.PointDist.sum_tiles tiles3 (shifted3 V c j)]

/-- and the second the sum of their squares. -/
theorem squares_last (c : Dev nD) (j : Fin 20) :
    (accAt3 V c last3.val last3.isLt).2 (ix2 (0 : Fin 1) j) = ∑ n : Fin 253952, shifted3 V c j n * shifted3 V c j n := by
  rw [squares_upto V c j 63 last3.isLt, Cert.PointDist.sum_tiles tiles3 (fun n => shifted3 V c j n * shifted3 V c j n)]

/-! ## The one write-back and the arrays at the end -/

/-- What the first output array ends holding: the first scratch row after the last point. -/
abbrev tot3_2 (c : Dev nD) : Buf (Elt Ideal) ((c : Thread nD τ).loc main_v35_0) := (accAt3 V c last3.val last3.isLt).1
/-- What the second ends holding: the second scratch row after the last point. -/
abbrev tot3_3 (c : Dev nD) : Buf (Elt Ideal) ((c : Thread nD τ).loc main_v35_1) := (accAt3 V c last3.val last3.isLt).2

/-- The only write-back of the first output, at the last point, writes the whole array (block (0, 0) of a [1, 20] array in
    blocks of [1, 20]). -/
theorem flushed3_2_eq (c : Dev nD) (t : Fin cfg3.N) (hf : (cfg3.win 2).flush t = true) :
    (dat3 V c).flushed 2 t = ((cfg3.win 2).blk t).view.read (Elt Ideal) (tot3_2 V c) := by
  have h1 : t.val = 63 := by have := (flush3_2 t).mp hf; have := lt64 t; omega
  obtain rfl : t = last3 := Fin.ext h1
  show (cfg3.win 2).cut (grid3.coords last3) ((dat3 V c).after 2 last3) = _
  rw [after3_2]
  have hz' : (fun a => win3_2.index last3 a * main_v35_0.ty.shape.size a) = fun _ => 0 := funext fun a => by fin_cases a <;> decide
  exact (Memref.read_access_unit_zero (Elt Ideal) main_v35_0 hz' (fun a => by rw [congrFun hz' a]; simp) (tot3_2 V c)).symm

theorem flushed3_3_eq (c : Dev nD) (t : Fin cfg3.N) (hf : (cfg3.win 3).flush t = true) :
    (dat3 V c).flushed 3 t = ((cfg3.win 3).blk t).view.read (Elt Ideal) (tot3_3 V c) := by
  have h1 : t.val = 63 := by have := (flush3_3 t).mp hf; have := lt64 t; omega
  obtain rfl : t = last3 := Fin.ext h1
  show (cfg3.win 3).cut (grid3.coords last3) ((dat3 V c).after 3 last3) = _
  rw [after3_3]
  have hz' : (fun a => win3_3.index last3 a * main_v35_1.ty.shape.size a) = fun _ => 0 := funext fun a => by fin_cases a <;> decide
  exact (Memref.read_access_unit_zero (Elt Ideal) main_v35_1 hz' (fun a => by rw [congrFun hz' a]; simp) (tot3_3 V c)).symm

/-- So the first output array ends holding the first scratch row after the last point: that point's block covers the array. -/
theorem final3_2 (c : Dev nD) : (dat3 V c).arrAt 2 cfg3.N = tot3_2 V c :=
  (dat3 V c).arrAt_eq_of_cover 2 (tot3_2 V c) (flushed3_2_eq V c) fun i =>
    ⟨last3, (flush3_2 last3).mpr rfl, by
      show i ∈ ((View.whole main_v35_0).slice (win3_2.rect last3)).set
      rw [View.set_slice_whole, Rect.mem_set_unit]
      intro a
      have h0 : (i 0 : Nat) < 1 := (i 0).isLt
      have h1 : (i 1 : Nat) < 20 := (i 1).isLt
      match a with
      | ⟨0, _⟩ => show win3_2.index last3 0 * win3_2.size 0 ≤ (i 0 : Nat) ∧ (i 0 : Nat) < win3_2.index last3 0 * win3_2.size 0 + win3_2.xsize (grid3.coords last3) 0
                  rw [show win3_2.index last3 0 * win3_2.size 0 = 0 from by decide +kernel, show win3_2.xsize (grid3.coords last3) 0 = 1 from by decide +kernel]; omega
      | ⟨1, _⟩ => show win3_2.index last3 1 * win3_2.size 1 ≤ (i 1 : Nat) ∧ (i 1 : Nat) < win3_2.index last3 1 * win3_2.size 1 + win3_2.xsize (grid3.coords last3) 1
                  rw [show win3_2.index last3 1 * win3_2.size 1 = 0 from by decide +kernel, show win3_2.xsize (grid3.coords last3) 1 = 20 from by decide +kernel]; omega⟩

theorem final3_3 (c : Dev nD) : (dat3 V c).arrAt 3 cfg3.N = tot3_3 V c :=
  (dat3 V c).arrAt_eq_of_cover 3 (tot3_3 V c) (flushed3_3_eq V c) fun i =>
    ⟨last3, (flush3_3 last3).mpr rfl, by
      show i ∈ ((View.whole main_v35_1).slice (win3_3.rect last3)).set
      rw [View.set_slice_whole, Rect.mem_set_unit]
      intro a
      have h0 : (i 0 : Nat) < 1 := (i 0).isLt
      have h1 : (i 1 : Nat) < 20 := (i 1).isLt
      match a with
      | ⟨0, _⟩ => show win3_3.index last3 0 * win3_3.size 0 ≤ (i 0 : Nat) ∧ (i 0 : Nat) < win3_3.index last3 0 * win3_3.size 0 + win3_3.xsize (grid3.coords last3) 0
                  rw [show win3_3.index last3 0 * win3_3.size 0 = 0 from by decide +kernel, show win3_3.xsize (grid3.coords last3) 0 = 1 from by decide +kernel]; omega
      | ⟨1, _⟩ => show win3_3.index last3 1 * win3_3.size 1 ≤ (i 1 : Nat) ∧ (i 1 : Nat) < win3_3.index last3 1 * win3_3.size 1 + win3_3.xsize (grid3.coords last3) 1
                  rw [show win3_3.index last3 1 * win3_3.size 1 = 0 from by decide +kernel, show win3_3.xsize (grid3.coords last3) 1 = 20 from by decide +kernel]; omega⟩

/-- THE VALUE of the first output: at column j, the sum over all 253952 rows of x (n, j) + bias (0, j). -/
theorem val3_2 (c : Dev nD) (j : Fin 20) :
    ((dat3 (F := Ideal) V c).arrAt 2 cfg3.N : Vec Ideal S1x20 .f32) (ix2 (0 : Fin 1) j)
      = ∑ r : Fin 253952, (xArr3 V c (ix2 r j)
          + bRow3 V c (ix2 (0 : Fin 1) j)) := by
  rw [final3_2 V c]; exact sums_last V c j

/-- THE VALUE of the second output: the sum of the squares of the same entries. -/
theorem val3_3 (c : Dev nD) (j : Fin 20) :
    ((dat3 (F := Ideal) V c).arrAt 3 cfg3.N : Vec Ideal S1x20 .f32) (ix2 (0 : Fin 1) j)
      = ∑ r : Fin 253952, (xArr3 V c (ix2 r j)
            + bRow3 V c (ix2 (0 : Fin 1) j))
          * (xArr3 V c (ix2 r j)
            + bRow3 V c (ix2 (0 : Fin 1) j)) := by
  rw [final3_3 V c]; exact squares_last V c j

end Cert.KernelIdeal.Hand

end
-- ==== Proof.KV.Match3.lean ====
/-
  Region 3's two outputs when the region is entered with x = X and with the bias row holding a vector x7 of 20 entries:
  at column j the first output is the sum over all 253952 rows of X (n, j) + x7 (j), the second the sum of the squares of
  the same entries. These are the values of region 3 with the two hypotheses substituted.
-/
import proofs.«108927_j51273319579928_2_alg».proof.Proof.KV.Val3

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first output at column j: the column sum of X + x7. -/
theorem match3_2 (c : Dev nD) (X : Vec Ideal S253952x20 .f32) (x7 : Vec Ideal S20 .f32)
    (hX : xArr3 V c = X) (hB : ∀ j : Fin 20, bRow3 V c (ix2 (0 : Fin 1) j) = x7 (ix1 j)) (j : Fin 20) :
    ((dat3 (F := Ideal) V c).arrAt 2 cfg3.N : Vec Ideal S1x20 .f32) (ix2 (0 : Fin 1) j)
      = ∑ r : Fin 253952, (X (ix2 r j) + x7 (ix1 j)) := by
  rw [val3_2 V c j, hX, hB j]

/-- The second output at column j: the column sum of (X + x7) * (X + x7). -/
theorem match3_3 (c : Dev nD) (X : Vec Ideal S253952x20 .f32) (x7 : Vec Ideal S20 .f32)
    (hX : xArr3 V c = X) (hB : ∀ j : Fin 20, bRow3 V c (ix2 (0 : Fin 1) j) = x7 (ix1 j)) (j : Fin 20) :
    ((dat3 (F := Ideal) V c).arrAt 3 cfg3.N : Vec Ideal S1x20 .f32) (ix2 (0 : Fin 1) j)
      = ∑ r : Fin 253952, (X (ix2 r j) + x7 (ix1 j)) * (X (ix2 r j) + x7 (ix1 j)) := by
  rw [val3_3 V c j, hX, hB j]

end Cert.KernelIdeal.Hand

end
-- ==== Proof.KV.Val4.lean ====
import proofs.«108927_j51273319579928_2_alg».proof.Proof.KI.Reg4
import proofs.«108927_j51273319579928_2_alg».proof.Proof.KV.Pay
import Idealize.ShloMosaic.Lib.Pipeline.Value

/-!
# Region 4 on extended reals: the whole output array

Each grid point `t` handles rows `3968 t … 3968 t + 3967`: the activations' block and the output's block are both
block `t` of their arrays, and each of the three rows (bias, scale, shift) is the one block of its array at every
point. So what point `t` writes back is block `t` of ONE function of the four arrays as the region finds them —
entry `(r, j)` is `leaky ((x (r, j) + b (0, j)) * s (0, j) + h (0, j))` — and the 64 blocks tile the 253952 rows, so
the output array ends holding that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

section Region4
variable (V : (c : Dev nD) → (b : Ref sig .tc) → Buf (Elt Ideal) ((c : Thread nD τ).loc b))

theorem zero_off2' : (![0, 0] : Fin 2 → Nat) = fun _ => 0 := funext fun a => by fin_cases a <;> rfl

/-- The output array as one function of the activations `x` and the bias, scale and shift rows, entry by entry. -/
def normAct (x : S253952x20.Idx → Ideal .f32) (b s h : S1x20.Idx → Ideal .f32) : S253952x20.Idx → Ideal .f32 :=
  fun i => Cert.Spec.leaky ((x i + b (ix2 (0 : Fin 1) (i 1))) * s (ix2 (0 : Fin 1) (i 1)) + h (ix2 (0 : Fin 1) (i 1)))

/-- The printed index maps over the grid: at point `t` the activations' and the output's block is `(t, 0)`, each
    row's is `(0, 0)`. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of `normAct` of the four arrays as the region finds them. -/
theorem flushed4_eq (c : Dev nD) (t : Fin cfg4.N) :
    (dat4 V c).flushed 4 t
      = ((cfg4.win 4).blk t).view.read (Elt Ideal) (normAct (V c main_v33) (V c main_v50) (V c main_v51) (V c main_v52)) := by
  show (cfg4.win 4).cut (grid4.coords t) ((dat4 V c).after 4 t) = _
  rw [after4_4]
  unfold out4_4
  rw [View.canon_unit_zero zero_off2']
  simp only [View.ld_unit_zero (S := S3968x20) zero_off2', View.ld_unit_zero (S := S1x20) zero_off2']
  obtain ⟨e0, e1, e2, e3, e4, e5, e6, e7, e8, e9⟩ := blocks4 t
  refine funext fun (j : S3968x20.Idx) => ?_
  obtain ⟨p, q, rfl⟩ : ∃ (p : Fin 3968) (q : Fin 20), j = ix2 p q := ⟨j 0, j 1, eq_ix2 j⟩
  show k4_pay1 (F := Ideal) (iblk4 V c 0 t) (iblk4 V c 1 t) (iblk4 V c 2 t) (iblk4 V c 3 t) (ix2 p q)
    = normAct (V c main_v33) (V c main_v50) (V c main_v51) (V c main_v52) (((cfg4.win 4).blk t).view.emb (ix2 p q))
  refine (k4_pay1_apply (iblk4 V c 0 t) (iblk4 V c 1 t) (iblk4 V c 2 t) (iblk4 V c 3 t) p q).trans ?_
  unfold normAct
  refine congrArg Cert.Spec.leaky ?_
  have h0 : iblk4 V c 0 t (ix2 p q) = V c main_v33 (((cfg4.win 4).blk t).view.emb (ix2 p q)) := by
    show V c main_v33 (((cfg4.win 0).blk t).view.emb (ix2 p q)) = _
    refine congrArg (V c main_v33) ?_
    funext a; apply Fin.ext
    match a with
    | ⟨0, _⟩ => show win4_0.index t (0 : Fin 2) * 3968 + 1 * p.val = win4_4.index t (0 : Fin 2) * 3968 + 1 * p.val; omega
    | ⟨1, _⟩ => show win4_0.index t (1 : Fin 2) * 20 + 1 * q.val = win4_4.index t (1 : Fin 2) * 20 + 1 * q.val; omega
  have h1 : iblk4 V c 1 t (ix2 (0 : Fin 1) q)
      = V c main_v50 (ix2 (0 : Fin 1) ((((cfg4.win 4).blk t).view.emb (ix2 p q)) 1)) := by
    show V c main_v50 (((cfg4.win 1).blk t).view.emb (ix2 (0 : Fin 1) q)) = _
    refine congrArg (V c main_v50) ?_
    funext a; apply Fin.ext
    match a with
    | ⟨0, _⟩ => show win4_1.index t (0 : Fin 2) * 1 + 1 * 0 = 0; omega
    | ⟨1, _⟩ => show win4_1.index t (1 : Fin 2) * 20 + 1 * q.val = win4_4.index t (1 : Fin 2) * 20 + 1 * q.val; omega
  have h2 : iblk4 V c 2 t (ix2 (0 : Fin 1) q)
      = V c main_v51 (ix2 (0 : Fin 1) ((((cfg4.win 4).blk t).view.emb (ix2 p q)) 1)) := by
    show V c main_v51 (((cfg4.win 2).blk t).view.emb (ix2 (0 : Fin 1) q)) = _
    refine congrArg (V c main_v51) ?_
    funext a; apply Fin.ext
    match a with
    | ⟨0, _⟩ => show win4_2.index t (0 : Fin 2) * 1 + 1 * 0 = 0; omega
    | ⟨1, _⟩ => show win4_2.index t (1 : Fin 2) * 20 + 1 * q.val = win4_4.index t (1 : Fin 2) * 20 + 1 * q.val; omega
  have h3 : iblk4 V c 3 t (ix2 (0 : Fin 1) q)
      = V c main_v52 (ix2 (0 : Fin 1) ((((cfg4.win 4).blk t).view.emb (ix2 p q)) 1)) := by
    show V c main_v52 (((cfg4.win 3).blk t).view.emb (ix2 (0 : Fin 1) q)) = _
    refine congrArg (V c main_v52) ?_
    funext a; apply Fin.ext
    match a with
    | ⟨0, _⟩ => show win4_3.index t (0 : Fin 2) * 1 + 1 * 0 = 0; omega
    | ⟨1, _⟩ => show win4_3.index t (1 : Fin 2) * 20 + 1 * q.val = win4_4.index t (1 : Fin 2) * 20 + 1 * q.val; omega
  rw [h0, h1, h2, h3]

/-- An index of the output array is in point `t`'s block iff each coordinate is in the block's range on its axis. -/
theorem mem_blk4 (t : Fin cfg4.N) (i : S253952x20.Idx) :
    i ∈ ((cfg4.win 4).blk t).view.set ↔ ∀ a : Fin 2, win4_4.index t a * S3968x20.size a ≤ (i a).val ∧ (i a).val < win4_4.index t a * S3968x20.size a + S3968x20.size a := by
  show i ∈ ((View.whole main_v53).slice (win4_4.rect t)).set ↔ _
  rw [View.set_slice_whole, Rect.mem_set_unit]
  exact Iff.rfl

/-- Every index of the output array lies in the block of the point its row falls under. -/
theorem cover4 (i : S253952x20.Idx) : ∃ t : Fin cfg4.N, (cfg4.win 4).flush t = true ∧ i ∈ ((cfg4.win 4).blk t).view.set := by
  have hi0 : (i 0).val < 253952 := (i 0).isLt
  have hi1 : (i 1).val < 20 := (i 1).isLt
  have hN : cfg4.N = 64 := N_4
  let t : Fin cfg4.N := ⟨(i 0).val / 3968, by rw [hN]; omega⟩
  obtain ⟨e0, e1, e2, e3, e4, e5, e6, e7, e8, e9⟩ := blocks4 t
  have ht : t.val = (i 0).val / 3968 := rfl
  refine ⟨t, flush4_4 t, ?_⟩
  rw [mem_blk4]
  intro a
  match a with
  | ⟨0, _⟩ => show win4_4.index t (0 : Fin 2) * 3968 ≤ (i 0).val ∧ (i 0).val < win4_4.index t (0 : Fin 2) * 3968 + 3968; omega
  | ⟨1, _⟩ => show win4_4.index t (1 : Fin 2) * 20 ≤ (i 1).val ∧ (i 1).val < win4_4.index t (1 : Fin 2) * 20 + 20; omega

/-- The output array after the region: `normAct` of the four input arrays as the region finds them. -/
theorem final4 (c : Dev nD) :
    (dat4 V c).arrAt 4 cfg4.N = normAct (V c main_v33) (V c main_v50) (V c main_v51) (V c main_v52) :=
  (dat4 V c).arrAt_eq_of_cover 4 (normAct (V c main_v33) (V c main_v50) (V c main_v51) (V c main_v52))
    (fun t _ => flushed4_eq V c t) cover4

/-- The same at an entry given by its coordinates, the four arrays the region finds named `x`, `b`, `s`, `h`. -/
theorem final4_apply (c : Dev nD) (x : S253952x20.Idx → Ideal .f32) (b s h : S1x20.Idx → Ideal .f32)
    (hx : V c (Pipeline.arrRef spec4 0) = x) (hb : V c (Pipeline.arrRef spec4 1) = b)
    (hs : V c (Pipeline.arrRef spec4 2) = s) (hh : V c (Pipeline.arrRef spec4 3) = h) (r : Fin 253952) (j : Fin 20) :
    (dat4 V c).arrAt 4 cfg4.N (ix2 r j)
      = Cert.Spec.leaky ((x (ix2 r j) + b (ix2 (0 : Fin 1) j)) * s (ix2 (0 : Fin 1) j) + h (ix2 (0 : Fin 1) j)) := by
  subst hx hb hs hh
  rw [final4]; rfl

end Region4

end Cert.KernelIdeal.HandValue
-- ==== Proof.KV.Match4.lean ====
import proofs.«108927_j51273319579928_2_alg».proof.Proof.KV.Val4

/-!
# Region 4 from what its windows hold

The fifth region computes `leaky ((X (r, j) + b (0, j)) * s (0, j) + h (0, j))` from the array and the three rows it
finds. Here the array is named `X` and the rows' entries `bj j`, `sc j`, `sh j`, so that the result reads
`leaky ((X (r, j) + bj j) * sc j + sh j)` whatever produced them.
-/

noncomputable section

namespace Cert.KernelIdeal.Hand

open Cert.KernelIdeal Cert.KernelIdeal.Gen Cert.KernelIdeal.HandValue
open Idealize.ShloMosaic Idealize.ShloMosaic.TcCoe Idealize.ShloMosaic.ValueIdx

/-- If the region finds the array `X` at its first window and rows holding `bj`, `sc`, `sh` at the next three, its
    output array ends holding `leaky ((X (r, j) + bj j) * sc j + sh j)` at `(r, j)`. -/
theorem match4_kernel (V : (c : Dev nD) → (b : Ref sig .tc) → Buf (Elt Ideal) ((c : Thread nD τ).loc b)) (c : Dev nD)
    (X : S253952x20.Idx → Ideal .f32) (bj sc sh : Fin 20 → Ideal .f32)
    (hX : (V c (Pipeline.arrRef spec4 0) : S253952x20.Idx → Ideal .f32) = X)
    (hb : ∀ j : Fin 20, (V c (Pipeline.arrRef spec4 1) : S1x20.Idx → Ideal .f32) (ix2 (0 : Fin 1) j) = bj j)
    (hs : ∀ j : Fin 20, (V c (Pipeline.arrRef spec4 2) : S1x20.Idx → Ideal .f32) (ix2 (0 : Fin 1) j) = sc j)
    (hh : ∀ j : Fin 20, (V c (Pipeline.arrRef spec4 3) : S1x20.Idx → Ideal .f32) (ix2 (0 : Fin 1) j) = sh j)
    (r : Fin 253952) (j : Fin 20) :
    (dat4 (F := Ideal) V c).arrAt 4 cfg4.N (ix2 r j) = Cert.Spec.leaky ((X (ix2 r j) + bj j) * sc j + sh j) := by
  rw [final4_apply V c X _ _ _ hX rfl rfl rfl r j, hb j, hs j, hh j]

end Cert.KernelIdeal.Hand
-- ==== Proof.KV.Pay5.lean ====
/- The MLP head's payload read at one output entry.

   The body's one stored value is, as a function of the five loaded blocks g [4096,20], W1 [20,10], b1 [1,10],
   W2 [10,2], b2 [1,2]:  leaky(g·W1 + b1)·W2 + b2,  the bias rows repeated down the 4096 rows and the activation
   applied entry by entry. On extended reals the changes of float format are the identity and a matrix product into a
   zero accumulator is the plain sum over the contracted axis, so the entry at (g, o) is
     (∑ k, leaky((∑ j, g[g,j]·W1[j,k]) + b1[0,k]) · W2[k,o]) + b2[0,o]. -/
import proofs.«108927_j51273319579928_2_alg».proof.Proof.Gen.KernelIdeal.Skeleton
import proofs.«108927_j51273319579928_2_alg».proof.Proof.Spec
import proofs.«108927_j51273319579928_2_alg».proof.Proof.LibDotRows
import proofs.«108927_j51273319579928_2_alg».proof.Proof.LibRowBroadcast
import Idealize.ShloMosaic.PureOps.Ideal.Laws
import Idealize.ShloMosaic.Lib.Pipeline.Value
import Idealize.ShloMosaic.Lib.ValueIdx

noncomputable section

namespace Cert.KernelIdeal.HandValue

open Cert.KernelIdeal Cert.KernelIdeal.Gen
open Idealize.ShloMosaic Idealize.ShloMosaic.ValueIdx
open Cert.Hand

/-- The first product, features times first weights, at (p, q): the sum over the 20 contracted columns. -/
theorem mm1_apply (l : FVec Ideal S4096x20 .bf16) (r : FVec Ideal S20x10 .bf16) (p : Fin 4096) (q : Fin 10) :
    matmul dot_S4096x20_S20x10_S4096x10_1_0_0_1_n_n none l r (constant (F := Ideal) S4096x10 .f32 0x00000000#32) (ix2 p q)
      = ∑ k : Fin 20, l (ix2 p k) * r (ix2 k q) := by
  refine (Ideal.matmul_constant_zero_apply dot_S4096x20_S20x10_S4096x10_1_0_0_1_n_n none l r (ix2 p q)).trans ?_
  dot_rows dot_S4096x20_S20x10_S4096x10_1_0_0_1_n_n S4096x20 S20x10 20

/-- The second product, hidden layer times second weights, at (p, q): the sum over the 10 hidden units. -/
theorem mm2_apply (l : FVec Ideal S4096x10 .bf16) (r : FVec Ideal S10x2 .bf16) (p : Fin 4096) (q : Fin 2) :
    matmul dot_S4096x10_S10x2_S4096x2_1_0_0_1_n_n none l r (constant (F := Ideal) S4096x2 .f32 0x00000000#32) (ix2 p q)
      = ∑ k : Fin 10, l (ix2 p k) * r (ix2 k q) := by
  refine (Ideal.matmul_constant_zero_apply dot_S4096x10_S10x2_S4096x2_1_0_0_1_n_n none l r (ix2 p q)).trans ?_
  dot_rows dot_S4096x10_S10x2_S4096x2_1_0_0_1_n_n S4096x10 S10x2 10

/-- The first bias row, cast to its own shape twice and repeated down the rows, reads its entry k at (g, k). -/
theorem row1_apply (x2 : Vec Ideal S1x10 .f32) (g : Fin 4096) (k : Fin 10) :
    broadcastTo S4096x10 (shapeCast S1x10 (shapeCast S1x10 x2 shapeCasts_S1x10_S1x10) shapeCasts_S1x10_S1x10) broadcasts_S1x10_S4096x10 (ix2 g k)
      = x2 (ix2 (0 : Fin 1) k) := by
  rw [shapeCast_self, shapeCast_self]
  exact Cert.RowBroadcast.broadcastTo_1b_ab_apply x2 broadcasts_S1x10_S4096x10 g k

/-- The second bias row likewise reads its entry o at (g, o). -/
theorem row2_apply (x4 : Vec Ideal S1x2 .f32) (g : Fin 4096) (o : Fin 2) :
    broadcastTo S4096x2 (shapeCast S1x2 (shapeCast S1x2 x4 shapeCasts_S1x2_S1x2) shapeCasts_S1x2_S1x2) broadcasts_S1x2_S4096x2 (ix2 g o)
      = x4 (ix2 (0 : Fin 1) o) := by
  rw [shapeCast_self, shapeCast_self]
  exact Cert.RowBroadcast.broadcastTo_1b_ab_apply x4 broadcasts_S1x2_S4096x2 g o

/-- The hidden layer as the body computes it: leaky-relu of features times first weights plus the first bias row. -/
def hid5 (x0 : Vec Ideal S4096x20 .f32) (x1 : Vec Ideal S20x10 .f32) (x2 : Vec Ideal S1x10 .f32) : FVec Ideal S4096x10 .f32 :=
  let pre : FVec Ideal S4096x10 .f32 :=
    addf (matmul dot_S4096x20_S20x10_S4096x10_1_0_0_1_n_n none
        (truncf .bf16 (shapeCast S4096x20 x0 shapeCasts_S4096x20_S4096x20) bitsLt_bf16_f32) (truncf .bf16 x1 bitsLt_bf16_f32)
        (constant (F := Ideal) S4096x10 .f32 0x00000000#32))
      (broadcastTo S4096x10 (shapeCast S1x10 (shapeCast S1x10 x2 shapeCasts_S1x10_S1x10) shapeCasts_S1x10_S1x10) broadcasts_S1x10_S4096x10)
  select (cmpf .oge pre (broadcast S4096x10 (Scalar.ofBits (F := Ideal) .f32 0x00000000#32))) pre
    (mulf (broadcast S4096x10 (Scalar.ofBits (F := Ideal) .f32 0x3C23D70A#32)) pre)

/-- The payload is the second product of the hidden layer plus the second bias row: its definition regrouped. -/
theorem k5_pay1_eq (x0 : Vec Ideal S4096x20 .f32) (x1 : Vec Ideal S20x10 .f32) (x2 : Vec Ideal S1x10 .f32) (x3 : Vec Ideal S10x2 .f32) (x4 : Vec Ideal S1x2 .f32) :
    k5_pay1 (F := Ideal) x0 x1 x2 x3 x4
      = addf (matmul dot_S4096x10_S10x2_S4096x2_1_0_0_1_n_n none (truncf .bf16 (hid5 x0 x1 x2) bitsLt_bf16_f32) (truncf .bf16 x3 bitsLt_bf16_f32)
            (constant (F := Ideal) S4096x2 .f32 0x00000000#32))
          (broadcastTo S4096x2 (shapeCast S1x2 (shapeCast S1x2 x4 shapeCasts_S1x2_S1x2) shapeCasts_S1x2_S1x2) broadcasts_S1x2_S4096x2) := rfl

/-- The hidden layer at (g, k). -/
theorem hid5_apply (x0 : Vec Ideal S4096x20 .f32) (x1 : Vec Ideal S20x10 .f32) (x2 : Vec Ideal S1x10 .f32) (g : Fin 4096) (k : Fin 10) :
    hid5 x0 x1 x2 (ix2 g k) = Cert.Spec.leaky ((∑ j : Fin 20, x0 (ix2 g j) * x1 (ix2 j k)) + x2 (ix2 (0 : Fin 1) k)) := by
  unfold hid5
  rw [Cert.Spec.leaky_splat, addf_apply, mm1_apply, row1_apply]
  simp only [truncf_apply, shapeCast_self]

/-- The payload at the output entry (g, o). -/
theorem k5_pay1_apply (x0 : Vec Ideal S4096x20 .f32) (x1 : Vec Ideal S20x10 .f32) (x2 : Vec Ideal S1x10 .f32) (x3 : Vec Ideal S10x2 .f32) (x4 : Vec Ideal S1x2 .f32)
    (g : Fin 4096) (o : Fin 2) :
    k5_pay1 (F := Ideal) x0 x1 x2 x3 x4 (ix2 g o)
      = (∑ k : Fin 10, Cert.Spec.leaky ((∑ j : Fin 20, x0 (ix2 g j) * x1 (ix2 j k)) + x2 (ix2 (0 : Fin 1) k)) * x3 (ix2 k o)) + x4 (ix2 (0 : Fin 1) o) := by
  rw [k5_pay1_eq, addf_apply, mm2_apply, row2_apply]
  simp only [truncf_apply, hid5_apply]

end Cert.KernelIdeal.HandValue

end
-- ==== Proof.KV.Val5.lean ====
/- The MLP head's output array after its region, in closed form.

   The region has one grid point and every window's block is its whole array, so each input block is the array
   itself as the region finds it, the body's one store fills the whole output buffer, and the one write-back puts
   that buffer over the whole output array. The output array therefore ends holding the body's payload of the five
   input arrays, which at entry (g, o) is (∑ k, leaky((∑ j, G[g,j]·W1[j,k]) + B1[0,k]) · W2[k,o]) + B2[0,o]. -/
import proofs.«108927_j51273319579928_2_alg».proof.Proof.KI.Reg5
import proofs.«108927_j51273319579928_2_alg».proof.Proof.KV.Pay5

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- Every window's block index is zero on both axes at every point: each block is its whole array. -/
theorem idx_facts5 : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The five input arrays as the region finds them. -/
abbrev arr5_0 (c : Dev nD) : S4096x20.Idx → Ideal .f32 := V c (Pipeline.arrRef spec5 0)
abbrev arr5_1 (c : Dev nD) : S20x10.Idx → Ideal .f32 := V c (Pipeline.arrRef spec5 1)
abbrev arr5_2 (c : Dev nD) : S1x10.Idx → Ideal .f32 := V c (Pipeline.arrRef spec5 2)
abbrev arr5_3 (c : Dev nD) : S10x2.Idx → Ideal .f32 := V c (Pipeline.arrRef spec5 3)
abbrev arr5_4 (c : Dev nD) : S1x2.Idx → Ideal .f32 := V c (Pipeline.arrRef spec5 4)

/-- Each input window's block at the point is its whole array. -/
theorem iblk5_0_eq (c : Dev nD) (t : Fin cfg5.N) : (iblk5 V c 0 t : S4096x20.Idx → Ideal .f32) = arr5_0 V c := by
  obtain ⟨e00, e01, -⟩ := idx_facts5 t
  funext j
  show V c (Pipeline.arrRef spec5 0) (((cfg5.win 0).blk t).view.emb j) = V c (Pipeline.arrRef spec5 0) j
  refine congrArg _ (funext fun a => Fin.ext ?_)
  match a with
  | ⟨0, _⟩ => show win5_0.index t (0 : Fin 2) * 4096 + 1 * (j 0).val = (j 0).val; omega
  | ⟨1, _⟩ => show win5_0.index t (1 : Fin 2) * 20 + 1 * (j 1).val = (j 1).val; omega

theorem iblk5_1_eq (c : Dev nD) (t : Fin cfg5.N) : (iblk5 V c 1 t : S20x10.Idx → Ideal .f32) = arr5_1 V c := by
  obtain ⟨-, -, e10, e11, -⟩ := idx_facts5 t
  funext j
  show V c (Pipeline.arrRef spec5 1) (((cfg5.win 1).blk t).view.emb j) = V c (Pipeline.arrRef spec5 1) j
  refine congrArg _ (funext fun a => Fin.ext ?_)
  match a with
  | ⟨0, _⟩ => show win5_1.index t (0 : Fin 2) * 20 + 1 * (j 0).val = (j 0).val; omega
  | ⟨1, _⟩ => show win5_1.index t (1 : Fin 2) * 10 + 1 * (j 1).val = (j 1).val; omega

theorem iblk5_2_eq (c : Dev nD) (t : Fin cfg5.N) : (iblk5 V c 2 t : S1x10.Idx → Ideal .f32) = arr5_2 V c := by
  obtain ⟨-, -, -, -, e20, e21, -⟩ := idx_facts5 t
  funext j
  show V c (Pipeline.arrRef spec5 2) (((cfg5.win 2).blk t).view.emb j) = V c (Pipeline.arrRef spec5 2) j
  refine congrArg _ (funext fun a => Fin.ext ?_)
  match a with
  | ⟨0, _⟩ => show win5_2.index t (0 : Fin 2) * 1 + 1 * (j 0).val = (j 0).val; omega
  | ⟨1, _⟩ => show win5_2.index t (1 : Fin 2) * 10 + 1 * (j 1).val = (j 1).val; omega

theorem iblk5_3_eq (c : Dev nD) (t : Fin cfg5.N) : (iblk5 V c 3 t : S10x2.Idx → Ideal .f32) = arr5_3 V c := by
  obtain ⟨-, -, -, -, -, -, e30, e31, -⟩ := idx_facts5 t
  funext j
  show V c (Pipeline.arrRef spec5 3) (((cfg5.win 3).blk t).view.emb j) = V c (Pipeline.arrRef spec5 3) j
  refine congrArg _ (funext fun a => Fin.ext ?_)
  match a with
  | ⟨0, _⟩ => show win5_3.index t (0 : Fin 2) * 10 + 1 * (j 0).val = (j 0).val; omega
  | ⟨1, _⟩ => show win5_3.index t (1 : Fin 2) * 2 + 1 * (j 1).val = (j 1).val; omega

theorem iblk5_4_eq (c : Dev nD) (t : Fin cfg5.N) : (iblk5 V c 4 t : S1x2.Idx → Ideal .f32) = arr5_4 V c := by
  obtain ⟨-, -, -, -, -, -, -, -, e40, e41, -⟩ := idx_facts5 t
  funext j
  show V c (Pipeline.arrRef spec5 4) (((cfg5.win 4).blk t).view.emb j) = V c (Pipeline.arrRef spec5 4) j
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 2 + 1 * (j 1).val = (j 1).val; omega

/-- What the output array ends holding: the body's payload of the five input arrays. -/
def G5 (c : Dev nD) : S4096x2.Idx → Ideal .f32 :=
  k5_pay1 (F := Ideal) (arr5_0 V c) (arr5_1 V c) (arr5_2 V c) (arr5_3 V c) (arr5_4 V c)

/-- What the point writes back is the block of `G5` it covers (the whole of it). -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S4096x20) hz5, View.ld_unit_zero (S := S20x10) hz5, View.ld_unit_zero (S := S1x10) hz5,
    View.ld_unit_zero (S := S10x2) hz5, View.ld_unit_zero (S := S1x2) hz5]
  rw [iblk5_0_eq, iblk5_1_eq, iblk5_2_eq, iblk5_3_eq, iblk5_4_eq]
  obtain ⟨-, -, -, -, -, -, -, -, -, -, e50, e51⟩ := idx_facts5 t
  funext j
  show G5 V c j = G5 V c (((cfg5.win 5).blk t).view.emb j)
  refine congrArg _ (funext fun a => Fin.ext ?_)
  match a with
  | ⟨0, _⟩ => show (j 0).val = win5_5.index t (0 : Fin 2) * 4096 + 1 * (j 0).val; omega
  | ⟨1, _⟩ => show (j 1).val = win5_5.index t (1 : Fin 2) * 2 + 1 * (j 1).val; omega

/-- An index of the output array is in the point's block iff each coordinate is in the block's range on its axis. -/
theorem mem_blk5 (t : Fin cfg5.N) (i : S4096x2.Idx) :
    i ∈ ((cfg5.win 5).blk t).view.set ↔ ∀ a : Fin 2, win5_5.index t a * S4096x2.size a ≤ (i a).val ∧ (i a).val < win5_5.index t a * S4096x2.size a + S4096x2.size a := by
  show i ∈ ((View.whole main_v59).slice (win5_5.rect t)).set ↔ _
  rw [View.set_slice_whole, Rect.mem_set_unit]
  exact Iff.rfl

/-- The one point's block covers the whole output array. -/
theorem cover5 (i : S4096x2.Idx) : ∃ t : Fin cfg5.N, (cfg5.win 5).flush t = true ∧ i ∈ ((cfg5.win 5).blk t).view.set := by
  refine ⟨t5_0, flush5_5 t5_0, ?_⟩
  obtain ⟨-, -, -, -, -, -, -, -, -, -, e50, e51⟩ := idx_facts5 t5_0
  rw [mem_blk5]
  intro a
  match a with
  | ⟨0, _⟩ => show win5_5.index t5_0 (0 : Fin 2) * 4096 ≤ (i 0).val ∧ (i 0).val < win5_5.index t5_0 (0 : Fin 2) * 4096 + 4096; have := idx2_lt0 i; omega
  | ⟨1, _⟩ => show win5_5.index t5_0 (1 : Fin 2) * 2 ≤ (i 1).val ∧ (i 1).val < win5_5.index t5_0 (1 : Fin 2) * 2 + 2; have := idx2_lt1 i; omega

/-- The output array after the region: the payload of the five input arrays. -/
theorem final5 (c : Dev nD) : (dat5 V c).arrAt 5 cfg5.N = G5 V c :=
  (dat5 V c).arrAt_eq_of_cover 5 (G5 V c) (fun t _ => flushed5_eq V c t) (cover5)

/-- The output array after the region at entry (g, o), in closed form. -/
theorem val5 (c : Dev nD) (g : Fin 4096) (o : Fin 2) :
    (dat5 (F := Ideal) V c).arrAt 5 cfg5.N (ix2 g o)
      = (∑ k : Fin 10, Cert.Spec.leaky ((∑ j : Fin 20, arr5_0 V c (ix2 g j) * arr5_1 V c (ix2 j k)) + arr5_2 V c (ix2 (0 : Fin 1) k)) * arr5_3 V c (ix2 k o))
        + arr5_4 V c (ix2 (0 : Fin 1) o) := by
  rw [final5]
  exact k5_pay1_apply (arr5_0 V c) (arr5_1 V c) (arr5_2 V c) (arr5_3 V c) (arr5_4 V c) g o

end Cert.KernelIdeal.HandValue

end
-- ==== Proof.KV.Ref5.lean ====
/- The reference's MLP head read at one output entry.

   The reference computes the head on the host in thirteen operations: a matrix product of the pooled features with the
   first weights, the first bias (a vector of 10) laid out as a row and repeated down the 4096 rows, their sum, the
   leaky-relu written as a comparison with a zero splat, a product with a slope splat and a select, a second matrix
   product with the second weights, the second bias (a vector of 2) laid out and repeated likewise, and the last sum.
   Read entry by entry the last stage at (g, o) is
     (∑ k, leaky((∑ j, P[g,j]·W1[j,k]) + b1[k]) · W2[k,o]) + b2[o],
   with P the pooled-features stage, whatever it holds. -/
import proofs.«108927_j51273319579928_2_alg».proof.Proof.GenP.ReferenceIdeal.Read
import proofs.«108927_j51273319579928_2_alg».proof.Proof.Spec

noncomputable section

namespace Cert.KernelIdeal.Hand

open Cert.ReferenceIdeal Cert.ReferenceIdeal.Gen Cert.ReferenceIdeal.Read
open Idealize.ShloMosaic Idealize.ShloMosaic.ValueIdx

variable (x0 : (⟨S253952x6, .f32⟩ : BufTy).Contents (Elt Ideal)) (x1 : (⟨S2x4063232, .i32⟩ : BufTy).Contents (Elt Ideal))
  (x2 : (⟨S4063232, .f32⟩ : BufTy).Contents (Elt Ideal)) (x3 : (⟨S253952, .i32⟩ : BufTy).Contents (Elt Ideal))
  (x4 : (⟨S6x32, .f32⟩ : BufTy).Contents (Elt Ideal)) (x5 : (⟨S32, .f32⟩ : BufTy).Contents (Elt Ideal))
  (x6 : (⟨S32x20, .f32⟩ : BufTy).Contents (Elt Ideal)) (x7 x8 x9 : (⟨S20, .f32⟩ : BufTy).Contents (Elt Ideal))
  (x10 : (⟨S20x10, .f32⟩ : BufTy).Contents (Elt Ideal)) (x11 : (⟨S10, .f32⟩ : BufTy).Contents (Elt Ideal))
  (x12 : (⟨S10x2, .f32⟩ : BufTy).Contents (Elt Ideal)) (x13 : (⟨S2, .f32⟩ : BufTy).Contents (Elt Ideal))

/-- The reference's hidden layer (the select stage) at (g, k): leaky-relu of the first product plus the first bias. -/
theorem ref5_hidden (g : Fin 4096) (k : Fin 10) :
    val_main_v84 (F := Ideal) x0 x1 x2 x3 x4 x5 x6 x7 x8 x9 x10 x11 (ix2 g k)
      = Cert.Spec.leaky ((∑ j : Fin 20, val_main_v75 (F := Ideal) x0 x1 x2 x3 x4 x5 x6 x7 x8 x9 (ix2 g j) * x10 (ix2 j k)) + x11 (ix1 k)) := by
  have hz : val_main_v80 (F := Ideal) (ix2 g k) = Ideal.ofBits .f32 0x00000000#32 := by rw [val_main_v80_apply]; rfl
  have ha : val_main_v82 (F := Ideal) (ix2 g k) = Ideal.ofBits .f32 0x3C23D70A#32 := by rw [val_main_v82_apply]; rfl
  have e := Cert.Spec.leaky_of_entries S4096x10 (val_main_v79 (F := Ideal) x0 x1 x2 x3 x4 x5 x6 x7 x8 x9 x10 x11) (val_main_v80 (F := Ideal))
    (val_main_v82 (F := Ideal)) (ix2 g k) hz ha
  refine Eq.trans ?_ (e.trans ?_)
  · rfl
  · refine congrArg Cert.Spec.leaky ?_
    rw [val_main_v79_apply, val_main_v76_apply, val_main_v78_apply, val_main_v77_apply]
    have el : ∀ j : Fin 20, lidx_main_v76 (ix2 g k) j = ix2 g j := fun j => funext fun a => Fin.ext (by
      match a with | ⟨0, _⟩ => rfl | ⟨1, _⟩ => rfl)
    have er : ∀ j : Fin 20, ridx_main_v76 (ix2 g k) j = ix2 j k := fun j => funext fun a => Fin.ext (by
      match a with | ⟨0, _⟩ => rfl | ⟨1, _⟩ => rfl)
    have eb : idx_main_v77 (idx_main_v78 (ix2 g k)) = ix1 k := funext fun a => Fin.ext (by
      match a with | ⟨0, _⟩ => rfl)
    simp only [el, er, eb]
    rfl

/-- The reference's last stage at (g, o). -/
theorem ref5_apply (g : Fin 4096) (o : Fin 2) :
    val_main_v88 (F := Ideal) x0 x1 x2 x3 x4 x5 x6 x7 x8 x9 x10 x11 x12 x13 (ix2 g o)
      = (∑ k : Fin 10, Cert.Spec.leaky ((∑ j : Fin 20, val_main_v75 (F := Ideal) x0 x1 x2 x3 x4 x5 x6 x7 x8 x9 (ix2 g j) * x10 (ix2 j k)) + x11 (ix1 k)) * x12 (ix2 k o))
        + x13 (ix1 o) := by
  rw [val_main_v88_apply, val_main_v85_apply, val_main_v87_apply, val_main_v86_apply]
  have el : ∀ k : Fin 10, lidx_main_v85 (ix2 g o) k = ix2 g k := fun k => funext fun a => Fin.ext (by
    match a with | ⟨0, _⟩ => rfl | ⟨1, _⟩ => rfl)
  have er : ∀ k : Fin 10, ridx_main_v85 (ix2 g o) k = ix2 k o := fun k => funext fun a => Fin.ext (by
    match a with | ⟨0, _⟩ => rfl | ⟨1, _⟩ => rfl)
  have eb : idx_main_v86 (idx_main_v87 (ix2 g o)) = ix1 o := funext fun a => Fin.ext (by
    match a with | ⟨0, _⟩ => rfl)
  simp only [el, er, eb, ref5_hidden]
  rfl

end Cert.KernelIdeal.Hand

end
-- ==== Proof.KV.Match5.lean ====
/- The MLP head's region meets the reference's last stage.

   The region's output array, in closed form over the arrays the region finds in its five input windows, and the
   reference's last stage, read entry by entry, are the same expression
     (∑ k, leaky((∑ j, P[g,j]·W1[j,k]) + b1[k]) · W2[k,o]) + b2[o]
   once the windows are known to hold: the pooled features P, the two weight matrices as they are, and the two bias
   vectors laid out as rows. Those five facts are hypotheses here; the entry contents stay abstract. -/
import proofs.«108927_j51273319579928_2_alg».proof.Proof.KV.Val5
import proofs.«108927_j51273319579928_2_alg».proof.Proof.KV.Ref5

set_option maxRecDepth 16384

noncomputable section

namespace Cert.KernelIdeal.Hand

open Cert.KernelIdeal Cert.KernelIdeal.Gen Cert.KernelIdeal.HandValue
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The region's output array at (g, o), when its five input windows' arrays hold: any features `P`, the weights `w1`,
    `w2`, and in their one row the bias vectors `b1`, `b2`. -/
theorem kernel5_closed (c : Dev nD) (P : S4096x20.Idx → Ideal .f32) (w1 : S20x10.Idx → Ideal .f32)
    (b1 : (⟨1, ![10]⟩ : Shape).Idx → Ideal .f32) (w2 : S10x2.Idx → Ideal .f32) (b2 : (⟨1, ![2]⟩ : Shape).Idx → Ideal .f32)
    (h0 : arr5_0 V c = P) (h1 : arr5_1 V c = w1) (h2 : ∀ k : Fin 10, arr5_2 V c (ix2 (0 : Fin 1) k) = b1 (ix1 k))
    (h3 : arr5_3 V c = w2) (h4 : ∀ o : Fin 2, arr5_4 V c (ix2 (0 : Fin 1) o) = b2 (ix1 o)) (g : Fin 4096) (o : Fin 2) :
    (dat5 (F := Ideal) V c).arrAt 5 cfg5.N (ix2 g o)
      = (∑ k : Fin 10, Cert.Spec.leaky ((∑ j : Fin 20, P (ix2 g j) * w1 (ix2 j k)) + b1 (ix1 k)) * w2 (ix2 k o)) + b2 (ix1 o) := by
  rw [val5, h0, h1, h3, h4 o]
  simp only [h2]

/-- The region's output array IS the reference's last stage, when the windows hold the reference's pooled-features
    stage, its two weight arguments, and its two bias arguments as rows. -/
theorem match5 (c : Dev nD)
    (x0 : (⟨Cert.ReferenceIdeal.S253952x6, .f32⟩ : BufTy).Contents (Elt Ideal)) (x1 : (⟨Cert.ReferenceIdeal.S2x4063232, .i32⟩ : BufTy).Contents (Elt Ideal))
    (x2 : (⟨Cert.ReferenceIdeal.S4063232, .f32⟩ : BufTy).Contents (Elt Ideal)) (x3 : (⟨Cert.ReferenceIdeal.S253952, .i32⟩ : BufTy).Contents (Elt Ideal))
    (x4 : (⟨Cert.ReferenceIdeal.S6x32, .f32⟩ : BufTy).Contents (Elt Ideal)) (x5 : (⟨Cert.ReferenceIdeal.S32, .f32⟩ : BufTy).Contents (Elt Ideal))
    (x6 : (⟨Cert.ReferenceIdeal.S32x20, .f32⟩ : BufTy).Contents (Elt Ideal)) (x7 x8 x9 : (⟨Cert.ReferenceIdeal.S20, .f32⟩ : BufTy).Contents (Elt Ideal))
    (x10 : (⟨Cert.ReferenceIdeal.S20x10, .f32⟩ : BufTy).Contents (Elt Ideal)) (x11 : (⟨Cert.ReferenceIdeal.S10, .f32⟩ : BufTy).Contents (Elt Ideal))
    (x12 : (⟨Cert.ReferenceIdeal.S10x2, .f32⟩ : BufTy).Contents (Elt Ideal)) (x13 : (⟨Cert.ReferenceIdeal.S2, .f32⟩ : BufTy).Contents (Elt Ideal))
    (h0 : arr5_0 V c = Cert.ReferenceIdeal.Read.val_main_v75 (F := Ideal) x0 x1 x2 x3 x4 x5 x6 x7 x8 x9)
    (h1 : arr5_1 V c = x10) (h2 : ∀ k : Fin 10, arr5_2 V c (ix2 (0 : Fin 1) k) = x11 (ix1 k))
    (h3 : arr5_3 V c = x12) (h4 : ∀ o : Fin 2, arr5_4 V c (ix2 (0 : Fin 1) o) = x13 (ix1 o)) :
    ((dat5 (F := Ideal) V c).arrAt 5 cfg5.N : S4096x2.Idx → Ideal .f32)
      = Cert.ReferenceIdeal.Read.val_main_v88 (F := Ideal) x0 x1 x2 x3 x4 x5 x6 x7 x8 x9 x10 x11 x12 x13 := by
  funext i
  obtain ⟨g, o, rfl⟩ : ∃ (g : Fin 4096) (o : Fin 2), i = ix2 g o := ⟨i 0, i 1, eq_ix2 i⟩
  exact (kernel5_closed V c _ x10 x11 x12 x13 h0 h1 h2 h3 h4 g o).trans
    (ref5_apply x0 x1 x2 x3 x4 x5 x6 x7 x8 x9 x10 x11 x12 x13 g o).symm

end Cert.KernelIdeal.Hand

end
-- ==== Proof.Ref.Algebra.lean ====
/-
  The algebra that joins the two batch-norm forms, and the notion "this extended real is a real number".

  Both programs normalise the columns of one array `v` (rows `k`, one column fixed here) with the column mean
  `μ = (Σ v) / n` and then apply an affine map with a scale `γ` and an offset `β`:
    * two-pass form:  `(v i - μ) * rsqrt (var + ε) * γ + β`   with `var  = (Σ (v k - μ)²) / n`;
    * one-pass form:  `v i * s + (β - μ * s)`, `s = γ * rsqrt (var' + ε)` with `var' = (Σ v k²) / n - μ * μ`.
  Over the real numbers `var = var'` (expand the square, `Σ μ = n μ`), so the two reciprocal square roots are one
  number `ρ`, and `(v i - μ) ρ γ + β = v i (γ ρ) + (β - μ (γ ρ))` by distributivity. On the extended reals
  distributivity and cancellation fail at the infinities, so the statement is made for entries that are real
  numbers; then every intermediate value is a real number, the argument of the reciprocal square root is
  positive (`var ≥ 0` as a mean of squares, `ε > 0`), and the identity is the real one under the coercion.
-/
import Idealize.ShloMosaic.PureOps.Ideal.Laws

noncomputable section

namespace Cert.Alg

open Idealize.ShloMosaic
open scoped BigOperators

/-! ## Real numbers among the extended reals -/

/-- An extended real that is a real number (neither infinity). -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- An extended real strictly between the infinities is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- The coercion of a finite real sum is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real numbers is a real number. -/
theorem IsReal.sum {ι : Type} (s : Finset ι) (f : ι → EReal) (h : ∀ k ∈ s, IsReal (f k)) :
    IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

/-- The quotient of a real number by a real divisor that is not zero is a real number. -/
theorem IsReal.div_coe {x : EReal} (hx : IsReal x) {y : ℝ} (hy : y ≠ 0) : IsReal (Ideal.div x (y : EReal)) := by
  rw [Ideal.div_coe hy]; exact hx.mul (IsReal.coe _)

/-- The reciprocal square root of a positive real number is a real number. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## The identity over the real numbers -/

section Real

variable {ι : Type} [Fintype ι]

/-- The mean of the squared deviations from the mean is the mean of the squares minus the squared mean. -/
theorem var_real (w : ι → ℝ) (n : ℝ) (hn : n ≠ 0) (hcard : (Fintype.card ι : ℝ) = n) :
    (∑ k, (w k - (∑ k, w k) * (1 / n)) * (w k - (∑ k, w k) * (1 / n))) * (1 / n)
      = (∑ k, w k * w k) * (1 / n) - (∑ k, w k) * (1 / n) * ((∑ k, w k) * (1 / n)) := by
  set S : ℝ := ∑ k, w k with hS
  have h1 : ∀ k, (w k - S * (1 / n)) * (w k - S * (1 / n))
      = w k * w k - 2 * (S * (1 / n)) * w k + S * (1 / n) * (S * (1 / n)) := fun k => by ring
  simp only [h1, Finset.sum_add_distrib, Finset.sum_sub_distrib, ← Finset.mul_sum, Finset.sum_const,
    Finset.card_univ, nsmul_eq_mul, hcard, ← hS]
  field_simp
  ring

/-- The mean of the squared deviations is not negative. -/
theorem var_real_nonneg (w : ι → ℝ) (n : ℝ) (hn : 0 < n) (μ : ℝ) :
    0 ≤ (∑ k, (w k - μ) * (w k - μ)) * (1 / n) :=
  mul_nonneg (Finset.sum_nonneg fun k _ => mul_self_nonneg _) (by positivity)

end Real

/-! ## The identity on the extended reals, for real entries -/

section EReal

variable {ι : Type} [Fintype ι]

/-- The column mean of real entries, read through the quotient of the extended reals. -/
theorem mean_coe (w : ι → ℝ) {n : ℝ} (hn : n ≠ 0) :
    Ideal.div (∑ k, (w k : EReal)) (n : EReal) = (((∑ k, w k) * (1 / n) : ℝ) : EReal) := by
  rw [Ideal.div_coe hn, ← coe_sum, ← EReal.coe_mul]

/-- The mean of the squares of real entries. -/
theorem meansq_coe (w : ι → ℝ) {n : ℝ} (hn : n ≠ 0) :
    Ideal.div (∑ k, (w k : EReal) * (w k : EReal)) (n : EReal) = (((∑ k, w k * w k) * (1 / n) : ℝ) : EReal) := by
  simp only [← EReal.coe_mul]
  rw [Ideal.div_coe hn, ← coe_sum, ← EReal.coe_mul]

/-- The mean of the squared deviations of real entries from a real centre. -/
theorem meandev_coe (w : ι → ℝ) (μ : ℝ) {n : ℝ} (hn : n ≠ 0) :
    Ideal.div (∑ k, ((w k : EReal) - (μ : EReal)) * ((w k : EReal) - (μ : EReal))) (n : EReal)
      = (((∑ k, (w k - μ) * (w k - μ)) * (1 / n) : ℝ) : EReal) := by
  simp only [← EReal.coe_sub, ← EReal.coe_mul]
  rw [Ideal.div_coe hn, ← coe_sum, ← EReal.coe_mul]

/-- **The two variances are one number.** For real entries, the two-pass variance (mean of squared deviations
    from the mean) and the one-pass variance (mean of squares minus squared mean) are the same extended real, and
    it is a real number that is not negative. `z` is the sums' initial value (zero), `S1`, `S2` the one-pass form's
    column sums. -/
theorem var_forms_agree (v : ι → EReal) (z Nw S1 S2 : EReal)
    (hv : ∀ k, IsReal (v k)) (hz : z = 0)
    (hN : Nw = ((Fintype.card ι : ℝ) : EReal)) (hι : Fintype.card ι ≠ 0)
    (hS1 : S1 = ∑ k, v k) (hS2 : S2 = ∑ k, v k * v k) :
    ∃ σ : ℝ, 0 ≤ σ ∧
      Ideal.div (z + ∑ k, (v k - Ideal.div (z + ∑ k, v k) Nw) * (v k - Ideal.div (z + ∑ k, v k) Nw)) Nw = (σ : EReal) ∧
      Ideal.div S2 Nw - Ideal.div S1 Nw * Ideal.div S1 Nw = (σ : EReal) := by
  obtain ⟨w, hw⟩ : ∃ w : ι → ℝ, ∀ k, v k = (w k : EReal) := ⟨fun k => (hv k).choose, fun k => (hv k).choose_spec⟩
  obtain rfl : v = fun k => (w k : EReal) := funext hw
  subst hz hN hS1 hS2
  have hn : (Fintype.card ι : ℝ) ≠ 0 := Nat.cast_ne_zero.mpr hι
  have hnpos : (0 : ℝ) < (Fintype.card ι : ℝ) := Nat.cast_pos.mpr (Nat.pos_of_ne_zero hι)
  refine ⟨(∑ k, (w k - (∑ k, w k) * (1 / (Fintype.card ι : ℝ))) * (w k - (∑ k, w k) * (1 / (Fintype.card ι : ℝ))))
      * (1 / (Fintype.card ι : ℝ)), var_real_nonneg w _ hnpos _, ?_, ?_⟩
  · simp only [zero_add]
    rw [mean_coe w hn, meandev_coe w _ hn]
  · rw [mean_coe w hn, meansq_coe w hn, ← EReal.coe_mul, ← EReal.coe_sub, var_real w _ hn rfl]

/-- **The two batch-norm forms agree.** For real entries `v k`, a real scale `γ` and offset `β`, a count word `Nw`
    denoting the number of rows, and a positive real `εw`: the two-pass form (left) and the one-pass form with a
    folded scale and shift (right) are the same extended real. -/
theorem bn_forms_agree (v : ι → EReal) (γ β z Nw εw S1 S2 : EReal)
    (hv : ∀ k, IsReal (v k)) (hγ : IsReal γ) (hβ : IsReal β) (hz : z = 0)
    (hN : Nw = ((Fintype.card ι : ℝ) : EReal)) (hι : Fintype.card ι ≠ 0)
    (hε : ∃ e : ℝ, 0 < e ∧ εw = (e : EReal))
    (hS1 : S1 = ∑ k, v k) (hS2 : S2 = ∑ k, v k * v k) (i : ι) :
    (v i - Ideal.div (z + ∑ k, v k) Nw)
        * Ideal.rsqrt (Ideal.div (z + ∑ k, (v k - Ideal.div (z + ∑ k, v k) Nw) * (v k - Ideal.div (z + ∑ k, v k) Nw)) Nw + εw)
        * γ + β
      = v i * (γ * Ideal.rsqrt (Ideal.div S2 Nw - Ideal.div S1 Nw * Ideal.div S1 Nw + εw))
        + (β - Ideal.div S1 Nw * (γ * Ideal.rsqrt (Ideal.div S2 Nw - Ideal.div S1 Nw * Ideal.div S1 Nw + εw))) := by
  obtain ⟨σ, hσ, h2, h1⟩ := var_forms_agree v z Nw S1 S2 hv hz hN hι hS1 hS2
  rw [h2, h1]
  obtain ⟨e, he, rfl⟩ := hε
  obtain ⟨g, rfl⟩ := hγ
  obtain ⟨b, rfl⟩ := hβ
  obtain ⟨a, ha⟩ := hv i
  have hn : (Fintype.card ι : ℝ) ≠ 0 := Nat.cast_ne_zero.mpr hι
  obtain ⟨μ, hμ⟩ : IsReal (Ideal.div S1 Nw) := by
    rw [hN, hS1]; exact (IsReal.sum _ _ fun k _ => hv k).div_coe hn
  have hμ' : Ideal.div (z + ∑ k, v k) Nw = (μ : EReal) := by rw [hz, zero_add, ← hS1, hμ]
  rw [hμ', hμ, ha, ← EReal.coe_add, rsqrt_coe_pos (add_pos_of_nonneg_of_pos hσ he)]
  simp only [← EReal.coe_sub, ← EReal.coe_mul, ← EReal.coe_add]
  congr 1
  ring

end EReal

/-! ## The two words of the batch norm -/

/-- The word `0x48780000` is the real number 253952, the number of rows. -/
theorem ofBits_count : Ideal.ofBits .f32 0x48780000#32 = ((253952 : ℝ) : EReal) := by
  simp [Ideal.ofBits, Ideal.ieee, -EReal.coe_mul]; norm_num

/-- The word `0x3727C5AC` (the variance's regulariser, about 1e-5) is a positive real number. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The two batch-norm forms over the 253952 rows, at the programs' words: the sums start from the zero word, the
    divisor is the word of 253952, the regulariser the word `0x3727C5AC`. -/
theorem bn_forms_agree_words (v : Fin 253952 → EReal) (γ β S1 S2 : EReal)
    (hv : ∀ k, IsReal (v k)) (hγ : IsReal γ) (hβ : IsReal β)
    (hS1 : S1 = ∑ k, v k) (hS2 : S2 = ∑ k, v k * v k) (i : Fin 253952) :
    (v i - Ideal.div (Ideal.ofBits .f32 0x00000000#32 + ∑ k, v k) (Ideal.ofBits .f32 0x48780000#32))
        * Ideal.rsqrt (Ideal.div (Ideal.ofBits .f32 0x00000000#32
            + ∑ k, (v k - Ideal.div (Ideal.ofBits .f32 0x00000000#32 + ∑ k, v k) (Ideal.ofBits .f32 0x48780000#32))
                * (v k - Ideal.div (Ideal.ofBits .f32 0x00000000#32 + ∑ k, v k) (Ideal.ofBits .f32 0x48780000#32)))
            (Ideal.ofBits .f32 0x48780000#32) + Ideal.ofBits .f32 0x3727C5AC#32)
        * γ + β
      = v i * (γ * Ideal.rsqrt (Ideal.div S2 (Ideal.ofBits .f32 0x48780000#32)
            - Ideal.div S1 (Ideal.ofBits .f32 0x48780000#32) * Ideal.div S1 (Ideal.ofBits .f32 0x48780000#32)
            + Ideal.ofBits .f32 0x3727C5AC#32))
        + (β - Ideal.div S1 (Ideal.ofBits .f32 0x48780000#32)
            * (γ * Ideal.rsqrt (Ideal.div S2 (Ideal.ofBits .f32 0x48780000#32)
              - Ideal.div S1 (Ideal.ofBits .f32 0x48780000#32) * Ideal.div S1 (Ideal.ofBits .f32 0x48780000#32)
              + Ideal.ofBits .f32 0x3727C5AC#32))) :=
  bn_forms_agree v γ β _ _ _ S1 S2 hv hγ hβ Ideal.ofBits_zero_f32
    (by rw [ofBits_count, Fintype.card_fin]; norm_num) (by rw [Fintype.card_fin]; norm_num) ofBits_eps hS1 hS2 i

/-! ## The one-pass form's folded scale and shift, as functions of the two column sums -/

/-- The folded scale `γ * rsqrt (S2 / n - (S1 / n) * (S1 / n) + ε)` at the programs' words: `S1`, `S2` are a column's sum
    and sum of squares. -/
def bnScale (S1 S2 γ : EReal) : EReal :=
  γ * Ideal.rsqrt (Ideal.div S2 (Ideal.ofBits .f32 0x48780000#32)
      - Ideal.div S1 (Ideal.ofBits .f32 0x48780000#32) * Ideal.div S1 (Ideal.ofBits .f32 0x48780000#32)
      + Ideal.ofBits .f32 0x3727C5AC#32)

/-- The folded shift `β - (S1 / n) * scale`. -/
def bnShift (S1 S2 γ β : EReal) : EReal :=
  β - Ideal.div S1 (Ideal.ofBits .f32 0x48780000#32) * bnScale S1 S2 γ

/-- The two-pass form over the 253952 rows is the one-pass form `v i * scale + shift` with the folded scale and
    shift of the column's sum and sum of squares. -/
theorem bn_twopass_eq_onepass (v : Fin 253952 → EReal) (γ β : EReal)
    (hv : ∀ k, IsReal (v k)) (hγ : IsReal γ) (hβ : IsReal β) (i : Fin 253952) :
    (v i - Ideal.div (Ideal.ofBits .f32 0x00000000#32 + ∑ k, v k) (Ideal.ofBits .f32 0x48780000#32))
        * Ideal.rsqrt (Ideal.div (Ideal.ofBits .f32 0x00000000#32
            + ∑ k, (v k - Ideal.div (Ideal.ofBits .f32 0x00000000#32 + ∑ k, v k) (Ideal.ofBits .f32 0x48780000#32))
                * (v k - Ideal.div (Ideal.ofBits .f32 0x00000000#32 + ∑ k, v k) (Ideal.ofBits .f32 0x48780000#32)))
            (Ideal.ofBits .f32 0x48780000#32) + Ideal.ofBits .f32 0x3727C5AC#32)
        * γ + β
      = v i * bnScale (∑ k, v k) (∑ k, v k * v k) γ + bnShift (∑ k, v k) (∑ k, v k * v k) γ β :=
  bn_forms_agree_words v γ β _ _ hv hγ hβ rfl rfl i

end Cert.Alg

end
-- ==== Proof.Ref.FiniteOps.lean ====
/-
  Which array operations keep every entry a real number.

  An array of extended reals is *real* when none of its entries is an infinity. Layout operations (a broadcast, a
  gather of rows) only move entries, so they keep an array real; so do the pointwise sum, difference and product and a
  pointwise choice between two real arrays. A contraction's entry is a finite sum of products of entries, and an
  accumulating scatter's entry is the operand's entry plus a finite sum of update entries (an update whose position is
  out of range is dropped, and a gather clamps its positions into range, so the integer positions can be anything):
  both keep arrays real. The float words the programs spell (zero, the leaky slope) denote real numbers.
-/
import proofs.«108927_j51273319579928_2_alg».proof.Proof.Ref.Algebra
import Idealize.ShloMosaic.PureOps
import Idealize.ShloMosaic.PureOps.Ideal.Laws

noncomputable section

namespace Cert.Alg

open Idealize.ShloMosaic
open scoped BigOperators

/-- Every entry of the array is a real number. -/
def AllReal {s : Shape} (x : s.Idx → EReal) : Prop := ∀ i, IsReal (x i)

section Ops

variable {s t : Shape} {φ : FTy}

/-- A broadcast reads entries of its operand. -/
theorem AllReal.broadcastInDim {dims : Fin s.rank → Fin t.rank} (h : s.BroadcastsInDim t dims)
    {x : s.Idx → EReal} (hx : AllReal x) : AllReal (broadcastInDim t dims h x) :=
  fun _ => hx _

/-- A gather reads entries of its operand (at positions clamped into range). -/
theorem AllReal.gather {si : Shape} {w : Nat} (d : GatherDims s si t) {x : s.Idx → EReal} (hx : AllReal x)
    (idx : IVec si w) : AllReal (Host.gather d x idx) :=
  fun _ => hx _

theorem AllReal.mulf {x y : FVec Ideal s φ} (hx : AllReal x) (hy : AllReal y) : AllReal (mulf x y) :=
  fun i => (hx i).mul (hy i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

/-- A pointwise choice between two real arrays is real, whatever the mask. -/
theorem AllReal.select (c : IVec s 1) {x y : s.Idx → EReal} (hx : AllReal x) (hy : AllReal y) :
    AllReal (select c x y) := by
  intro i
  show IsReal (Scalar.select (c i) (x i) (y i))
  unfold Scalar.select
  split
  · exact hx i
  · exact hy i

/-- The host's contraction: each entry is a finite sum of products of entries. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- The host's accumulating scatter: each entry is the operand's plus a finite sum of update entries. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := by
  intro i
  show IsReal (Ideal.hostScatterAdd d x idx upd i)
  unfold Ideal.hostScatterAdd
  exact (hx i).add (IsReal.sum _ _ fun j _ => hu j)

end Ops

/-! ## The float words of the layers before the batch norm -/

/-- The zero word denotes the real number zero. -/
theorem isReal_zero_word : IsReal (Ideal.ofBits .f32 0x00000000#32) := by
  rw [Ideal.ofBits_zero_f32]; exact IsReal.zero

/-- The leaky slope's word `0x3C23D70A` (about 0.01) denotes a real number. -/
theorem isReal_slope_word : IsReal (Ideal.ofBits .f32 0x3C23D70A#32) := by
  refine ⟨(10737418 : ℝ) * (2 : ℝ) ^ (-30 : ℤ), ?_⟩
  simp [Ideal.ofBits, Ideal.ieee, -EReal.coe_mul]

/-- A constant array of a word that denotes a real number is real. -/
theorem AllReal.constant {s : Shape} {w : BitVec 32} (hw : IsReal (Ideal.ofBits .f32 w)) :
    AllReal (constant (F := Ideal) s .f32 w) :=
  fun _ => hw

/-! ## The precondition's entry test -/

/-- The word `0x7F800000` denotes plus infinity. -/
theorem ofBits_inf : Ideal.ofBits .f32 0x7F800000#32 = ⊤ := by
  simp [Ideal.ofBits, Ideal.ieee]

/-- **The entry test.** An extended real whose absolute value compares strictly below plus infinity is a real
    number: `max x (-x) < ⊤` excludes `x = ⊤` and, through `-⊥ = ⊤`, also `x = ⊥`. -/
theorem isReal_of_abs_lt_inf {x : EReal}
    (h : Ideal.cmp .olt (max x (-x)) (Ideal.ofBits .f32 0x7F800000#32) = 1#1) : IsReal x := by
  rw [ofBits_inf] at h
  induction x using EReal.rec with
  | bot => exact absurd h (by simp [Ideal.cmp])
  | coe r => exact ⟨r, rfl⟩
  | top => exact absurd h (by simp [Ideal.cmp])

/-- The test on a whole array: if the mask "absolute value below plus infinity" is one at every entry, the array is
    real. The infinity is the word `0x7F800000` broadcast from a scalar. -/
theorem allReal_of_mask {s : Shape} (hb : (⟨0, ![]⟩ : Shape).BroadcastsInDim s (![] : Fin 0 → Fin s.rank))
    (x : FVec Ideal s .f32)
    (h : ∀ i, cmpf .olt (Host.absf x)
      (Idealize.ShloMosaic.broadcastInDim s ![] hb (Idealize.ShloMosaic.constant (F := Ideal) ⟨0, ![]⟩ .f32 0x7F800000#32)) i = 1#1) :
    AllReal x :=
  fun i => isReal_of_abs_lt_inf (h i)

end Cert.Alg

end
-- ==== Proof.Ref.PreReal.lean ====
/-
  What the precondition says: every float argument array is real.

  The precondition is one bit: the conjunction, over the twelve float arguments, of "every entry's absolute value is
  strictly below plus infinity" (each a reduction by `and` of a mask, from the constant one). When that bit is one,
  every conjunct is one, every mask is one at every entry, and the entry test makes each entry a real number. The two
  integer arguments are not constrained.
-/
import proofs.«108927_j51273319579928_2_alg».proof.Pre_finite_inputs
import proofs.«108927_j51273319579928_2_alg».proof.Proof.Ref.FiniteOps
import Idealize.ShloMosaic.Lib.ReduceAll
import Idealize.ShloMosaic.Lib.ValueIdx

noncomputable section

namespace Cert.Alg

open Idealize.ShloMosaic Cert.Pre_finite_inputs

variable [Facts]

/-- A rank-zero array has one index. -/
instance subsingleton_scalar_idx : Subsingleton (⟨0, ![]⟩ : Shape).Idx := ⟨fun _ _ => funext fun d => d.elim0⟩

/-- **The precondition read back.** If the precondition's bit is one, all twelve float arguments are real arrays
    (in the order of the program's arguments 0, 2, 4, 5, …, 13; arguments 1 and 3 are integer arrays). -/
theorem inputs_real
    (a0 : FVec Ideal S253952x6 .f32) (a1 : IVec S2x4063232 32) (a2 : FVec Ideal S4063232 .f32) (a3 : IVec S253952 32)
    (a4 : FVec Ideal S6x32 .f32) (a5 : FVec Ideal S32 .f32) (a6 : FVec Ideal S32x20 .f32) (a7 : FVec Ideal S20 .f32)
    (a8 : FVec Ideal S20 .f32) (a9 : FVec Ideal S20 .f32) (a10 : FVec Ideal S20x10 .f32) (a11 : FVec Ideal S10 .f32)
    (a12 : FVec Ideal S10x2 .f32) (a13 : FVec Ideal S2 .f32)
    (h : fn (F := Ideal) a0 a1 a2 a3 a4 a5 a6 a7 a8 a9 a10 a11 a12 a13 = fun _ => 1#1) :
    AllReal a0 ∧ AllReal a2 ∧ AllReal a4 ∧ AllReal a5 ∧ AllReal a6 ∧ AllReal a7 ∧ AllReal a8 ∧ AllReal a9
      ∧ AllReal a10 ∧ AllReal a11 ∧ AllReal a12 ∧ AllReal a13 := by
  have h0 := congrFun h ValueIdx.ix0
  unfold fn fn_part1 fn_part2 fn_part3 at h0
  dsimp only [andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e2⟩ := IntOp.andi_eq_one.1 h0
  exact ⟨allReal_of_mask _ a0 (Host.reduce_andi_all _ _ _ _ _ e0),
    allReal_of_mask _ a2 (Host.reduce_andi_all _ _ _ _ _ e2),
    allReal_of_mask _ a4 (Host.reduce_andi_all _ _ _ _ _ e4),
    allReal_of_mask _ a5 (Host.reduce_andi_all _ _ _ _ _ e5),
    allReal_of_mask _ a6 (Host.reduce_andi_all _ _ _ _ _ e6),
    allReal_of_mask _ a7 (Host.reduce_andi_all _ _ _ _ _ e7),
    allReal_of_mask _ a8 (Host.reduce_andi_all _ _ _ _ _ e8),
    allReal_of_mask _ a9 (Host.reduce_andi_all _ _ _ _ _ e9),
    allReal_of_mask _ a10 (Host.reduce_andi_all _ _ _ _ _ e10),
    allReal_of_mask _ a11 (Host.reduce_andi_all _ _ _ _ _ e11),
    allReal_of_mask _ a12 (Host.reduce_andi_all _ _ _ _ _ e12),
    allReal_of_mask _ a13 (Host.reduce_andi_all _ _ _ _ _ e13)⟩

end Cert.Alg

end
-- ==== Proof.Ref.Finite.lean ====
/-
  Every entry of the reference's second graph-convolution output is a real number.

  From real float arguments, stage by stage: `x · W1` is a contraction of real arrays; its rows gathered at (clamped)
  source positions and scaled by the real edge weights are real; their accumulating scatter at the destination
  positions into zeros is real; adding the bias and the leaky choice (between the value and a real multiple of it) keep
  it real; the same again for the second layer with `W2` and its bias. The integer arrays (edge ends) are arbitrary:
  a gather clamps a position into range and a scatter drops an update whose position is out of range, so whatever they
  hold every entry stays a finite sum of products of real numbers. The result is the array the batch norm reads.
-/
import proofs.«108927_j51273319579928_2_alg».proof.Proof.GenP.ReferenceIdeal.Read
import proofs.«108927_j51273319579928_2_alg».proof.Proof.Ref.FiniteOps

noncomputable section

namespace Cert.Ref

open Cert.ReferenceIdeal Cert.ReferenceIdeal.Gen Cert.ReferenceIdeal.Read Idealize.ShloMosaic Cert.Alg

variable (x0 : (⟨S253952x6, .f32⟩ : BufTy).Contents (Elt Ideal)) (x1 : (⟨S2x4063232, .i32⟩ : BufTy).Contents (Elt Ideal))
  (x2 : (⟨S4063232, .f32⟩ : BufTy).Contents (Elt Ideal)) (x4 : (⟨S6x32, .f32⟩ : BufTy).Contents (Elt Ideal))
  (x5 : (⟨S32, .f32⟩ : BufTy).Contents (Elt Ideal)) (x6 : (⟨S32x20, .f32⟩ : BufTy).Contents (Elt Ideal))
  (x7 : (⟨S20, .f32⟩ : BufTy).Contents (Elt Ideal))

/-- `x · W1`. -/
theorem real_v4 (h0 : AllReal x0) (h4 : AllReal x4) : AllReal (val_main_v4 (F := Ideal) x0 x4) := by
  unfold val_main_v4
  exact AllReal.dotGeneral _ _ h0 h4

/-- The first layer's messages: gathered rows times edge weights. -/
theorem real_v14 (h0 : AllReal x0) (h2 : AllReal x2) (h4 : AllReal x4) :
    AllReal (val_main_v14 (F := Ideal) x0 x1 x2 x4) := by
  unfold val_main_v14 val_main_v11 val_main_v13 val_main_v12
  exact ((real_v4 x0 x4 h0 h4).gather _ _).mulf ((h2.broadcastInDim _).broadcastInDim _)

/-- The first layer's aggregate: the messages scattered into zeros. -/
theorem real_v17 (h0 : AllReal x0) (h2 : AllReal x2) (h4 : AllReal x4) :
    AllReal (val_main_v17 (F := Ideal) x0 x1 x2 x4) := by
  unfold val_main_v17 val_main_v15 val_main_cst
  exact AllReal.scatterAdd _ ((AllReal.constant isReal_zero_word).broadcastInDim _) _ (real_v14 x0 x1 x2 x4 h0 h2 h4)

/-- Plus the bias. -/
theorem real_v20 (h0 : AllReal x0) (h2 : AllReal x2) (h4 : AllReal x4) (h5 : AllReal x5) :
    AllReal (val_main_v20 (F := Ideal) x0 x1 x2 x4 x5) := by
  unfold val_main_v20 val_main_v19 val_main_v18
  exact (real_v17 x0 x1 x2 x4 h0 h2 h4).addf ((h5.broadcastInDim _).broadcastInDim _)

/-- The first layer's output: the leaky choice. -/
theorem real_v25 (h0 : AllReal x0) (h2 : AllReal x2) (h4 : AllReal x4) (h5 : AllReal x5) :
    AllReal (val_main_v25 (F := Ideal) x0 x1 x2 x4 x5) := by
  have h20 := real_v20 x0 x1 x2 x4 x5 h0 h2 h4 h5
  unfold val_main_v25 val_main_v24 val_main_v23 val_main_cst_2
  exact AllReal.select _ h20 (((AllReal.constant isReal_slope_word).broadcastInDim _).mulf h20)

/-- Times `W2`. -/
theorem real_v26 (h0 : AllReal x0) (h2 : AllReal x2) (h4 : AllReal x4) (h5 : AllReal x5) (h6 : AllReal x6) :
    AllReal (val_main_v26 (F := Ideal) x0 x1 x2 x4 x5 x6) := by
  unfold val_main_v26
  exact AllReal.dotGeneral _ _ (real_v25 x0 x1 x2 x4 x5 h0 h2 h4 h5) h6

/-- The second layer's messages. -/
theorem real_v36 (h0 : AllReal x0) (h2 : AllReal x2) (h4 : AllReal x4) (h5 : AllReal x5) (h6 : AllReal x6) :
    AllReal (val_main_v36 (F := Ideal) x0 x1 x2 x4 x5 x6) := by
  unfold val_main_v36 val_main_v33 val_main_v35 val_main_v34
  exact ((real_v26 x0 x1 x2 x4 x5 x6 h0 h2 h4 h5 h6).gather _ _).mulf ((h2.broadcastInDim _).broadcastInDim _)

/-- The second layer's aggregate. -/
theorem real_v39 (h0 : AllReal x0) (h2 : AllReal x2) (h4 : AllReal x4) (h5 : AllReal x5) (h6 : AllReal x6) :
    AllReal (val_main_v39 (F := Ideal) x0 x1 x2 x4 x5 x6) := by
  unfold val_main_v39 val_main_v37 val_main_cst_5
  exact AllReal.scatterAdd _ ((AllReal.constant isReal_zero_word).broadcastInDim _) _
    (real_v36 x0 x1 x2 x4 x5 x6 h0 h2 h4 h5 h6)

/-- **The array the batch norm reads is real**: the second aggregate plus its bias. -/
theorem real_v42 (h0 : AllReal x0) (h2 : AllReal x2) (h4 : AllReal x4) (h5 : AllReal x5) (h6 : AllReal x6)
    (h7 : AllReal x7) : AllReal (val_main_v42 (F := Ideal) x0 x1 x2 x4 x5 x6 x7) := by
  unfold val_main_v42 val_main_v41 val_main_v40
  exact (real_v39 x0 x1 x2 x4 x5 x6 h0 h2 h4 h5 h6).addf ((h7.broadcastInDim _).broadcastInDim _)

end Cert.Ref

end
-- ==== Proof.Ref.FiniteMain.lean ====
/-
  From the precondition to the real entries the batch-norm law needs.

  The precondition makes all float arguments real arrays; the stages of the first two layers keep arrays real; so every
  entry of the array `V` the batch norm reads is a real number, and so are the entries of its scale `γ` and offset `β`
  (arguments 8 and 9), read at explicit coordinates.
-/
import proofs.«108927_j51273319579928_2_alg».proof.Proof.Ref.PreReal
import proofs.«108927_j51273319579928_2_alg».proof.Proof.Ref.Finite
import Idealize.ShloMosaic.Lib.ValueIdx

noncomputable section

namespace Cert.Ref

open Cert.ReferenceIdeal Cert.ReferenceIdeal.Gen Cert.ReferenceIdeal.Read Idealize.ShloMosaic Idealize.ShloMosaic.ValueIdx
  Cert.Alg

variable [Cert.Pre_finite_inputs.Facts]

/-- **What the precondition gives the batch-norm law.** If the precondition's bit is one on the fourteen arguments,
    then every entry of the array the batch norm reads, and every entry of its scale and offset, is a real number. -/
theorem pre_real
    (x0 : (⟨S253952x6, .f32⟩ : BufTy).Contents (Elt Ideal)) (x1 : (⟨S2x4063232, .i32⟩ : BufTy).Contents (Elt Ideal))
    (x2 : (⟨S4063232, .f32⟩ : BufTy).Contents (Elt Ideal)) (x3 : (⟨S253952, .i32⟩ : BufTy).Contents (Elt Ideal))
    (x4 : (⟨S6x32, .f32⟩ : BufTy).Contents (Elt Ideal)) (x5 : (⟨S32, .f32⟩ : BufTy).Contents (Elt Ideal))
    (x6 : (⟨S32x20, .f32⟩ : BufTy).Contents (Elt Ideal)) (x7 : (⟨S20, .f32⟩ : BufTy).Contents (Elt Ideal))
    (x8 : (⟨S20, .f32⟩ : BufTy).Contents (Elt Ideal)) (x9 : (⟨S20, .f32⟩ : BufTy).Contents (Elt Ideal))
    (x10 : (⟨S20x10, .f32⟩ : BufTy).Contents (Elt Ideal)) (x11 : (⟨S10, .f32⟩ : BufTy).Contents (Elt Ideal))
    (x12 : (⟨S10x2, .f32⟩ : BufTy).Contents (Elt Ideal)) (x13 : (⟨S2, .f32⟩ : BufTy).Contents (Elt Ideal))
    (h : Cert.Pre_finite_inputs.fn (F := Ideal) x0 x1 x2 x3 x4 x5 x6 x7 x8 x9 x10 x11 x12 x13 = fun _ => 1#1) :
    (∀ (r : Fin 253952) (j : Fin 20), IsReal (val_main_v42 (F := Ideal) x0 x1 x2 x4 x5 x6 x7 (ix2 r j)))
      ∧ (∀ j : Fin 20, IsReal (x8 (ix1 j))) ∧ (∀ j : Fin 20, IsReal (x9 (ix1 j))) := by
  obtain ⟨h0, h2, h4, h5, h6, h7, h8, h9, -⟩ := inputs_real x0 x1 x2 x3 x4 x5 x6 x7 x8 x9 x10 x11 x12 x13 h
  exact ⟨fun r j => real_v42 x0 x1 x2 x4 x5 x6 x7 h0 h2 h4 h5 h6 h7 (ix2 r j), fun j => h8 (ix1 j), fun j => h9 (ix1 j)⟩

end Cert.Ref

end
-- ==== Proof.Ref.BNStage.lean ====
/-
  The batch-norm stage of the two programs is one array.

  The reference normalises the columns of `V = aggregate + bias` (253952 rows, 20 columns) in two passes: the column
  mean `μ`, the mean `σ²` of the squared deviations from it, then `(V - μ) * rsqrt (σ² + ε) * γ + β` and the
  leaky-relu. The other program makes one pass: from each column's sum `S1` and sum of squares `S2` it folds a scale
  `γ * rsqrt (S2 / n - (S1 / n)² + ε)` and a shift `β - (S1 / n) * scale`, and applies `V * scale + shift` and the
  leaky-relu. This module reads the reference's stages at explicit coordinates (each from the stage before it), and
  joins the two forms with the law of the algebra module, which needs every entry of `V`, `γ` and `β` to be a real
  number — what the precondition gives.
-/
import proofs.«108927_j51273319579928_2_alg».proof.Proof.GenP.ReferenceIdeal.Read
import proofs.«108927_j51273319579928_2_alg».proof.Proof.Ref.FiniteMain
import proofs.«108927_j51273319579928_2_alg».proof.Proof.Ref.Algebra
import proofs.«108927_j51273319579928_2_alg».proof.Proof.Spec
import Idealize.ShloMosaic.Lib.ValueIdx

noncomputable section

namespace Cert.Ref.BN

open Cert.ReferenceIdeal Cert.ReferenceIdeal.Gen Cert.ReferenceIdeal.Read Idealize.ShloMosaic Idealize.ShloMosaic.ValueIdx
  Cert.Alg Cert.Spec
open scoped BigOperators

variable (x0 : (⟨S253952x6, .f32⟩ : BufTy).Contents (Elt Ideal)) (x1 : (⟨S2x4063232, .i32⟩ : BufTy).Contents (Elt Ideal))
  (x2 : (⟨S4063232, .f32⟩ : BufTy).Contents (Elt Ideal)) (x3 : (⟨S253952, .i32⟩ : BufTy).Contents (Elt Ideal))
  (x4 : (⟨S6x32, .f32⟩ : BufTy).Contents (Elt Ideal))
  (x5 : (⟨S32, .f32⟩ : BufTy).Contents (Elt Ideal)) (x6 : (⟨S32x20, .f32⟩ : BufTy).Contents (Elt Ideal))
  (x7 : (⟨S20, .f32⟩ : BufTy).Contents (Elt Ideal)) (x8 : (⟨S20, .f32⟩ : BufTy).Contents (Elt Ideal))
  (x9 : (⟨S20, .f32⟩ : BufTy).Contents (Elt Ideal))

/-! ## The reference's stages at coordinates -/

/-- `V` at `(r, c)`: the second aggregate plus its bias. -/
theorem v42_at (r : Fin 253952) (c : Fin 20) :
    val_main_v42 (F := Ideal) x0 x1 x2 x4 x5 x6 x7 (ix2 r c) = val_main_v39 (F := Ideal) x0 x1 x2 x4 x5 x6 (ix2 r c) + x7 (ix1 c) := by
  have e : idx_main_v40 (idx_main_v41 (ix2 r c)) = ix1 c := by
    funext a; match a with | ⟨0, _⟩ => rfl
  rw [val_main_v42_apply, val_main_v41_apply, val_main_v40_apply, e, Ideal.addf_def]

/-- The column mean `μ` at `c`. -/
theorem v45_at (c : Fin 20) :
    val_main_v45 (F := Ideal) x0 x1 x2 x4 x5 x6 x7 (ix1 c)
      = Ideal.div (Ideal.ofBits .f32 0x00000000#32 + ∑ k : Fin 253952, val_main_v42 (F := Ideal) x0 x1 x2 x4 x5 x6 x7 (ix2 k c))
          (Ideal.ofBits .f32 0x48780000#32) := by
  have e : ∀ k, idx_main_v43 (ix1 c) k = ix2 k c := fun k => by
    funext a; match a with | ⟨0, _⟩ => rfl | ⟨1, _⟩ => rfl
  rw [val_main_v45_apply, val_main_v43_apply, val_main_v44_apply, val_main_cst_6_apply, val_main_cst_7_apply,
    Ideal.hostDivf_def, Ideal.ofBits_def, Ideal.ofBits_def]
  refine congrArg (fun s => Ideal.div (Ideal.ofBits .f32 0x00000000#32 + s) (Ideal.ofBits .f32 0x48780000#32))
    (Finset.sum_congr rfl fun k _ => ?_)
  rw [e k]

/-- The deviation from the column mean at `(k, c)`. -/
theorem v48_at (c : Fin 20) (k : Fin 253952) :
    val_main_v48 (F := Ideal) x0 x1 x2 x4 x5 x6 x7 (ix2 k c) = val_main_v42 (F := Ideal) x0 x1 x2 x4 x5 x6 x7 (ix2 k c) - val_main_v45 (F := Ideal) x0 x1 x2 x4 x5 x6 x7 (ix1 c) := by
  have e' : idx_main_v46 (idx_main_v47 (ix2 k c)) = ix1 c := by
    funext a; match a with | ⟨0, _⟩ => rfl
  rw [val_main_v48_apply, val_main_v47_apply, val_main_v46_apply, e', Ideal.subf_def]

/-- The mean `σ²` of the squared deviations at `c`. -/
theorem v52_at (c : Fin 20) :
    val_main_v52 (F := Ideal) x0 x1 x2 x4 x5 x6 x7 (ix1 c)
      = Ideal.div (Ideal.ofBits .f32 0x00000000#32
            + ∑ k : Fin 253952, (val_main_v42 (F := Ideal) x0 x1 x2 x4 x5 x6 x7 (ix2 k c) - val_main_v45 (F := Ideal) x0 x1 x2 x4 x5 x6 x7 (ix1 c)) * (val_main_v42 (F := Ideal) x0 x1 x2 x4 x5 x6 x7 (ix2 k c) - val_main_v45 (F := Ideal) x0 x1 x2 x4 x5 x6 x7 (ix1 c)))
          (Ideal.ofBits .f32 0x48780000#32) := by
  have e : ∀ k, idx_main_v50 (ix1 c) k = ix2 k c := fun k => by
    funext a; match a with | ⟨0, _⟩ => rfl | ⟨1, _⟩ => rfl
  rw [val_main_v52_apply, val_main_v50_apply, val_main_v51_apply, val_main_cst_8_apply, val_main_cst_9_apply,
    Ideal.hostDivf_def, Ideal.ofBits_def, Ideal.ofBits_def]
  refine congrArg (fun s => Ideal.div (Ideal.ofBits .f32 0x00000000#32 + s) (Ideal.ofBits .f32 0x48780000#32))
    (Finset.sum_congr rfl fun k _ => ?_)
  rw [e k, val_main_v49_apply, v48_at x0 x1 x2 x4 x5 x6 x7 c k, Ideal.mulf_def]

/-- The reciprocal square root of the regularised variance at `c`. -/
theorem v58_at (c : Fin 20) :
    val_main_v58 (F := Ideal) x0 x1 x2 x4 x5 x6 x7 (ix1 c)
      = Ideal.rsqrt (val_main_v52 (F := Ideal) x0 x1 x2 x4 x5 x6 x7 (ix1 c) + Ideal.ofBits .f32 0x3727C5AC#32) := by
  rw [val_main_v58_apply, val_main_v57_apply, val_main_v56_apply, val_main_cst_10_apply, Ideal.hostUnary_rsqrt_def,
    Ideal.addf_def, Ideal.ofBits_def]

/-- The normalised and rescaled array at `(r, c)`, before the leaky-relu: the two-pass form. -/
theorem v67_at (r : Fin 253952) (c : Fin 20) :
    val_main_v67 (F := Ideal) x0 x1 x2 x4 x5 x6 x7 x8 x9 (ix2 r c)
      = (val_main_v42 (F := Ideal) x0 x1 x2 x4 x5 x6 x7 (ix2 r c) - val_main_v45 (F := Ideal) x0 x1 x2 x4 x5 x6 x7 (ix1 c))
          * Ideal.rsqrt (val_main_v52 (F := Ideal) x0 x1 x2 x4 x5 x6 x7 (ix1 c) + Ideal.ofBits .f32 0x3727C5AC#32)
          * x8 (ix1 c) + x9 (ix1 c) := by
  have e1 : idx_main_v53 (idx_main_v54 (ix2 r c)) = ix1 c := by funext a; match a with | ⟨0, _⟩ => rfl
  have e2 : idx_main_v59 (idx_main_v60 (ix2 r c)) = ix1 c := by funext a; match a with | ⟨0, _⟩ => rfl
  have e3 : idx_main_v62 (idx_main_v63 (ix2 r c)) = ix1 c := by funext a; match a with | ⟨0, _⟩ => rfl
  have e4 : idx_main_v65 (idx_main_v66 (ix2 r c)) = ix1 c := by funext a; match a with | ⟨0, _⟩ => rfl
  rw [val_main_v67_apply, val_main_v64_apply, val_main_v61_apply, val_main_v55_apply, val_main_v54_apply,
    val_main_v53_apply, e1, val_main_v60_apply, val_main_v59_apply, e2, v58_at x0 x1 x2 x4 x5 x6 x7 c,
    val_main_v63_apply, val_main_v62_apply, e3, val_main_v66_apply, val_main_v65_apply, e4,
    Ideal.addf_def, Ideal.mulf_def, Ideal.mulf_def, Ideal.subf_def]

/-- The reference's batch-norm output at `(r, c)`: the leaky-relu of the line above. -/
theorem v72_at (r : Fin 253952) (c : Fin 20) :
    val_main_v72 (F := Ideal) x0 x1 x2 x4 x5 x6 x7 x8 x9 (ix2 r c) = leaky (val_main_v67 (F := Ideal) x0 x1 x2 x4 x5 x6 x7 x8 x9 (ix2 r c)) :=
  leaky_of_entries _ (val_main_v67 (F := Ideal) x0 x1 x2 x4 x5 x6 x7 x8 x9) (val_main_v68 (F := Ideal)) (val_main_v70 (F := Ideal))
    (ix2 r c) (by rw [val_main_v68_apply, val_main_cst_11_apply, Ideal.ofBits_def])
    (by rw [val_main_v70_apply, val_main_cst_12_apply, Ideal.ofBits_def])

/-! ## The one-pass form of the reference's batch norm -/

/-- When every entry of column `c` of `V` and the entries `γ c`, `β c` are real numbers, the reference's batch-norm
    output at `(r, c)` is the leaky-relu of `V (r, c) * scale + shift`, with the scale and shift folded from the
    column's sum and sum of squares (`Cert.Alg.bnScale`, `Cert.Alg.bnShift`). -/
theorem v72_onepass (c : Fin 20) (hV : ∀ k : Fin 253952, IsReal (val_main_v42 (F := Ideal) x0 x1 x2 x4 x5 x6 x7 (ix2 k c)))
    (h8 : IsReal (x8 (ix1 c))) (h9 : IsReal (x9 (ix1 c))) (r : Fin 253952) :
    val_main_v72 (F := Ideal) x0 x1 x2 x4 x5 x6 x7 x8 x9 (ix2 r c)
      = leaky (val_main_v42 (F := Ideal) x0 x1 x2 x4 x5 x6 x7 (ix2 r c)
          * bnScale (∑ k : Fin 253952, val_main_v42 (F := Ideal) x0 x1 x2 x4 x5 x6 x7 (ix2 k c))
              (∑ k : Fin 253952, val_main_v42 (F := Ideal) x0 x1 x2 x4 x5 x6 x7 (ix2 k c) * val_main_v42 (F := Ideal) x0 x1 x2 x4 x5 x6 x7 (ix2 k c)) (x8 (ix1 c))
        + bnShift (∑ k : Fin 253952, val_main_v42 (F := Ideal) x0 x1 x2 x4 x5 x6 x7 (ix2 k c))
              (∑ k : Fin 253952, val_main_v42 (F := Ideal) x0 x1 x2 x4 x5 x6 x7 (ix2 k c) * val_main_v42 (F := Ideal) x0 x1 x2 x4 x5 x6 x7 (ix2 k c)) (x8 (ix1 c)) (x9 (ix1 c))) := by
  rw [v72_at, v67_at, v52_at, v45_at]
  exact congrArg leaky (bn_twopass_eq_onepass (fun k => val_main_v42 (F := Ideal) x0 x1 x2 x4 x5 x6 x7 (ix2 k c)) (x8 (ix1 c)) (x9 (ix1 c)) hV h8 h9 r)

/-! ## The join -/

/-- The one-pass scale and shift in the spelling of the host operations (at the extended reals each is the operation
    it names), applied to an entry `y`: the folded form of `Cert.Alg.bnScale` / `Cert.Alg.bnShift`. -/
theorem scale_shift_spelling (A B γ β y : Ideal .f32) :
    y * FloatOps.mulf (F := Ideal) γ (FloatOps.hostUnary .rsqrt (FloatOps.addf
          (FloatOps.subf (FloatOps.hostDivf B (FloatOps.ofBits .f32 0x48780000#32))
            (FloatOps.mulf (FloatOps.hostDivf A (FloatOps.ofBits .f32 0x48780000#32))
              (FloatOps.hostDivf A (FloatOps.ofBits .f32 0x48780000#32))))
          (FloatOps.ofBits .f32 0x3727C5AC#32)))
      + FloatOps.subf (F := Ideal) β (FloatOps.mulf (FloatOps.hostDivf A (FloatOps.ofBits .f32 0x48780000#32))
          (FloatOps.mulf γ (FloatOps.hostUnary .rsqrt (FloatOps.addf
            (FloatOps.subf (FloatOps.hostDivf B (FloatOps.ofBits .f32 0x48780000#32))
              (FloatOps.mulf (FloatOps.hostDivf A (FloatOps.ofBits .f32 0x48780000#32))
                (FloatOps.hostDivf A (FloatOps.ofBits .f32 0x48780000#32))))
            (FloatOps.ofBits .f32 0x3727C5AC#32)))))
      = y * bnScale A B γ + bnShift A B γ β := rfl

/-- **The batch-norm stage of the two programs is one array.** Let `S1 j`, `S2 j` be column `j`'s sum and sum of
    squares of `V = aggregate + bias`, and `sc`, `sh` the scale and shift folded from them as the one-pass program's
    host operations spell them. If every entry of `V`, of the scale `γ` and of the offset `β` is a real number, then
    `leaky (V (r, j) * sc j + sh j)` is the reference's batch-norm output at `(r, j)`. -/
theorem bn_stage (S1 S2 sc sh : Fin 20 → Ideal .f32)
    (hreal : (∀ (r : Fin 253952) (j : Fin 20), IsReal (val_main_v42 (F := Ideal) x0 x1 x2 x4 x5 x6 x7 (ix2 r j)))
      ∧ (∀ j : Fin 20, IsReal (x8 (ix1 j))) ∧ (∀ j : Fin 20, IsReal (x9 (ix1 j))))
    (hS1 : ∀ j, S1 j = ∑ r : Fin 253952, (val_main_v39 (F := Ideal) x0 x1 x2 x4 x5 x6 (ix2 r j) + x7 (ix1 j)))
    (hS2 : ∀ j, S2 j = ∑ r : Fin 253952, (val_main_v39 (F := Ideal) x0 x1 x2 x4 x5 x6 (ix2 r j) + x7 (ix1 j))
      * (val_main_v39 (F := Ideal) x0 x1 x2 x4 x5 x6 (ix2 r j) + x7 (ix1 j)))
    (hsc : ∀ j, sc j = FloatOps.mulf (x8 (ix1 j)) (FloatOps.hostUnary .rsqrt (FloatOps.addf
          (FloatOps.subf (FloatOps.hostDivf (S2 j) (FloatOps.ofBits .f32 0x48780000#32))
            (FloatOps.mulf (FloatOps.hostDivf (S1 j) (FloatOps.ofBits .f32 0x48780000#32))
              (FloatOps.hostDivf (S1 j) (FloatOps.ofBits .f32 0x48780000#32))))
          (FloatOps.ofBits .f32 0x3727C5AC#32))))
    (hsh : ∀ j, sh j = FloatOps.subf (x9 (ix1 j)) (FloatOps.mulf (FloatOps.hostDivf (S1 j) (FloatOps.ofBits .f32 0x48780000#32))
          (FloatOps.mulf (x8 (ix1 j)) (FloatOps.hostUnary .rsqrt (FloatOps.addf
            (FloatOps.subf (FloatOps.hostDivf (S2 j) (FloatOps.ofBits .f32 0x48780000#32))
              (FloatOps.mulf (FloatOps.hostDivf (S1 j) (FloatOps.ofBits .f32 0x48780000#32))
                (FloatOps.hostDivf (S1 j) (FloatOps.ofBits .f32 0x48780000#32))))
            (FloatOps.ofBits .f32 0x3727C5AC#32))))))
    (r : Fin 253952) (j : Fin 20) :
    leaky ((val_main_v39 (F := Ideal) x0 x1 x2 x4 x5 x6 (ix2 r j) + x7 (ix1 j)) * sc j + sh j)
      = val_main_v72 (F := Ideal) x0 x1 x2 x4 x5 x6 x7 x8 x9 (ix2 r j) := by
  obtain ⟨hV, h8, h9⟩ := hreal
  have e42 : ∀ k : Fin 253952, val_main_v42 (F := Ideal) x0 x1 x2 x4 x5 x6 x7 (ix2 k j)
      = val_main_v39 (F := Ideal) x0 x1 x2 x4 x5 x6 (ix2 k j) + x7 (ix1 j) := fun k => v42_at x0 x1 x2 x4 x5 x6 x7 k j
  have hV' : ∀ k : Fin 253952, IsReal (val_main_v42 (F := Ideal) x0 x1 x2 x4 x5 x6 x7 (ix2 k j)) := fun k => hV k j
  rw [v72_onepass x0 x1 x2 x4 x5 x6 x7 x8 x9 j hV' (h8 j) (h9 j) r]
  simp only [e42]
  rw [hsc j, hsh j, ← hS1 j, ← hS2 j]
  exact congrArg leaky (scale_shift_spelling (S1 j) (S2 j) (x8 (ix1 j)) (x9 (ix1 j)) _)

end Cert.Ref.BN

end
-- ==== Proof.KV.Bridge.lean ====
/-
  The rest of the run: the column sums of the second aggregation (plus its bias) and of its squares, which region 3
  accumulates over the grid; the scale and the shift the host derives from them; the normalised, rectified rows of
  region 4 — here the two programs are written differently: the reference subtracts the mean, multiplies by the
  reciprocal square root of the variance (a mean of squared deviations) plus a small constant, by the weight, and adds
  the offset, while the kernel program multiplies by a scale and adds a shift computed from the mean of the squares
  less the squared mean; the two agree on real numbers, and every value is real because the inputs are finite —;
  the pooling over graphs; and the head of region 5. The last buffer is the reference's result.
-/
import proofs.«108927_j51273319579928_2_alg».proof.Defs
import proofs.«108927_j51273319579928_2_alg».proof.Proof.Gen.KernelIdeal
import proofs.«108927_j51273319579928_2_alg».proof.Proof.Gen.ReferenceIdeal
import proofs.«108927_j51273319579928_2_alg».proof.Proof.Gen.Pre_finite_inputs
import proofs.«108927_j51273319579928_2_alg».proof.Proof.KV.Bridge1
import proofs.«108927_j51273319579928_2_alg».proof.Proof.KV.Match3
import proofs.«108927_j51273319579928_2_alg».proof.Proof.KV.Match4
import proofs.«108927_j51273319579928_2_alg».proof.Proof.KV.Match5
import proofs.«108927_j51273319579928_2_alg».proof.Proof.Ref.FiniteMain
import proofs.«108927_j51273319579928_2_alg».proof.Proof.Ref.BNStage
import proofs.«108927_j51273319579928_2_alg».proof.Proof.GenP.ReferenceIdeal.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HandValue

section Stages

variable (m : (ℓ : Loc nD τ sig) → Buf (Elt Ideal) ℓ) (ρ : Dev nD → PrngReg) (c : Dev nD)

/-- The column sums region 3 leaves: of the second aggregation plus its bias, -/
theorem st_sum (j : Fin 20) : (W7 m ρ c (Proc.devRef .tc main_v35_0) : (⟨S1x20, .f32⟩ : BufTy).Contents (Elt Ideal)) (ix2 (0 : Fin 1) j)
    = ∑ r : Fin 253952, (Cert.ReferenceIdeal.Read.val_main_v39 (F := Ideal) (a0 m c) (a1 m c) (a2 m c) (a4 m c) (a5 m c) (a6 m c) (ix2 r j) + (a7 m c : (⟨S20, .f32⟩ : BufTy).Contents (Elt Ideal)) (ix1 j)) :=
  (congrFun (W7_arr m ρ c 2) _).trans (match3_2 (E6 m ρ) c _ (a7 m c) (st_v33 m ρ c) (st_v34 m ρ c) j)
/-- and of its squares. -/
theorem st_sumsq (j : Fin 20) : (W7 m ρ c (Proc.devRef .tc main_v35_1) : (⟨S1x20, .f32⟩ : BufTy).Contents (Elt Ideal)) (ix2 (0 : Fin 1) j)
    = ∑ r : Fin 253952, (Cert.ReferenceIdeal.Read.val_main_v39 (F := Ideal) (a0 m c) (a1 m c) (a2 m c) (a4 m c) (a5 m c) (a6 m c) (ix2 r j) + (a7 m c : (⟨S20, .f32⟩ : BufTy).Contents (Elt Ideal)) (ix1 j))
        * (Cert.ReferenceIdeal.Read.val_main_v39 (F := Ideal) (a0 m c) (a1 m c) (a2 m c) (a4 m c) (a5 m c) (a6 m c) (ix2 r j) + (a7 m c : (⟨S20, .f32⟩ : BufTy).Contents (Elt Ideal)) (ix1 j)) :=
  (congrFun (W7_arr m ρ c 3) _).trans (match3_3 (E6 m ρ) c _ (a7 m c) (st_v33 m ρ c) (st_v34 m ρ c) j)

/-- Region 4 leaves the reference's normalised, rectified rows, given that the values entering the normalisation
    and its weight and offset are real numbers. -/
theorem st_v53
    (hreal : (∀ (r : Fin 253952) (j : Fin 20), Cert.Alg.IsReal (Cert.ReferenceIdeal.Read.val_main_v42 (F := Ideal) (a0 m c) (a1 m c) (a2 m c) (a4 m c) (a5 m c) (a6 m c) (a7 m c) (ix2 r j)))
      ∧ (∀ j : Fin 20, Cert.Alg.IsReal ((a8 m c : (⟨S20, .f32⟩ : BufTy).Contents (Elt Ideal)) (ix1 j)))
      ∧ (∀ j : Fin 20, Cert.Alg.IsReal ((a9 m c : (⟨S20, .f32⟩ : BufTy).Contents (Elt Ideal)) (ix1 j)))) :
    W9 m ρ c (Proc.devRef .tc main_v53) = Cert.ReferenceIdeal.Read.val_main_v72 (F := Ideal) (a0 m c) (a1 m c) (a2 m c) (a4 m c) (a5 m c) (a6 m c) (a7 m c) (a8 m c) (a9 m c) := by
  refine (W9_arr m ρ c 4).trans (funext fun i => ?_)
  obtain ⟨r, j, rfl⟩ : ∃ (r : Fin 253952) (j : Fin 20), i = ix2 r j := ⟨i 0, i 1, eq_ix2 i⟩
  have hrows := fun j => host4_rows_apply (F := Ideal) (W7 m ρ c) j
  -- the two sums' rows and the scale's and the shift's rows, entry by entry
  obtain ⟨S1, hS1⟩ : ∃ S1 : Fin 20 → Ideal .f32, ∀ j, (W7 m ρ c (Proc.devRef .tc main_v35_0) : (⟨S1x20, .f32⟩ : BufTy).Contents (Elt Ideal)) (ix2 (0 : Fin 1) j) = S1 j := ⟨_, fun _ => rfl⟩
  obtain ⟨S2, hS2⟩ : ∃ S2 : Fin 20 → Ideal .f32, ∀ j, (W7 m ρ c (Proc.devRef .tc main_v35_1) : (⟨S1x20, .f32⟩ : BufTy).Contents (Elt Ideal)) (ix2 (0 : Fin 1) j) = S2 j := ⟨_, fun _ => rfl⟩
  obtain ⟨sc, hsc⟩ : ∃ sc : Fin 20 → Ideal .f32, ∀ j, (W8 m ρ c (Proc.devRef .tc main_v51) : (⟨S1x20, .f32⟩ : BufTy).Contents (Elt Ideal)) (ix2 (0 : Fin 1) j) = sc j := ⟨_, fun _ => rfl⟩
  obtain ⟨sh, hsh⟩ : ∃ sh : Fin 20 → Ideal .f32, ∀ j, (W8 m ρ c (Proc.devRef .tc main_v52) : (⟨S1x20, .f32⟩ : BufTy).Contents (Elt Ideal)) (ix2 (0 : Fin 1) j) = sh j := ⟨_, fun _ => rfl⟩
  have k4 := match4_kernel (E8 m ρ) c (Cert.ReferenceIdeal.Read.val_main_v39 (F := Ideal) (a0 m c) (a1 m c) (a2 m c) (a4 m c) (a5 m c) (a6 m c))
    (fun j => (a7 m c : (⟨S20, .f32⟩ : BufTy).Contents (Elt Ideal)) (ix1 j)) sc sh
    ((keep_v33_8 m ρ c).trans (st_v33 m ρ c))
    (fun j => ((hrows j).1).trans (congrFun (keep_a7_7 m ρ c) _)) hsc hsh r j
  have kb := Cert.Ref.BN.bn_stage (a0 m c) (a1 m c) (a2 m c) (a4 m c) (a5 m c) (a6 m c) (a7 m c) (a8 m c) (a9 m c) S1 S2 sc sh hreal
    (fun j => (hS1 j).symm.trans (st_sum m ρ c j)) (fun j => (hS2 j).symm.trans (st_sumsq m ρ c j))
    (fun j => (hsc j).symm.trans (((hrows j).2.1).trans (by rw [keep_a8_7 m ρ c, hS1 j, hS2 j])))
    (fun j => (hsh j).symm.trans (((hrows j).2.2).trans (by rw [keep_a8_7 m ρ c, keep_a9_7 m ρ c, hS1 j, hS2 j])))
    r j
  exact k4.trans kb

theorem st_v56 (h53 : W9 m ρ c (Proc.devRef .tc main_v53) = Cert.ReferenceIdeal.Read.val_main_v72 (F := Ideal) (a0 m c) (a1 m c) (a2 m c) (a4 m c) (a5 m c) (a6 m c) (a7 m c) (a8 m c) (a9 m c)) :
    W10 m ρ c (Proc.devRef .tc main_v56) = Cert.ReferenceIdeal.Read.val_main_v75 (F := Ideal) (a0 m c) (a1 m c) (a2 m c) (a3 m c) (a4 m c) (a5 m c) (a6 m c) (a7 m c) (a8 m c) (a9 m c) :=
  host5_v56 (W9 m ρ c) _ _ _ _ _ _ _ _ _ _ h53 (keep_a3_9 m ρ c)

theorem st_v57 (k : Fin 10) : (W10 m ρ c (Proc.devRef .tc main_v57) : (⟨S1x10, .f32⟩ : BufTy).Contents (Elt Ideal)) (ix2 (0 : Fin 1) k) = (a11 m c : (⟨S10, .f32⟩ : BufTy).Contents (Elt Ideal)) (ix1 k) := by
  rw [show W10 m ρ c (Proc.devRef .tc main_v57) = _ from host5_v57 (W9 m ρ c)]
  exact (Cert.RowCast.shapeCast_row_apply _ shapeCasts_S10_S1x10 0 k).trans (congrFun (keep_a11_9 m ρ c) _)
theorem st_v58 (o : Fin 2) : (W10 m ρ c (Proc.devRef .tc main_v58) : (⟨S1x2, .f32⟩ : BufTy).Contents (Elt Ideal)) (ix2 (0 : Fin 1) o) = (a13 m c : (⟨S2, .f32⟩ : BufTy).Contents (Elt Ideal)) (ix1 o) := by
  rw [show W10 m ρ c (Proc.devRef .tc main_v58) = _ from host5_v58 (W9 m ρ c)]
  exact (Cert.RowCast.shapeCast_row_apply _ shapeCasts_S2_S1x2 0 o).trans (congrFun (keep_a13_9 m ρ c) _)

/-- Region 5 leaves the reference's result. -/
theorem st_v59 (h53 : W9 m ρ c (Proc.devRef .tc main_v53) = Cert.ReferenceIdeal.Read.val_main_v72 (F := Ideal) (a0 m c) (a1 m c) (a2 m c) (a4 m c) (a5 m c) (a6 m c) (a7 m c) (a8 m c) (a9 m c)) :
    W11 m ρ c (Proc.devRef .tc main_v59) = Cert.ReferenceIdeal.Read.val_main_v88 (F := Ideal) (a0 m c) (a1 m c) (a2 m c) (a3 m c) (a4 m c) (a5 m c) (a6 m c) (a7 m c) (a8 m c) (a9 m c) (a10 m c) (a11 m c) (a12 m c) (a13 m c) :=
  (W11_arr m ρ c 5).trans (match5 (E10 m ρ) c _ _ _ _ _ _ _ _ _ _ _ _ _ _ (st_v56 m ρ c h53) (keep_a10_10 m ρ c) (st_v57 m ρ c) (keep_a12_10 m ρ c) (st_v58 m ρ c))

end Stages

/-! ## The two programs end with the same result -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  haveI : Cert.Pre_finite_inputs.Facts := Cert.Pre_finite_inputs.Gen.facts
  intro m ρ m' ρ' hpre hagree
  refine ⟨fun c => W11 (F := Ideal) m ρ c (Proc.devRef .tc main_v59), ?_, ?_⟩
  · exact (θ_run defs _ _).mono (fun r h c =>
      ⟨h c _ (mem_uc main_v59 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)
      (run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq]
    obtain ⟨e0, e1, e2, e3, e4, e5, e6, e7, e8, e9, e10, e11, e12, e13⟩ := hagree c
    rw [e0, e1, e2, e3, e4, e5, e6, e7, e8, e9, e10, e11, e12, e13]
    exact (st_v59 m ρ c (st_v53 m ρ c (Cert.Ref.pre_real _ _ _ _ _ _ _ _ _ _ _ _ _ _ (hpre c)))).symm

end Cert.KernelIdeal.Hand

end
-- ==== Proof.lean ====
/-
  The certificate's claims assembled.
  The word-level program and its idealization run to the end, fault nowhere and leave their argument arrays as
  launched: the run of the six regions among the host stretches (one text, read at either float instance). The
  reference does too: its run, the result dropped. The idealization pass rewrote nothing, so it preserves the program
  trivially. At the exact instance the two programs end with the same result: every buffer the kernel program
  writes is followed from the launch and is, stage by stage, the reference's stage function of the arguments; the one
  place where the two are written differently — the variance as the mean of the squares less the squared mean, and
  the normalisation folded into a scale and a shift — is an identity of real numbers, and every value there is
  real because the inputs are finite, a gather stays inside its operand and every sum is finite.
-/
import proofs.«108927_j51273319579928_2_alg».proof.Defs
import proofs.«108927_j51273319579928_2_alg».proof.Proof.Gen.Kernel
import proofs.«108927_j51273319579928_2_alg».proof.Proof.Gen.KernelIdeal
import proofs.«108927_j51273319579928_2_alg».proof.Proof.Gen.ReferenceIdeal
import proofs.«108927_j51273319579928_2_alg».proof.Proof.Gen.Pre_finite_inputs
import proofs.«108927_j51273319579928_2_alg».proof.Proof.Frames
import proofs.«108927_j51273319579928_2_alg».proof.Proof.KV.Bridge

noncomputable section

namespace Cert.Proof

theorem claim : Cert.Claim :=
  ⟨Cert.Kernel.Gen.facts, Cert.KernelIdeal.Gen.facts, Cert.ReferenceIdeal.Gen.facts, Cert.Pre_finite_inputs.Gen.facts,
   Cert.Proof.Frames.frame_k, Cert.Proof.Frames.frame_ki, Cert.Proof.Frames.frame_ri, Cert.Proof.Frames.preserves,
   Cert.KernelIdeal.Hand.algebraic⟩

end Cert.Proof

end
